-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v116_0)) (v1 : (c : Dev Cert.KernelIdeal.nD) → Buf (Elt Ideal) ((c.tc : Thread Cert.KernelIdeal.nD Cert.KernelIdeal.τ).loc Cert.KernelIdeal.main_v116_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116_0) = v0 c
          ∧ r.2.mem ((c.tc : Thread Cert.KernelIdeal.nD Cert.KernelIdeal.τ).loc Cert.KernelIdeal.main_v116_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x100x50 : Shape := ⟨3, ![1024, 100, 50]⟩
abbrev S128x4 : Shape := ⟨2, ![128, 4]⟩
abbrev S1024x50176 : Shape := ⟨2, ![1024, 50176]⟩
abbrev S1024 : Shape := ⟨1, ![1024]⟩
abbrev S21x1024 : Shape := ⟨2, ![21, 1024]⟩
abbrev S21 : Shape := ⟨1, ![21]⟩
abbrev S4x1024 : Shape := ⟨2, ![4, 1024]⟩
abbrev S4 : Shape := ⟨1, ![4]⟩
abbrev S_ : Shape := ⟨0, ![]⟩

class Facts : Prop where
  bcast_S_S1024x100x50 : S_.BroadcastsInDim S1024x100x50 (![] : Fin 0 → Fin S1024x100x50.rank)
  reducesTo_S1024x100x50_S_d0_1_2 : S1024x100x50.ReducesTo [0, 1, 2] S_
  h_S_ : 0 < S_.numel
  bcast_S_S1024x50176 : S_.BroadcastsInDim S1024x50176 (![] : Fin 0 → Fin S1024x50176.rank)
  reducesTo_S1024x50176_S_d0_1 : S1024x50176.ReducesTo [0, 1] S_
  bcast_S_S1024 : S_.BroadcastsInDim S1024 (![] : Fin 0 → Fin S1024.rank)
  reducesTo_S1024_S_d0 : S1024.ReducesTo [0] S_
  bcast_S_S21x1024 : S_.BroadcastsInDim S21x1024 (![] : Fin 0 → Fin S21x1024.rank)
  reducesTo_S21x1024_S_d0_1 : S21x1024.ReducesTo [0, 1] S_
  bcast_S_S21 : S_.BroadcastsInDim S21 (![] : Fin 0 → Fin S21.rank)
  reducesTo_S21_S_d0 : S21.ReducesTo [0] S_
  bcast_S_S4x1024 : S_.BroadcastsInDim S4x1024 (![] : Fin 0 → Fin S4x1024.rank)
  reducesTo_S4x1024_S_d0_1 : S4x1024.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S21 .f32) (main_arg6 : FVec F S4x1024 .f32) (main_arg7 : FVec F S4 .f32) (main_v13 : IVec S_ 1) (main_v16 : IVec S21x1024 1) : IVec S_ 1 :=
  let main_c_5 : IVec S_ 1 := constantI S_ 1 1#1
  let main_v17 : IVec S_ 1 := (fun x v => Host.reduce IntOp.andi x v reducesTo_S21x1024_S_d0_1 h_S_) main_v16 main_c_5
  let main_v18 : IVec S_ 1 := andi main_v13 main_v17
  let main_v19 : FVec F S21 .f32 := Host.absf main_arg5
  let main_cst_6 : FVec F S_ .f32 := constant S_ .f32 0x7F800000#32
  let main_v20 : FVec F S21 .f32 := broadcastInDim S21 ![] bcast_S_S21 main_cst_6
  let main_v21 : IVec S21 1 := cmpf .olt main_v19 main_v20
  let main_c_7 : IVec S_ 1 := constantI S_ 1 1#1
  let main_v22 : IVec S_ 1 := (fun x v => Host.reduce IntOp.andi x v reducesTo_S21_S_d0 h_S_) main_v21 main_c_7
  let main_v23 : IVec S_ 1 := andi main_v18 main_v22
  let main_v24 : FVec F S4x1024 .f32 := Host.absf main_arg6
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S1024x100x50 .f32) (main_arg1 : IVec S128x4 32) (main_arg2 : FVec F S1024x50176 .f32) (main_arg3 : FVec F S1024 .f32) (main_arg4 : FVec F S21x1024 .f32) (main_arg5 : FVec F S21 .f32) (main_arg6 : FVec F S4x1024 .f32) (main_arg7 : FVec F S4 .f32) : IVec S_ 1 :=
  let main_v0 : FVec F S1024x100x50 .f32 := Host.absf main_arg0
  let main_cst : FVec F S_ .f32 := constant S_ .f32 0x7F800000#32
  let main_v1 : FVec F S1024x100x50 .f32 := broadcastInDim S1024x100x50 ![] bcast_S_S1024x100x50 main_cst
  let main_v2 : IVec S1024x100x50 1 := cmpf .olt main_v0 main_v1
  let main_c : IVec S_ 1 := constantI S_ 1 1#1
  let main_v3 : IVec S_ 1 := (fun x v => Host.reduce IntOp.andi x v reducesTo_S1024x100x50_S_d0_1_2 h_S_) main_v2 main_c
  let main_v4 : FVec F S1024x50176 .f32 := Host.absf main_arg2
  let main_cst_0 : FVec F S_ .f32 := constant S_ .f32 0x7F800000#32
  let main_v5 : FVec F S1024x50176 .f32 := broadcastInDim S1024x50176 ![] bcast_S_S1024x50176 main_cst_0
  let main_v6 : IVec S1024x50176 1 := cmpf .olt main_v4 main_v5
  let main_c_1 : IVec S_ 1 := constantI S_ 1 1#1
  let main_v7 : IVec S_ 1 := (fun x v => Host.reduce IntOp.andi x v reducesTo_S1024x50176_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S21x1024 .f32 := Host.absf main_arg4
  let main_cst_4 : FVec F S_ .f32 := constant S_ .f32 0x7F800000#32
  let main_v15 : FVec F S21x1024 .f32 := broadcastInDim S21x1024 ![] bcast_S_S21x1024 main_cst_4
  let main_v16 : IVec S21x1024 1 := cmpf .olt main_v14 main_v15
  fn_part1 (F := F) main_arg5 main_arg6 main_arg7 main_v13 main_v16
-- ==== Kernel.lean ====
abbrev S1024x100x50 : Shape := ⟨3, ![1024, 100, 50]⟩
abbrev S128x4 : Shape := ⟨2, ![128, 4]⟩
abbrev S1024x50176 : Shape := ⟨2, ![1024, 50176]⟩
abbrev S1024 : Shape := ⟨1, ![1024]⟩
abbrev S21x1024 : Shape := ⟨2, ![21, 1024]⟩
abbrev S21 : Shape := ⟨1, ![21]⟩
abbrev S4x1024 : Shape := ⟨2, ![4, 1024]⟩
abbrev S4 : Shape := ⟨1, ![4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S128x7x1 : Shape := ⟨3, ![128, 7, 1]⟩
abbrev S5 : Shape := ⟨1, ![5]⟩
abbrev S1x5 : Shape := ⟨2, ![1, 5]⟩
abbrev S1x1x5 : Shape := ⟨3, ![1, 1, 5]⟩
abbrev S128x7x5 : Shape := ⟨3, ![128, 7, 5]⟩
abbrev S128x7x5x1x1 : Shape := ⟨5, ![128, 7, 5, 1, 1]⟩
abbrev S128x1x1x7x5 : Shape := ⟨5, ![128, 1, 1, 7, 5]⟩
abbrev S128x7x5x7x5 : Shape := ⟨5, ![128, 7, 5, 7, 5]⟩
abbrev S128x7x5x7x5x1 : Shape := ⟨6, ![128, 7, 5, 7, 5, 1]⟩
abbrev S128x7x5x7x5x2 : Shape := ⟨6, ![128, 7, 5, 7, 5, 2]⟩
abbrev S128x1024x7x5x7x5 : Shape := ⟨6, ![128, 1024, 7, 5, 7, 5]⟩
abbrev S128x1x7x5x7x5 : Shape := ⟨6, ![128, 1, 7, 5, 7, 5]⟩
abbrev S1024x7x5x7x5 : Shape := ⟨5, ![1024, 7, 5, 7, 5]⟩
abbrev S128x1024x7x7 : Shape := ⟨4, ![128, 1024, 7, 7]⟩
abbrev S128x50176 : Shape := ⟨2, ![128, 50176]⟩
abbrev S1x1024 : Shape := ⟨2, ![1, 1024]⟩
abbrev S1x21 : Shape := ⟨2, ![1, 21]⟩
abbrev S1x4 : Shape := ⟨2, ![1, 4]⟩
abbrev S128x21 : Shape := ⟨2, ![128, 21]⟩
abbrev S128x1792 : Shape := ⟨2, ![128, 1792]⟩
abbrev S1024x1792 : Shape := ⟨2, ![1024, 1792]⟩
abbrev S128x1024 : Shape := ⟨2, ![128, 1024]⟩

abbrev nBuf : Space → Nat
  | .hbm => 243
  | .vmem => 12
  | .smem => 0
  | _ => 0

abbrev hbmTy0_0 (i : Nat) : BufTy := match i % 128 with
  | 0 => ⟨S1024x100x50, .f32⟩
  | 1 => ⟨S128x4, .i32⟩
  | 2 => ⟨S1024x50176, .f32⟩
  | 3 => ⟨S1024, .f32⟩
  | 4 => ⟨S21x1024, .f32⟩
  | 5 => ⟨S21, .f32⟩
  | 6 => ⟨S4x1024, .f32⟩
  | 7 => ⟨S4, .f32⟩
  | 8 => ⟨S_, .i32⟩
  | 9 => ⟨S_, .i32⟩
  | 10 => ⟨S128x4, .i32⟩
  | 11 => ⟨S128x4, .i32⟩
  | 12 => ⟨S128x4, .i32⟩
  | 13 => ⟨S_, .i32⟩
  | 14 => ⟨S128x4, .i32⟩
  | 15 => ⟨S128x4, .i1⟩
  | 16 => ⟨S128x4, .i32⟩
  | 17 => ⟨S128x4, .i32⟩
  | 18 => ⟨S_, .i32⟩
  | 19 => ⟨S128x4, .i32⟩
  | 20 => ⟨S128x4, .i1⟩
  | 21 => ⟨S128x4, .i1⟩
  | 22 => ⟨S_, .i32⟩
  | 23 => ⟨S128x4, .i32⟩
  | 24 => ⟨S128x4, .i32⟩
  | 25 => ⟨S128x4, .i32⟩
  | 26 => ⟨S128x1, .i32⟩
  | 27 => ⟨S128, .i32⟩
  | 28 => ⟨S128x1, .i32⟩
  | 29 => ⟨S128, .i32⟩
  | 30 => ⟨S128x1, .i32⟩
  | 31 => ⟨S128, .i32⟩
  | 32 => ⟨S128x1, .i32⟩
  | 33 => ⟨S128, .i32⟩
  | 34 => ⟨S128, .i32⟩
  | 35 => ⟨S_, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S7, .i32⟩
  | 43 => ⟨S1x7, .i32⟩
  | 44 => ⟨S128x1, .i32⟩
  | 45 => ⟨S128x7, .i32⟩
  | 46 => ⟨S128x7, .i32⟩
  | 47 => ⟨S128x7, .i32⟩
  | 48 => ⟨S_, .i32⟩
  | 49 => ⟨S_, .i32⟩
  | 50 => ⟨S128x7, .i32⟩
  | 51 => ⟨S128x7, .i32⟩
  | 52 => ⟨S128x7, .i32⟩
  | 53 => ⟨S_, .i32⟩
  | 54 => ⟨S128x7, .i32⟩
  | 55 => ⟨S128x7, .i1⟩
  | 56 => ⟨S128x7, .i32⟩
  | 57 => ⟨S128x7, .i32⟩
  | 58 => ⟨S_, .i32⟩
  | 59 => ⟨S128x7, .i32⟩
  | 60 => ⟨S128x7, .i1⟩
  | 61 => ⟨S128x7, .i1⟩
  | 62 => ⟨S_, .i32⟩
  | 63 => ⟨S128x7, .i32⟩
  | 64 => ⟨S128x7, .i32⟩
  | 65 => ⟨S128x7, .i32⟩
  | 66 => ⟨S128x1, .i32⟩
  | 67 => ⟨S128x7, .i32⟩
  | 68 => ⟨S128x7, .i32⟩
  | 69 => ⟨S_, .i32⟩
  | 70 => ⟨S7, .i32⟩
  | 71 => ⟨S7, .i32⟩
  | 72 => ⟨S1x7, .i32⟩
  | 73 => ⟨S128x1, .i32⟩
  | 74 => ⟨S128x7, .i32⟩
  | 75 => ⟨S128x7, .i32⟩
  | 76 => ⟨S128x7, .i32⟩
  | 77 => ⟨S_, .i32⟩
  | 78 => ⟨S128x7, .i32⟩
  | 79 => ⟨S128x7, .i32⟩
  | 80 => ⟨S_, .i32⟩
  | 81 => ⟨S128x7, .i32⟩
  | 82 => ⟨S128x7, .i32⟩
  | 83 => ⟨S_, .i32⟩
  | 84 => ⟨S_, .i32⟩
  | 85 => ⟨S128x7, .i32⟩
  | 86 => ⟨S128x7, .i32⟩
  | 87 => ⟨S128x7, .i32⟩
  | 88 => ⟨S_, .i32⟩
  | 89 => ⟨S128x7, .i32⟩
  | 90 => ⟨S128x7, .i1⟩
  | 91 => ⟨S128x7, .i32⟩
  | 92 => ⟨S128x7, .i32⟩
  | 93 => ⟨S_, .i32⟩
  | 94 => ⟨S128x7, .i32⟩
  | 95 => ⟨S128x7, .i1⟩
  | 96 => ⟨S128x7, .i1⟩
  | 97 => ⟨S_, .i32⟩
  | 98 => ⟨S128x7, .i32⟩
  | 99 => ⟨S128x7, .i32⟩
  | 100 => ⟨S128x7, .i32⟩
  | 101 => ⟨S128x1, .i32⟩
  | 102 => ⟨S128x7, .i32⟩
  | 103 => ⟨S128x7, .i32⟩
  | 104 => ⟨S1x7, .i32⟩
  | 105 => ⟨S128x1, .i32⟩
  | 106 => ⟨S128x7, .i32⟩
  | 107 => ⟨S128x7, .i32⟩
  | 108 => ⟨S128x7, .i32⟩
  | 109 => ⟨S_, .i32⟩
  | 110 => ⟨S_, .i32⟩
  | 111 => ⟨S128x7, .i32⟩
  | 112 => ⟨S128x7, .i32⟩
  | 113 => ⟨S128x7, .i32⟩
  | 114 => ⟨S_, .i32⟩
  | 115 => ⟨S128x7, .i32⟩
  | 116 => ⟨S128x7, .i1⟩
  | 117 => ⟨S128x7, .i32⟩
  | 118 => ⟨S128x7, .i32⟩
  | 119 => ⟨S_, .i32⟩
  | 120 => ⟨S128x7, .i32⟩
  | 121 => ⟨S128x7, .i1⟩
  | 122 => ⟨S128x7, .i1⟩
  | 123 => ⟨S_, .i32⟩
  | 124 => ⟨S128x7, .i32⟩
  | 125 => ⟨S128x7, .i32⟩
  | 126 => ⟨S128x7, .i32⟩
  | 127 => ⟨S128x1, .i32⟩
  | _ => ⟨S1024x100x50, .f32⟩

abbrev hbmTy0_1 (i : Nat) : BufTy := match i % 128 with
  | 0 => ⟨S128x7, .i32⟩
  | 1 => ⟨S128x7, .i32⟩
  | 2 => ⟨S_, .i32⟩
  | 3 => ⟨S7, .i32⟩
  | 4 => ⟨S7, .i32⟩
  | 5 => ⟨S1x7, .i32⟩
  | 6 => ⟨S128x1, .i32⟩
  | 7 => ⟨S128x7, .i32⟩
  | 8 => ⟨S128x7, .i32⟩
  | 9 => ⟨S128x7, .i32⟩
  | 10 => ⟨S_, .i32⟩
  | 11 => ⟨S128x7, .i32⟩
  | 12 => ⟨S128x7, .i32⟩
  | 13 => ⟨S_, .i32⟩
  | 14 => ⟨S128x7, .i32⟩
  | 15 => ⟨S128x7, .i32⟩
  | 16 => ⟨S_, .i32⟩
  | 17 => ⟨S_, .i32⟩
  | 18 => ⟨S128x7, .i32⟩
  | 19 => ⟨S128x7, .i32⟩
  | 20 => ⟨S128x7, .i32⟩
  | 21 => ⟨S_, .i32⟩
  | 22 => ⟨S128x7, .i32⟩
  | 23 => ⟨S128x7, .i1⟩
  | 24 => ⟨S128x7, .i32⟩
  | 25 => ⟨S128x7, .i32⟩
  | 26 => ⟨S_, .i32⟩
  | 27 => ⟨S128x7, .i32⟩
  | 28 => ⟨S128x7, .i1⟩
  | 29 => ⟨S128x7, .i1⟩
  | 30 => ⟨S_, .i32⟩
  | 31 => ⟨S128x7, .i32⟩
  | 32 => ⟨S128x7, .i32⟩
  | 33 => ⟨S128x7, .i32⟩
  | 34 => ⟨S128x1, .i32⟩
  | 35 => ⟨S128x7, .i32⟩
  | 36 => ⟨S128x7, .i32⟩
  | 37 => ⟨S128x7x1, .i32⟩
  | 38 => ⟨S5, .i32⟩
  | 39 => ⟨S1x5, .i32⟩
  | 40 => ⟨S1x1x5, .i32⟩
  | 41 => ⟨S128x7x5, .i32⟩
  | 42 => ⟨S128x7x5, .i32⟩
  | 43 => ⟨S128x7x5, .i32⟩
  | 44 => ⟨S128x7x1, .i32⟩
  | 45 => ⟨S5, .i32⟩
  | 46 => ⟨S1x5, .i32⟩
  | 47 => ⟨S1x1x5, .i32⟩
  | 48 => ⟨S128x7x5, .i32⟩
  | 49 => ⟨S128x7x5, .i32⟩
  | 50 => ⟨S128x7x5, .i32⟩
  | 51 => ⟨S128x7x1, .i32⟩
  | 52 => ⟨S128x7x5, .i32⟩
  | 53 => ⟨S128x7x5, .i1⟩
  | 54 => ⟨S128x7x1, .i32⟩
  | 55 => ⟨S128x7x5, .i32⟩
  | 56 => ⟨S128x7x5, .i1⟩
  | 57 => ⟨S_, .i32⟩
  | 58 => ⟨S_, .i32⟩
  | 59 => ⟨S_, .i32⟩
  | 60 => ⟨S128x7x5, .i32⟩
  | 61 => ⟨S128x7x5, .i32⟩
  | 62 => ⟨S_, .i32⟩
  | 63 => ⟨S128x7x5, .i32⟩
  | 64 => ⟨S128x7x5, .i32⟩
  | 65 => ⟨S_, .i32⟩
  | 66 => ⟨S_, .i32⟩
  | 67 => ⟨S_, .i32⟩
  | 68 => ⟨S128x7x5, .i32⟩
  | 69 => ⟨S128x7x5, .i32⟩
  | 70 => ⟨S_, .i32⟩
  | 71 => ⟨S128x7x5, .i32⟩
  | 72 => ⟨S128x7x5, .i32⟩
  | 73 => ⟨S128x7x5x1x1, .i32⟩
  | 74 => ⟨S128x1x1x7x5, .i32⟩
  | 75 => ⟨S_, .i32⟩
  | 76 => ⟨S128x7x5x1x1, .i32⟩
  | 77 => ⟨S128x7x5x1x1, .i1⟩
  | 78 => ⟨S_, .i32⟩
  | 79 => ⟨S128x7x5x1x1, .i32⟩
  | 80 => ⟨S128x7x5x1x1, .i32⟩
  | 81 => ⟨S128x7x5x1x1, .i32⟩
  | 82 => ⟨S_, .i32⟩
  | 83 => ⟨S128x1x1x7x5, .i32⟩
  | 84 => ⟨S128x1x1x7x5, .i1⟩
  | 85 => ⟨S_, .i32⟩
  | 86 => ⟨S128x1x1x7x5, .i32⟩
  | 87 => ⟨S128x1x1x7x5, .i32⟩
  | 88 => ⟨S128x1x1x7x5, .i32⟩
  | 89 => ⟨S128x7x5x7x5, .i32⟩
  | 90 => ⟨S128x7x5x7x5, .i32⟩
  | 91 => ⟨S128x7x5x7x5x1, .i32⟩
  | 92 => ⟨S128x7x5x7x5x1, .i32⟩
  | 93 => ⟨S128x7x5x7x5x2, .i32⟩
  | 94 => ⟨S128x1024x7x5x7x5, .f32⟩
  | 95 => ⟨S128x7x5x1x1, .i1⟩
  | 96 => ⟨S128x1x1x7x5, .i1⟩
  | 97 => ⟨S128x7x5x7x5, .i1⟩
  | 98 => ⟨S128x7x5x7x5, .i1⟩
  | 99 => ⟨S128x7x5x7x5, .i1⟩
  | 100 => ⟨S128x1x7x5x7x5, .i1⟩
  | 101 => ⟨S_, .f32⟩
  | 102 => ⟨S_, .f32⟩
  | 103 => ⟨S128x1024x7x5x7x5, .i1⟩
  | 104 => ⟨S1024x7x5x7x5, .f32⟩
  | 105 => ⟨S128x1024x7x5x7x5, .f32⟩
  | 106 => ⟨S128x1024x7x5x7x5, .f32⟩
  | 107 => ⟨S_, .f32⟩
  | 108 => ⟨S128x1024x7x7, .f32⟩
  | 109 => ⟨S128x50176, .f32⟩
  | 110 => ⟨S1x1024, .f32⟩
  | 111 => ⟨S1x21, .f32⟩
  | 112 => ⟨S1x4, .f32⟩
  | 113 => ⟨S128x21, .f32⟩
  | 114 => ⟨S128x4, .f32⟩
  | _ => ⟨S1024x100x50, .f32⟩

abbrev hbmTy (i : Nat) : BufTy := match i / 128 with
  | 0 => hbmTy0_0 i
  | 1 => hbmTy0_1 i
  | _ => ⟨S1024x100x50, .f32⟩

abbrev bufTy : (tb : Table) → Fin (tcTables nBuf tb) → BufTy
  | .hbm, ⟨i, _⟩ => hbmTy i
  | .local _ .vmem, ⟨0, _⟩ => ⟨S128x1792, .f32⟩
  | .local _ .vmem, ⟨1, _⟩ => ⟨S128x1792, .f32⟩
  | .local _ .vmem, ⟨2, _⟩ => ⟨S1024x1792, .f32⟩
  | .local _ .vmem, ⟨3, _⟩ => ⟨S1024x1792, .f32⟩
  | .local _ .vmem, ⟨4, _⟩ => ⟨S1x1024, .f32⟩
  | .local _ .vmem, ⟨5, _⟩ => ⟨S21x1024, .f32⟩
  | .local _ .vmem, ⟨6, _⟩ => ⟨S1x21, .f32⟩
  | .local _ .vmem, ⟨7, _⟩ => ⟨S4x1024, .f32⟩
  | .local _ .vmem, ⟨8, _⟩ => ⟨S1x4, .f32⟩
  | .local _ .vmem, ⟨9, _⟩ => ⟨S128x21, .f32⟩
  | .local _ .vmem, ⟨10, _⟩ => ⟨S128x4, .f32⟩
  | .local _ .vmem, ⟨11, _⟩ => ⟨S128x1024, .f32⟩
  | _, _ => ⟨S1024x100x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_3 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_c_4 : Ref sig .tc := ⟨.hbm, 77, rfl⟩
abbrev main_v32 : Ref sig .tc := ⟨.hbm, 78, rfl⟩
abbrev main_v33 : Ref sig .tc := ⟨.hbm, 79, rfl⟩
abbrev main_c_5 : Ref sig .tc := ⟨.hbm, 80, rfl⟩
abbrev main_v34 : Ref sig .tc := ⟨.hbm, 81, rfl⟩
abbrev main_v35 : Ref sig .tc := ⟨.hbm, 82, rfl⟩
abbrev main_c_6 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_c_7 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_c : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_0 : Ref sig .tc := ⟨.hbm, 123, rfl⟩
abbrev main_call3_v12 : Ref sig .tc := ⟨.hbm, 124, rfl⟩
abbrev main_call3_v13 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_c_8 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_c_9 : Ref sig .tc := ⟨.hbm, 138, rfl⟩
abbrev main_v56 : Ref sig .tc := ⟨.hbm, 139, rfl⟩
abbrev main_v57 : Ref sig .tc := ⟨.hbm, 140, rfl⟩
abbrev main_c_10 : Ref sig .tc := ⟨.hbm, 141, rfl⟩
abbrev main_v58 : Ref sig .tc := ⟨.hbm, 142, rfl⟩
abbrev main_v59 : Ref sig .tc := ⟨.hbm, 143, rfl⟩
abbrev main_c_11 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_c_12 : Ref sig .tc := ⟨.hbm, 185, rfl⟩
abbrev main_c_13 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v84 : Ref sig .tc := ⟨.hbm, 192, rfl⟩
abbrev main_c_14 : Ref sig .tc := ⟨.hbm, 193, rfl⟩
abbrev main_c_15 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_c_16 : Ref sig .tc := ⟨.hbm, 203, rfl⟩
abbrev main_v88 : Ref sig .tc := ⟨.hbm, 204, rfl⟩
abbrev main_v89 : Ref sig .tc := ⟨.hbm, 205, rfl⟩
abbrev main_c_17 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_c_18 : Ref sig .tc := ⟨.hbm, 210, rfl⟩
abbrev main_v93 : Ref sig .tc := ⟨.hbm, 211, rfl⟩
abbrev main_v94 : Ref sig .tc := ⟨.hbm, 212, rfl⟩
abbrev main_c_19 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_cst : Ref sig .tc := ⟨.hbm, 229, rfl⟩
abbrev main_call7_v0 : Ref sig .tc := ⟨.hbm, 230, rfl⟩
abbrev main_call7_v1 : Ref sig .tc := ⟨.hbm, 231, rfl⟩
abbrev main_call7_v2 : Ref sig .tc := ⟨.hbm, 232, rfl⟩
abbrev main_call7_v3 : Ref sig .tc := ⟨.hbm, 233, rfl⟩
abbrev main_v110 : Ref sig .tc := ⟨.hbm, 234, rfl⟩
abbrev main_cst_20 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116_0 : Ref sig .tc := ⟨.hbm, 241, rfl⟩
abbrev main_v116_1 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![28], ![false]⟩

def k0_cond2 (i : grid0.Coords) : BitVec 1 :=
  let arg0 : BitVec 32 := BitVec.ofNat 32 (i 0).val
  let c27_i32 : BitVec 32 := 27#32
  let v14 : BitVec 1 := Scalar.cmpi .eq arg0 c27_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S21x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x21 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S7_S1x7_1 : S7.BroadcastsInDim S1x7 (![1] : Fin 1 → Fin S1x7.rank)
  bcast_S128_S128x1_0 : S128.BroadcastsInDim S128x1 (![0] : Fin 1 → Fin S128x1.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S7 : S_.BroadcastsInDim S7 (![] : Fin 0 → Fin S7.rank)
  bcast_S128x7_S128x7x1_0_1 : S128x7.BroadcastsInDim S128x7x1 (![0, 1] : Fin 2 → Fin S128x7x1.rank)
  bcast_S5_S1x5_1 : S5.BroadcastsInDim S1x5 (![1] : Fin 1 → Fin S1x5.rank)
  bcast_S1x5_S1x1x5_1_2 : S1x5.BroadcastsInDim S1x1x5 (![1, 2] : Fin 2 → Fin S1x1x5.rank)
  bcast_S128x7x1_S128x7x5_0_1_2 : S128x7x1.BroadcastsInDim S128x7x5 (![0, 1, 2] : Fin 3 → Fin S128x7x5.rank)
  bcast_S1x1x5_S128x7x5_0_1_2 : S1x1x5.BroadcastsInDim S128x7x5 (![0, 1, 2] : Fin 3 → Fin S128x7x5.rank)
  bcast_S_S128x7x5 : S_.BroadcastsInDim S128x7x5 (![] : Fin 0 → Fin S128x7x5.rank)
  bcast_S128x7x5_S128x7x5x1x1_0_1_2 : S128x7x5.BroadcastsInDim S128x7x5x1x1 (![0, 1, 2] : Fin 3 → Fin S128x7x5x1x1.rank)
  bcast_S128x7x5_S128x1x1x7x5_0_3_4 : S128x7x5.BroadcastsInDim S128x1x1x7x5 (![0, 3, 4] : Fin 3 → Fin S128x1x1x7x5.rank)
  bcast_S_S128x7x5x1x1 : S_.BroadcastsInDim S128x7x5x1x1 (![] : Fin 0 → Fin S128x7x5x1x1.rank)
  bcast_S_S128x1x1x7x5 : S_.BroadcastsInDim S128x1x1x7x5 (![] : Fin 0 → Fin S128x1x1x7x5.rank)
  bcast_S128x7x5x1x1_S128x7x5x7x5_0_1_2_3_4 : S128x7x5x1x1.BroadcastsInDim S128x7x5x7x5 (![0, 1, 2, 3, 4] : Fin 5 → Fin S128x7x5x7x5.rank)
  bcast_S128x1x1x7x5_S128x7x5x7x5_0_1_2_3_4 : S128x1x1x7x5.BroadcastsInDim S128x7x5x7x5 (![0, 1, 2, 3, 4] : Fin 5 → Fin S128x7x5x7x5.rank)
  bcast_S128x7x5x7x5_S128x7x5x7x5x1_0_1_2_3_4 : S128x7x5x7x5.BroadcastsInDim S128x7x5x7x5x1 (![0, 1, 2, 3, 4] : Fin 5 → Fin S128x7x5x7x5x1.rank)
  concatenates_S128x7x5x7x5x1_S128x7x5x7x5x1_S128x7x5x7x5x2_d5 : Shape.Concatenates [S128x7x5x7x5x1, S128x7x5x7x5x1] S128x7x5x7x5x2 5
  bcast_S128x7x5x7x5_S128x1x7x5x7x5_0_2_3_4_5 : S128x7x5x7x5.BroadcastsInDim S128x1x7x5x7x5 (![0, 2, 3, 4, 5] : Fin 5 → Fin S128x1x7x5x7x5.rank)
  bcast_S128x1x7x5x7x5_S128x1024x7x5x7x5_0_1_2_3_4_5 : S128x1x7x5x7x5.BroadcastsInDim S128x1024x7x5x7x5 (![0, 1, 2, 3, 4, 5] : Fin 6 → Fin S128x1024x7x5x7x5.rank)
  bcast_S_S1024x7x5x7x5 : S_.BroadcastsInDim S1024x7x5x7x5 (![] : Fin 0 → Fin S1024x7x5x7x5.rank)
  bcast_S1024x7x5x7x5_S128x1024x7x5x7x5_1_2_3_4_5 : S1024x7x5x7x5.BroadcastsInDim S128x1024x7x5x7x5 (![1, 2, 3, 4, 5] : Fin 5 → Fin S128x1024x7x5x7x5.rank)
  reducesTo_S128x1024x7x5x7x5_S128x1024x7x7_d3_5 : S128x1024x7x5x7x5.ReducesTo [3, 5] S128x1024x7x7
  h_S_ : 0 < S_.numel
  shapeCasts_S128x1024x7x7_S128x50176 : S128x1024x7x7.ShapeCasts S128x50176
  shapeCasts_S1024_S1x1024 : S1024.ShapeCasts S1x1024
  shapeCasts_S21_S1x21 : S21.ShapeCasts S1x21
  shapeCasts_S4_S1x4 : S4.ShapeCasts S1x4
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x1792_S128x1792_0_0 : ∀ a, (![0, 0] : Fin 2 → Nat) a + S128x1792.size a ≤ S128x1792.size a
  h_S128x1792 : 0 < S128x1792.numel
  shapeCasts_S128x1792_S128x1792 : S128x1792.ShapeCasts S128x1792
  bitsLt_bf16_f32 : FTy.bits .bf16 < FTy.bits .f32
  inb_S1024x1792_S1024x1792_0_0 : ∀ a, (![0, 0] : Fin 2 → Nat) a + S1024x1792.size a ≤ S1024x1792.size a
  h_S1024x1792 : 0 < S1024x1792.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S21x1024_S21x1024_0_0 : ∀ a, (![0, 0] : Fin 2 → Nat) a + S21x1024.size a ≤ S21x1024.size a
  h_S21x1024 : 0 < S21x1024.numel
  inb_S4x1024_S4x1024_0_0 : ∀ a, (![0, 0] : Fin 2 → Nat) a + S4x1024.size a ≤ S4x1024.size a
  h_S4x1024 : 0 < S4x1024.numel
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S128x21 : S1x21.Broadcasts S128x21
  reduces_S128x21_S128 : S128x21.Reduces [1] S128
  shapeCasts_S128_S128x1 : S128.ShapeCasts S128x1
  broadcasts_S128x1_S128x21 : S128x1.Broadcasts S128x21
  inb_S128x21_S128x21_0_0 : ∀ a, (![0, 0] : Fin 2 → Nat) a + S128x21.size a ≤ S128x21.size a
  h_S128x21 : 0 < S128x21.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S128x4 : S1x4.Broadcasts S128x4
  inb_S128x4_S128x4_0_0 : ∀ a, (![0, 0] : Fin 2 → Nat) a + S128x4.size a ≤ S128x4.size a
  h_S128x4 : 0 < S128x4.numel
  gather_S1024x100x50_S128x7x5x7x5x2_S128x1024x7x5x7x5_1_12_n_n_12_5_102411_wf : GatherDims.WF S1024x100x50 S128x7x5x7x5x2 S128x1024x7x5x7x5 [1] [1, 2] [] [1, 2] [] 5 ![1024, 1, 1]
  dot_S128x1792_S1024x1792_S128x1024_1_1_0_0_n_n_wf : DotDims.WF S128x1792 S1024x1792 S128x1024 [1] [1] [0] [0] [] []
  dot_S128x1024_S21x1024_S128x21_1_1_0_0_n_n_wf : DotDims.WF S128x1024 S21x1024 S128x21 [1] [1] [0] [0] [] []
  dot_S128x1024_S4x1024_S128x4_1_1_0_0_n_n_wf : DotDims.WF S128x1024 S4x1024 S128x4 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1792.size a ≤ S128x50176.size a
  hwx0_0 : ∀ i : grid0.Coords, EltTy.bits .f32 = 32 ∨ (Rect.block (s := S128x50176) S128x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1792.size a ≤ S1024x50176.size a
  hwx0_1 : ∀ i : grid0.Coords, EltTy.bits .f32 = 32 ∨ (Rect.block (s := S1024x50176) S1024x1792.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x1024.size a ≤ S21x1024.size a
  hwx0_3 : ∀ i : grid0.Coords, EltTy.bits .f32 = 32 ∨ (Rect.block (s := S21x1024) S21x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x21.size a ≤ S1x21.size a
  hwx0_4 : ∀ i : grid0.Coords, EltTy.bits .f32 = 32 ∨ (Rect.block (s := S1x21) S1x21.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x21.size a ≤ S128x21.size a
  hwx0_7 : ∀ i : grid0.Coords, EltTy.bits .f32 = 32 ∨ (Rect.block (s := S128x21) S128x21.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x4.size a ≤ S128x4.size a
  hwx0_8 : ∀ i : grid0.Coords, EltTy.bits .f32 = 32 ∨ (Rect.block (s := S128x4) S128x4.size (cc0_transform_8 i) (hinb0_8 i)).WholeWords (EltTy.packing .f32)

variable [Facts₀]

def gather_S1024x100x50_S128x7x5x7x5x2_S128x1024x7x5x7x5_1_12_n_n_12_5_102411 : GatherDims S1024x100x50 S128x7x5x7x5x2 S128x1024x7x5x7x5 where
  offsetDims := [1]
  collapsedSliceDims := [1, 2]
  operandBatchingDims := []
  startIndicesBatchingDims := []
  startIndexMap := [1, 2]
  indexVectorDim := 5
  sliceSizes := ![1024, 1, 1]
  wf := gather_S1024x100x50_S128x7x5x7x5x2_S128x1024x7x5x7x5_1_12_n_n_12_5_102411_wf
def dot_S128x1792_S1024x1792_S128x1024_1_1_0_0_n_n : DotDims S128x1792 S1024x1792 S128x1024 where
  lhsContracting := [1]
  rhsContracting := [1]
  lhsNonContracting := [0]
  rhsNonContracting := [0]
  lhsBatch := []
  rhsBatch := []
  wf := dot_S128x1792_S1024x1792_S128x1024_1_1_0_0_n_n_wf
def dot_S128x1024_S21x1024_S128x21_1_1_0_0_n_n : DotDims S128x1024 S21x1024 S128x21 where
  lhsContracting := [1]
  rhsContracting := [1]
  lhsNonContracting := [0]
  rhsNonContracting := [0]
  lhsBatch := []
  rhsBatch := []
  wf := dot_S128x1024_S21x1024_S128x21_1_1_0_0_n_n_wf
def dot_S128x1024_S4x1024_S128x4_1_1_0_0_n_n : DotDims S128x1024 S4x1024 S128x4 where
  lhsContracting := [1]
  rhsContracting := [1]
  lhsNonContracting := [0]
  rhsNonContracting := [0]
  lhsBatch := []
  rhsBatch := []
  wf := dot_S128x1024_S4x1024_S128x4_1_1_0_0_n_n_wf

abbrev win0_0 : Pipeline.Window sig grid0 :=
  Pipeline.Window.ofSpec (Memref.whole main_v112) S128x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v113) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S21x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v114) S1x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v115) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v116_0) S128x21.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v116_1) S128x4.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1024x100x50 : Shape := ⟨3, ![1024, 100, 50]⟩
abbrev S128x4 : Shape := ⟨2, ![128, 4]⟩
abbrev S1024x50176 : Shape := ⟨2, ![1024, 50176]⟩
abbrev S1024 : Shape := ⟨1, ![1024]⟩
abbrev S21x1024 : Shape := ⟨2, ![21, 1024]⟩
abbrev S21 : Shape := ⟨1, ![21]⟩
abbrev S4x1024 : Shape := ⟨2, ![4, 1024]⟩
abbrev S4 : Shape := ⟨1, ![4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S128x7x1 : Shape := ⟨3, ![128, 7, 1]⟩
abbrev S5 : Shape := ⟨1, ![5]⟩
abbrev S1x5 : Shape := ⟨2, ![1, 5]⟩
abbrev S1x1x5 : Shape := ⟨3, ![1, 1, 5]⟩
abbrev S128x7x5 : Shape := ⟨3, ![128, 7, 5]⟩
abbrev S128x7x5x1x1 : Shape := ⟨5, ![128, 7, 5, 1, 1]⟩
abbrev S128x1x1x7x5 : Shape := ⟨5, ![128, 1, 1, 7, 5]⟩
abbrev S128x7x5x7x5 : Shape := ⟨5, ![128, 7, 5, 7, 5]⟩
abbrev S128x7x5x7x5x1 : Shape := ⟨6, ![128, 7, 5, 7, 5, 1]⟩
abbrev S128x7x5x7x5x2 : Shape := ⟨6, ![128, 7, 5, 7, 5, 2]⟩
abbrev S128x1024x7x5x7x5 : Shape := ⟨6, ![128, 1024, 7, 5, 7, 5]⟩
abbrev S128x1x7x5x7x5 : Shape := ⟨6, ![128, 1, 7, 5, 7, 5]⟩
abbrev S1024x7x5x7x5 : Shape := ⟨5, ![1024, 7, 5, 7, 5]⟩
abbrev S128x1024x7x7 : Shape := ⟨4, ![128, 1024, 7, 7]⟩
abbrev S128x50176 : Shape := ⟨2, ![128, 50176]⟩
abbrev S50176x1024 : Shape := ⟨2, ![50176, 1024]⟩
abbrev S128x1024 : Shape := ⟨2, ![128, 1024]⟩
abbrev S1x1024 : Shape := ⟨2, ![1, 1024]⟩
abbrev S1024x21 : Shape := ⟨2, ![1024, 21]⟩
abbrev S128x21 : Shape := ⟨2, ![128, 21]⟩
abbrev S1x21 : Shape := ⟨2, ![1, 21]⟩
abbrev S1024x4 : Shape := ⟨2, ![1024, 4]⟩
abbrev S1x4 : Shape := ⟨2, ![1, 4]⟩

abbrev nBuf : Space → Nat
  | .hbm => 267
  | .vmem => 0
  | .smem => 0
  | _ => 0

abbrev hbmTy0_0 (i : Nat) : BufTy := match i % 128 with
  | 0 => ⟨S1024x100x50, .f32⟩
  | 1 => ⟨S128x4, .i32⟩
  | 2 => ⟨S1024x50176, .f32⟩
  | 3 => ⟨S1024, .f32⟩
  | 4 => ⟨S21x1024, .f32⟩
  | 5 => ⟨S21, .f32⟩
  | 6 => ⟨S4x1024, .f32⟩
  | 7 => ⟨S4, .f32⟩
  | 8 => ⟨S_, .i32⟩
  | 9 => ⟨S_, .i32⟩
  | 10 => ⟨S128x4, .i32⟩
  | 11 => ⟨S128x4, .i32⟩
  | 12 => ⟨S128x4, .i32⟩
  | 13 => ⟨S_, .i32⟩
  | 14 => ⟨S128x4, .i32⟩
  | 15 => ⟨S128x4, .i1⟩
  | 16 => ⟨S128x4, .i32⟩
  | 17 => ⟨S128x4, .i32⟩
  | 18 => ⟨S_, .i32⟩
  | 19 => ⟨S128x4, .i32⟩
  | 20 => ⟨S128x4, .i1⟩
  | 21 => ⟨S128x4, .i1⟩
  | 22 => ⟨S_, .i32⟩
  | 23 => ⟨S128x4, .i32⟩
  | 24 => ⟨S128x4, .i32⟩
  | 25 => ⟨S128x4, .i32⟩
  | 26 => ⟨S128x1, .i32⟩
  | 27 => ⟨S128, .i32⟩
  | 28 => ⟨S128x1, .i32⟩
  | 29 => ⟨S128, .i32⟩
  | 30 => ⟨S128x1, .i32⟩
  | 31 => ⟨S128, .i32⟩
  | 32 => ⟨S128x1, .i32⟩
  | 33 => ⟨S128, .i32⟩
  | 34 => ⟨S128, .i32⟩
  | 35 => ⟨S_, .i32⟩
  | 36 => ⟨S128, .i32⟩
  | 37 => ⟨S128, .i32⟩
  | 38 => ⟨S128, .i32⟩
  | 39 => ⟨S_, .i32⟩
  | 40 => ⟨S128, .i32⟩
  | 41 => ⟨S128, .i32⟩
  | 42 => ⟨S7, .i32⟩
  | 43 => ⟨S1x7, .i32⟩
  | 44 => ⟨S128x1, .i32⟩
  | 45 => ⟨S128x7, .i32⟩
  | 46 => ⟨S128x7, .i32⟩
  | 47 => ⟨S128x7, .i32⟩
  | 48 => ⟨S_, .i32⟩
  | 49 => ⟨S_, .i32⟩
  | 50 => ⟨S128x7, .i32⟩
  | 51 => ⟨S128x7, .i32⟩
  | 52 => ⟨S128x7, .i32⟩
  | 53 => ⟨S_, .i32⟩
  | 54 => ⟨S128x7, .i32⟩
  | 55 => ⟨S128x7, .i1⟩
  | 56 => ⟨S128x7, .i32⟩
  | 57 => ⟨S128x7, .i32⟩
  | 58 => ⟨S_, .i32⟩
  | 59 => ⟨S128x7, .i32⟩
  | 60 => ⟨S128x7, .i1⟩
  | 61 => ⟨S128x7, .i1⟩
  | 62 => ⟨S_, .i32⟩
  | 63 => ⟨S128x7, .i32⟩
  | 64 => ⟨S128x7, .i32⟩
  | 65 => ⟨S128x7, .i32⟩
  | 66 => ⟨S128x1, .i32⟩
  | 67 => ⟨S128x7, .i32⟩
  | 68 => ⟨S128x7, .i32⟩
  | 69 => ⟨S_, .i32⟩
  | 70 => ⟨S7, .i32⟩
  | 71 => ⟨S7, .i32⟩
  | 72 => ⟨S1x7, .i32⟩
  | 73 => ⟨S128x1, .i32⟩
  | 74 => ⟨S128x7, .i32⟩
  | 75 => ⟨S128x7, .i32⟩
  | 76 => ⟨S128x7, .i32⟩
  | 77 => ⟨S_, .i32⟩
  | 78 => ⟨S128x7, .i32⟩
  | 79 => ⟨S128x7, .i32⟩
  | 80 => ⟨S_, .i32⟩
  | 81 => ⟨S128x7, .i32⟩
  | 82 => ⟨S128x7, .i32⟩
  | 83 => ⟨S_, .i32⟩
  | 84 => ⟨S_, .i32⟩
  | 85 => ⟨S128x7, .i32⟩
  | 86 => ⟨S128x7, .i32⟩
  | 87 => ⟨S128x7, .i32⟩
  | 88 => ⟨S_, .i32⟩
  | 89 => ⟨S128x7, .i32⟩
  | 90 => ⟨S128x7, .i1⟩
  | 91 => ⟨S128x7, .i32⟩
  | 92 => ⟨S128x7, .i32⟩
  | 93 => ⟨S_, .i32⟩
  | 94 => ⟨S128x7, .i32⟩
  | 95 => ⟨S128x7, .i1⟩
  | 96 => ⟨S128x7, .i1⟩
  | 97 => ⟨S_, .i32⟩
  | 98 => ⟨S128x7, .i32⟩
  | 99 => ⟨S128x7, .i32⟩
  | 100 => ⟨S128x7, .i32⟩
  | 101 => ⟨S128x1, .i32⟩
  | 102 => ⟨S128x7, .i32⟩
  | 103 => ⟨S128x7, .i32⟩
  | 104 => ⟨S1x7, .i32⟩
  | 105 => ⟨S128x1, .i32⟩
  | 106 => ⟨S128x7, .i32⟩
  | 107 => ⟨S128x7, .i32⟩
  | 108 => ⟨S128x7, .i32⟩
  | 109 => ⟨S_, .i32⟩
  | 110 => ⟨S_, .i32⟩
  | 111 => ⟨S128x7, .i32⟩
  | 112 => ⟨S128x7, .i32⟩
  | 113 => ⟨S128x7, .i32⟩
  | 114 => ⟨S_, .i32⟩
  | 115 => ⟨S128x7, .i32⟩
  | 116 => ⟨S128x7, .i1⟩
  | 117 => ⟨S128x7, .i32⟩
  | 118 => ⟨S128x7, .i32⟩
  | 119 => ⟨S_, .i32⟩
  | 120 => ⟨S128x7, .i32⟩
  | 121 => ⟨S128x7, .i1⟩
  | 122 => ⟨S128x7, .i1⟩
  | 123 => ⟨S_, .i32⟩
  | 124 => ⟨S128x7, .i32⟩
  | 125 => ⟨S128x7, .i32⟩
  | 126 => ⟨S128x7, .i32⟩
  | 127 => ⟨S128x1, .i32⟩
  | _ => ⟨S1024x100x50, .f32⟩

abbrev hbmTy0_1 (i : Nat) : BufTy := match i % 128 with
  | 0 => ⟨S128x7, .i32⟩
  | 1 => ⟨S128x7, .i32⟩
  | 2 => ⟨S_, .i32⟩
  | 3 => ⟨S7, .i32⟩
  | 4 => ⟨S7, .i32⟩
  | 5 => ⟨S1x7, .i32⟩
  | 6 => ⟨S128x1, .i32⟩
  | 7 => ⟨S128x7, .i32⟩
  | 8 => ⟨S128x7, .i32⟩
  | 9 => ⟨S128x7, .i32⟩
  | 10 => ⟨S_, .i32⟩
  | 11 => ⟨S128x7, .i32⟩
  | 12 => ⟨S128x7, .i32⟩
  | 13 => ⟨S_, .i32⟩
  | 14 => ⟨S128x7, .i32⟩
  | 15 => ⟨S128x7, .i32⟩
  | 16 => ⟨S_, .i32⟩
  | 17 => ⟨S_, .i32⟩
  | 18 => ⟨S128x7, .i32⟩
  | 19 => ⟨S128x7, .i32⟩
  | 20 => ⟨S128x7, .i32⟩
  | 21 => ⟨S_, .i32⟩
  | 22 => ⟨S128x7, .i32⟩
  | 23 => ⟨S128x7, .i1⟩
  | 24 => ⟨S128x7, .i32⟩
  | 25 => ⟨S128x7, .i32⟩
  | 26 => ⟨S_, .i32⟩
  | 27 => ⟨S128x7, .i32⟩
  | 28 => ⟨S128x7, .i1⟩
  | 29 => ⟨S128x7, .i1⟩
  | 30 => ⟨S_, .i32⟩
  | 31 => ⟨S128x7, .i32⟩
  | 32 => ⟨S128x7, .i32⟩
  | 33 => ⟨S128x7, .i32⟩
  | 34 => ⟨S128x1, .i32⟩
  | 35 => ⟨S128x7, .i32⟩
  | 36 => ⟨S128x7, .i32⟩
  | 37 => ⟨S128x7x1, .i32⟩
  | 38 => ⟨S5, .i32⟩
  | 39 => ⟨S1x5, .i32⟩
  | 40 => ⟨S1x1x5, .i32⟩
  | 41 => ⟨S128x7x5, .i32⟩
  | 42 => ⟨S128x7x5, .i32⟩
  | 43 => ⟨S128x7x5, .i32⟩
  | 44 => ⟨S128x7x1, .i32⟩
  | 45 => ⟨S5, .i32⟩
  | 46 => ⟨S1x5, .i32⟩
  | 47 => ⟨S1x1x5, .i32⟩
  | 48 => ⟨S128x7x5, .i32⟩
  | 49 => ⟨S128x7x5, .i32⟩
  | 50 => ⟨S128x7x5, .i32⟩
  | 51 => ⟨S128x7x1, .i32⟩
  | 52 => ⟨S128x7x5, .i32⟩
  | 53 => ⟨S128x7x5, .i1⟩
  | 54 => ⟨S128x7x1, .i32⟩
  | 55 => ⟨S128x7x5, .i32⟩
  | 56 => ⟨S128x7x5, .i1⟩
  | 57 => ⟨S_, .i32⟩
  | 58 => ⟨S_, .i32⟩
  | 59 => ⟨S_, .i32⟩
  | 60 => ⟨S128x7x5, .i32⟩
  | 61 => ⟨S128x7x5, .i32⟩
  | 62 => ⟨S_, .i32⟩
  | 63 => ⟨S128x7x5, .i32⟩
  | 64 => ⟨S128x7x5, .i32⟩
  | 65 => ⟨S_, .i32⟩
  | 66 => ⟨S_, .i32⟩
  | 67 => ⟨S_, .i32⟩
  | 68 => ⟨S128x7x5, .i32⟩
  | 69 => ⟨S128x7x5, .i32⟩
  | 70 => ⟨S_, .i32⟩
  | 71 => ⟨S128x7x5, .i32⟩
  | 72 => ⟨S128x7x5, .i32⟩
  | 73 => ⟨S128x7x5x1x1, .i32⟩
  | 74 => ⟨S128x1x1x7x5, .i32⟩
  | 75 => ⟨S_, .i32⟩
  | 76 => ⟨S128x7x5x1x1, .i32⟩
  | 77 => ⟨S128x7x5x1x1, .i1⟩
  | 78 => ⟨S_, .i32⟩
  | 79 => ⟨S128x7x5x1x1, .i32⟩
  | 80 => ⟨S128x7x5x1x1, .i32⟩
  | 81 => ⟨S128x7x5x1x1, .i32⟩
  | 82 => ⟨S_, .i32⟩
  | 83 => ⟨S128x1x1x7x5, .i32⟩
  | 84 => ⟨S128x1x1x7x5, .i1⟩
  | 85 => ⟨S_, .i32⟩
  | 86 => ⟨S128x1x1x7x5, .i32⟩
  | 87 => ⟨S128x1x1x7x5, .i32⟩
  | 88 => ⟨S128x1x1x7x5, .i32⟩
  | 89 => ⟨S128x7x5x7x5, .i32⟩
  | 90 => ⟨S128x7x5x7x5, .i32⟩
  | 91 => ⟨S128x7x5x7x5x1, .i32⟩
  | 92 => ⟨S128x7x5x7x5x1, .i32⟩
  | 93 => ⟨S128x7x5x7x5x2, .i32⟩
  | 94 => ⟨S128x1024x7x5x7x5, .f32⟩
  | 95 => ⟨S128x7x5x1x1, .i1⟩
  | 96 => ⟨S128x1x1x7x5, .i1⟩
  | 97 => ⟨S128x7x5x7x5, .i1⟩
  | 98 => ⟨S128x7x5x7x5, .i1⟩
  | 99 => ⟨S128x7x5x7x5, .i1⟩
  | 100 => ⟨S128x1x7x5x7x5, .i1⟩
  | 101 => ⟨S_, .f32⟩
  | 102 => ⟨S_, .f32⟩
  | 103 => ⟨S128x1024x7x5x7x5, .i1⟩
  | 104 => ⟨S1024x7x5x7x5, .f32⟩
  | 105 => ⟨S128x1024x7x5x7x5, .f32⟩
  | 106 => ⟨S128x1024x7x5x7x5, .f32⟩
  | 107 => ⟨S_, .f32⟩
  | 108 => ⟨S128x1024x7x7, .f32⟩
  | 109 => ⟨S128x50176, .f32⟩
  | 110 => ⟨S50176x1024, .f32⟩
  | 111 => ⟨S128x1024, .f32⟩
  | 112 => ⟨S1x1024, .f32⟩
  | 113 => ⟨S128x1024, .f32⟩
  | 114 => ⟨S128x1024, .f32⟩
  | 115 => ⟨S1024x21, .f32⟩
  | 116 => ⟨S128x21, .f32⟩
  | 117 => ⟨S1x21, .f32⟩
  | 118 => ⟨S128x21, .f32⟩
  | 119 => ⟨S128x21, .f32⟩
  | 120 => ⟨S_, .f32⟩
  | 121 => ⟨S128, .f32⟩
  | 122 => ⟨S_, .f32⟩
  | 123 => ⟨S128, .f32⟩
  | 124 => ⟨S128, .f32⟩
  | 125 => ⟨S128x1, .f32⟩
  | 126 => ⟨S128x21, .f32⟩
  | 127 => ⟨S128x21, .f32⟩
  | _ => ⟨S1024x100x50, .f32⟩

abbrev hbmTy0_2 (i : Nat) : BufTy := match i % 128 with
  | 0 => ⟨S128x21, .f32⟩
  | 1 => ⟨S_, .f32⟩
  | 2 => ⟨S128, .f32⟩
  | 3 => ⟨S128x1, .f32⟩
  | 4 => ⟨S128x21, .f32⟩
  | 5 => ⟨S128x21, .f32⟩
  | 6 => ⟨S1024x4, .f32⟩
  | 7 => ⟨S128x4, .f32⟩
  | 8 => ⟨S1x4, .f32⟩
  | 9 => ⟨S128x4, .f32⟩
  | 10 => ⟨S128x4, .f32⟩
  | _ => ⟨S1024x100x50, .f32⟩

abbrev hbmTy (i : Nat) : BufTy := match i / 128 with
  | 0 => hbmTy0_0 i
  | 1 => hbmTy0_1 i
  | 2 => hbmTy0_2 i
  | _ => ⟨S1024x100x50, .f32⟩

abbrev bufTy : (tb : Table) → Fin (tcTables nBuf tb) → BufTy
  | .hbm, ⟨i, _⟩ => hbmTy i
  | _, _ => ⟨S1024x100x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_2 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_c_3 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_c_4 : Ref sig .tc := ⟨.hbm, 77, rfl⟩
abbrev main_v32 : Ref sig .tc := ⟨.hbm, 78, rfl⟩
abbrev main_v33 : Ref sig .tc := ⟨.hbm, 79, rfl⟩
abbrev main_c_5 : Ref sig .tc := ⟨.hbm, 80, rfl⟩
abbrev main_v34 : Ref sig .tc := ⟨.hbm, 81, rfl⟩
abbrev main_v35 : Ref sig .tc := ⟨.hbm, 82, rfl⟩
abbrev main_c_6 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_call2_v5 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_c : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_0 : Ref sig .tc := ⟨.hbm, 97, rfl⟩
abbrev main_call2_v12 : Ref sig .tc := ⟨.hbm, 98, rfl⟩
abbrev main_call2_v13 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_c_7 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_c : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_0 : Ref sig .tc := ⟨.hbm, 123, rfl⟩
abbrev main_call3_v12 : Ref sig .tc := ⟨.hbm, 124, rfl⟩
abbrev main_call3_v13 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_c_8 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_c_9 : Ref sig .tc := ⟨.hbm, 138, rfl⟩
abbrev main_v56 : Ref sig .tc := ⟨.hbm, 139, rfl⟩
abbrev main_v57 : Ref sig .tc := ⟨.hbm, 140, rfl⟩
abbrev main_c_10 : Ref sig .tc := ⟨.hbm, 141, rfl⟩
abbrev main_v58 : Ref sig .tc := ⟨.hbm, 142, rfl⟩
abbrev main_v59 : Ref sig .tc := ⟨.hbm, 143, rfl⟩
abbrev main_c_11 : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_c : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_0 : Ref sig .tc := ⟨.hbm, 158, rfl⟩
abbrev main_call4_v12 : Ref sig .tc := ⟨.hbm, 159, rfl⟩
abbrev main_call4_v13 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_v65 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_c_12 : Ref sig .tc := ⟨.hbm, 185, rfl⟩
abbrev main_c_13 : Ref sig .tc := ⟨.hbm, 186, rfl⟩
abbrev main_call5_v0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_v84 : Ref sig .tc := ⟨.hbm, 192, rfl⟩
abbrev main_c_14 : Ref sig .tc := ⟨.hbm, 193, rfl⟩
abbrev main_c_15 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v85 : Ref sig .tc := ⟨.hbm, 200, rfl⟩
abbrev main_v86 : Ref sig .tc := ⟨.hbm, 201, rfl⟩
abbrev main_v87 : Ref sig .tc := ⟨.hbm, 202, rfl⟩
abbrev main_c_16 : Ref sig .tc := ⟨.hbm, 203, rfl⟩
abbrev main_v88 : Ref sig .tc := ⟨.hbm, 204, rfl⟩
abbrev main_v89 : Ref sig .tc := ⟨.hbm, 205, rfl⟩
abbrev main_c_17 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_c_18 : Ref sig .tc := ⟨.hbm, 210, rfl⟩
abbrev main_v93 : Ref sig .tc := ⟨.hbm, 211, rfl⟩
abbrev main_v94 : Ref sig .tc := ⟨.hbm, 212, rfl⟩
abbrev main_c_19 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_cst : Ref sig .tc := ⟨.hbm, 229, rfl⟩
abbrev main_call7_v0 : Ref sig .tc := ⟨.hbm, 230, rfl⟩
abbrev main_call7_v1 : Ref sig .tc := ⟨.hbm, 231, rfl⟩
abbrev main_call7_v2 : Ref sig .tc := ⟨.hbm, 232, rfl⟩
abbrev main_call7_v3 : Ref sig .tc := ⟨.hbm, 233, rfl⟩
abbrev main_v110 : Ref sig .tc := ⟨.hbm, 234, rfl⟩
abbrev main_cst_20 : Ref sig .tc := ⟨.hbm, 235, rfl⟩
abbrev main_v111 : Ref sig .tc := ⟨.hbm, 236, rfl⟩
abbrev main_v112 : Ref sig .tc := ⟨.hbm, 237, rfl⟩
abbrev main_v113 : Ref sig .tc := ⟨.hbm, 238, rfl⟩
abbrev main_v114 : Ref sig .tc := ⟨.hbm, 239, rfl⟩
abbrev main_v115 : Ref sig .tc := ⟨.hbm, 240, rfl⟩
abbrev main_v116 : Ref sig .tc := ⟨.hbm, 241, rfl⟩
abbrev main_v117 : Ref sig .tc := ⟨.hbm, 242, rfl⟩
abbrev main_v118 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_cst_21 : Ref sig .tc := ⟨.hbm, 248, rfl⟩
abbrev main_v123 : Ref sig .tc := ⟨.hbm, 249, rfl⟩
abbrev main_cst_22 : Ref sig .tc := ⟨.hbm, 250, rfl⟩
abbrev main_v124 : Ref sig .tc := ⟨.hbm, 251, rfl⟩
abbrev main_v125 : Ref sig .tc := ⟨.hbm, 252, rfl⟩
abbrev main_v126 : Ref sig .tc := ⟨.hbm, 253, rfl⟩
abbrev main_v127 : Ref sig .tc := ⟨.hbm, 254, rfl⟩
abbrev main_v128 : Ref sig .tc := ⟨.hbm, 255, rfl⟩
abbrev main_v129 : Ref sig .tc := ⟨.hbm, 256, rfl⟩
abbrev main_cst_23 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_v135 : Ref sig .tc := ⟨.hbm, 263, rfl⟩
abbrev main_v136 : Ref sig .tc := ⟨.hbm, 264, rfl⟩
abbrev main_v137 : Ref sig .tc := ⟨.hbm, 265, rfl⟩
abbrev main_v138 : Ref sig .tc := ⟨.hbm, 266, rfl⟩

abbrev nD : Nat := 1
abbrev τ : Topo := Topo.v7x

variable {F : FTy → Type} [FloatOps F]

class Facts₀ : Prop where
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S7_S1x7_1 : S7.BroadcastsInDim S1x7 (![1] : Fin 1 → Fin S1x7.rank)
  bcast_S128_S128x1_0 : S128.BroadcastsInDim S128x1 (![0] : Fin 1 → Fin S128x1.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S7 : S_.BroadcastsInDim S7 (![] : Fin 0 → Fin S7.rank)
  bcast_S128x7_S128x7x1_0_1 : S128x7.BroadcastsInDim S128x7x1 (![0, 1] : Fin 2 → Fin S128x7x1.rank)
  bcast_S5_S1x5_1 : S5.BroadcastsInDim S1x5 (![1] : Fin 1 → Fin S1x5.rank)
  bcast_S1x5_S1x1x5_1_2 : S1x5.BroadcastsInDim S1x1x5 (![1, 2] : Fin 2 → Fin S1x1x5.rank)
  bcast_S128x7x1_S128x7x5_0_1_2 : S128x7x1.BroadcastsInDim S128x7x5 (![0, 1, 2] : Fin 3 → Fin S128x7x5.rank)
  bcast_S1x1x5_S128x7x5_0_1_2 : S1x1x5.BroadcastsInDim S128x7x5 (![0, 1, 2] : Fin 3 → Fin S128x7x5.rank)
  bcast_S_S128x7x5 : S_.BroadcastsInDim S128x7x5 (![] : Fin 0 → Fin S128x7x5.rank)
  bcast_S128x7x5_S128x7x5x1x1_0_1_2 : S128x7x5.BroadcastsInDim S128x7x5x1x1 (![0, 1, 2] : Fin 3 → Fin S128x7x5x1x1.rank)
  bcast_S128x7x5_S128x1x1x7x5_0_3_4 : S128x7x5.BroadcastsInDim S128x1x1x7x5 (![0, 3, 4] : Fin 3 → Fin S128x1x1x7x5.rank)
  bcast_S_S128x7x5x1x1 : S_.BroadcastsInDim S128x7x5x1x1 (![] : Fin 0 → Fin S128x7x5x1x1.rank)
  bcast_S_S128x1x1x7x5 : S_.BroadcastsInDim S128x1x1x7x5 (![] : Fin 0 → Fin S128x1x1x7x5.rank)
  bcast_S128x7x5x1x1_S128x7x5x7x5_0_1_2_3_4 : S128x7x5x1x1.BroadcastsInDim S128x7x5x7x5 (![0, 1, 2, 3, 4] : Fin 5 → Fin S128x7x5x7x5.rank)
  bcast_S128x1x1x7x5_S128x7x5x7x5_0_1_2_3_4 : S128x1x1x7x5.BroadcastsInDim S128x7x5x7x5 (![0, 1, 2, 3, 4] : Fin 5 → Fin S128x7x5x7x5.rank)
  bcast_S128x7x5x7x5_S128x7x5x7x5x1_0_1_2_3_4 : S128x7x5x7x5.BroadcastsInDim S128x7x5x7x5x1 (![0, 1, 2, 3, 4] : Fin 5 → Fin S128x7x5x7x5x1.rank)
  concatenates_S128x7x5x7x5x1_S128x7x5x7x5x1_S128x7x5x7x5x2_d5 : Shape.Concatenates [S128x7x5x7x5x1, S128x7x5x7x5x1] S128x7x5x7x5x2 5
  bcast_S128x7x5x7x5_S128x1x7x5x7x5_0_2_3_4_5 : S128x7x5x7x5.BroadcastsInDim S128x1x7x5x7x5 (![0, 2, 3, 4, 5] : Fin 5 → Fin S128x1x7x5x7x5.rank)
  bcast_S128x1x7x5x7x5_S128x1024x7x5x7x5_0_1_2_3_4_5 : S128x1x7x5x7x5.BroadcastsInDim S128x1024x7x5x7x5 (![0, 1, 2, 3, 4, 5] : Fin 6 → Fin S128x1024x7x5x7x5.rank)
  bcast_S_S1024x7x5x7x5 : S_.BroadcastsInDim S1024x7x5x7x5 (![] : Fin 0 → Fin S1024x7x5x7x5.rank)
  bcast_S1024x7x5x7x5_S128x1024x7x5x7x5_1_2_3_4_5 : S1024x7x5x7x5.BroadcastsInDim S128x1024x7x5x7x5 (![1, 2, 3, 4, 5] : Fin 5 → Fin S128x1024x7x5x7x5.rank)
  reducesTo_S128x1024x7x5x7x5_S128x1024x7x7_d3_5 : S128x1024x7x5x7x5.ReducesTo [3, 5] S128x1024x7x7
  h_S_ : 0 < S_.numel
  shapeCasts_S128x1024x7x7_S128x50176 : S128x1024x7x7.ShapeCasts S128x50176
  transposes_S1024x50176_S50176x1024_1_0 : S1024x50176.Transposes [1, 0] S50176x1024
  bcast_S1024_S1x1024_1 : S1024.BroadcastsInDim S1x1024 (![1] : Fin 1 → Fin S1x1024.rank)
  bcast_S1x1024_S128x1024_0_1 : S1x1024.BroadcastsInDim S128x1024 (![0, 1] : Fin 2 → Fin S128x1024.rank)
  transposes_S21x1024_S1024x21_1_0 : S21x1024.Transposes [1, 0] S1024x21
  bcast_S21_S1x21_1 : S21.BroadcastsInDim S1x21 (![1] : Fin 1 → Fin S1x21.rank)
  bcast_S1x21_S128x21_0_1 : S1x21.BroadcastsInDim S128x21 (![0, 1] : Fin 2 → Fin S128x21.rank)
  reducesTo_S128x21_S128_d1 : S128x21.ReducesTo [1] S128
  bcast_S128x1_S128x21_0_1 : S128x1.BroadcastsInDim S128x21 (![0, 1] : Fin 2 → Fin S128x21.rank)
  transposes_S4x1024_S1024x4_1_0 : S4x1024.Transposes [1, 0] S1024x4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  gather_S1024x100x50_S128x7x5x7x5x2_S128x1024x7x5x7x5_1_12_n_n_12_5_102411_wf : GatherDims.WF S1024x100x50 S128x7x5x7x5x2 S128x1024x7x5x7x5 [1] [1, 2] [] [1, 2] [] 5 ![1024, 1, 1]
  dot_S128x50176_S50176x1024_S128x1024_1_0_0_1_n_n_wf : DotDims.WF S128x50176 S50176x1024 S128x1024 [1] [0] [0] [1] [] []
  dot_S128x1024_S1024x21_S128x21_1_0_0_1_n_n_wf : DotDims.WF S128x1024 S1024x21 S128x21 [1] [0] [0] [1] [] []
  dot_S128x1024_S1024x4_S128x4_1_0_0_1_n_n_wf : DotDims.WF S128x1024 S1024x4 S128x4 [1] [0] [0] [1] [] []

variable [Facts₀]

def gather_S1024x100x50_S128x7x5x7x5x2_S128x1024x7x5x7x5_1_12_n_n_12_5_102411 : GatherDims S1024x100x50 S128x7x5x7x5x2 S128x1024x7x5x7x5 where
  offsetDims := [1]
  collapsedSliceDims := [1, 2]
  operandBatchingDims := []
  startIndicesBatchingDims := []
  startIndexMap := [1, 2]
  indexVectorDim := 5
  sliceSizes := ![1024, 1, 1]
  wf := gather_S1024x100x50_S128x7x5x7x5x2_S128x1024x7x5x7x5_1_12_n_n_12_5_102411_wf
def dot_S128x50176_S50176x1024_S128x1024_1_0_0_1_n_n : DotDims S128x50176 S50176x1024 S128x1024 where
  lhsContracting := [1]
  rhsContracting := [0]
  lhsNonContracting := [0]
  rhsNonContracting := [1]
  lhsBatch := []
  rhsBatch := []
  wf := dot_S128x50176_S50176x1024_S128x1024_1_0_0_1_n_n_wf
def dot_S128x1024_S1024x21_S128x21_1_0_0_1_n_n : DotDims S128x1024 S1024x21 S128x21 where
  lhsContracting := [1]
  rhsContracting := [0]
  lhsNonContracting := [0]
  rhsNonContracting := [1]
  lhsBatch := []
  rhsBatch := []
  wf := dot_S128x1024_S1024x21_S128x21_1_0_0_1_n_n_wf
def dot_S128x1024_S1024x4_S128x4_1_0_0_1_n_n : DotDims S128x1024 S1024x4 S128x4 where
  lhsContracting := [1]
  rhsContracting := [0]
  lhsNonContracting := [0]
  rhsNonContracting := [1]
  lhsBatch := []
  rhsBatch := []
  wf := dot_S128x1024_S1024x4_S128x4_1_0_0_1_n_n_wf

class Facts : Prop extends Facts₀ where

variable [Facts]
-- ==== Proof.KernelPieces.lean ====
/-
  What one grid point leaves behind, as functions of the blocks it reads. At every point the accumulator ends as the
  point's update (what it held plus the block product) of what it held before, which at the first point is the cleared
  accumulator; at the last point the two heads are computed from that same updated accumulator and the bias and weight
  blocks. These hold for any arithmetic.
-/
import proofs.«164577_j44624710206046_1_alg».proof.Proof.Gen.KernelIdeal.Frame
import Idealize.ShloMosaic.Lib.Pipeline.Value
import Idealize.ShloMosaic.Lib.Tactic

noncomputable section

namespace Cert.KernelIdeal.HeadValue

open Cert.KernelIdeal Cert.KernelIdeal.Gen Idealize.ShloMosaic Idealize.ShloMosaic.TcCoe Idealize.ShloMosaic.Tactic Idealize.SL.Sem

variable {F : FTy → Type} [FloatOps F]

/-- The zero offsets of a whole two-axis block. -/
theorem zeroOffsets : (![0, 0] : Fin 2 → Nat) = fun _ => 0 := funext fun a => by fin_cases a <;> rfl

variable (c : Dev nD) (i : grid0.Coords)
  (arg1 : Memref sig .tc .vmem S128x1792 .f32) (harg1 : arg1.IsWhole)
  (arg2 : Memref sig .tc .vmem S1024x1792 .f32) (harg2 : arg2.IsWhole)
  (arg3 : Memref sig .tc .vmem S1x1024 .f32) (harg3 : arg3.IsWhole)
  (arg4 : Memref sig .tc .vmem S21x1024 .f32) (harg4 : arg4.IsWhole)
  (arg5 : Memref sig .tc .vmem S1x21 .f32) (harg5 : arg5.IsWhole)
  (arg6 : Memref sig .tc .vmem S4x1024 .f32) (harg6 : arg6.IsWhole)
  (arg7 : Memref sig .tc .vmem S1x4 .f32) (harg7 : arg7.IsWhole)
  (arg8 : Memref sig .tc .vmem S128x21 .f32) (harg8 : arg8.IsWhole)
  (arg9 : Memref sig .tc .vmem S128x4 .f32) (harg9 : arg9.IsWhole)
  (arg10 : Memref sig .tc .vmem S128x1024 .f32) (harg10 : arg10.IsWhole)
  (x0 : Vec F S128x1792 .f32) (x1 : Vec F S1024x1792 .f32) (x2 : Vec F S1x1024 .f32) (x3 : Vec F S21x1024 .f32)
  (x4 : Vec F S1x21 .f32) (x5 : Vec F S4x1024 .f32) (x6 : Vec F S1x4 .f32) (xs0 : Vec F S128x1024 .f32)

/-- The first point: the accumulator is cleared, then updated with the point's block product. -/
theorem acc_first (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 x5 x6
      = k0_pay2 x0 x1 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x1024) zeroOffsets, View.readCov_unit_zero (S := S128x1024) _ zeroOffsets]
  simp only [View.readAt_eq_ld, harg1.read_unread, harg2.read_unread, View.ld_unit_zero (S := S128x1792) zeroOffsets,
    View.ld_unit_zero (S := S1024x1792) zeroOffsets]

/-- A middle point: the accumulator is updated with the point's block product. -/
theorem acc_middle (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 hc0 hc1 x0 x1 x2 x3 x4 x5 x6 xs0
      = k0_pay2 x0 x1 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero (S := S128x1024) zeroOffsets]
  simp only [View.readAt_eq_ld, harg1.read_unread, harg2.read_unread, harg10.read_unread,
    View.ld_unit_zero (S := S128x1792) zeroOffsets, View.ld_unit_zero (S := S1024x1792) zeroOffsets,
    View.ld_unit_zero (S := S128x1024) zeroOffsets]

/-- The last point: the accumulator is updated with the point's block product, as at a middle point. -/
theorem acc_last (hc0 : ¬cond0_0 i) (hc1 : cond0_1 i) :
    sout0_C_0 c i arg1 harg1 arg2 harg2 arg3 harg3 arg4 harg4 arg5 harg5 arg6 harg6 arg7 harg7 arg8 harg8 arg9 harg9 arg10 harg10 hc0 hc1 x0 x1 x2 x3 x4 x5 x6 xs0
      = k0_pay2 x0 x1 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S128x1024) zeroOffsets]
  simp only [View.readAt_eq_ld, harg1.read_unread, harg2.read_unread, harg10.read_unread,
    View.ld_unit_zero (S := S128x1792) zeroOffsets, View.ld_unit_zero (S := S1024x1792) zeroOffsets,
    View.ld_unit_zero (S := S128x1024) zeroOffsets]

/-- The last point's class head: computed from the updated accumulator, the hidden bias row, the class weights and
    the class bias row. -/
theorem cls_last (hc0 : ¬cond0_0 i) (hc1 : cond0_1 i) :
    out0_C_7 c i arg1 harg1 arg2 harg2 arg3 harg3 arg4 harg4 arg5 harg5 arg6 harg6 arg7 harg7 arg8 harg8 arg9 harg9 arg10 harg10 hc0 hc1 x0 x1 x2 x3 x4 x5 x6 xs0
      = k0_pay4 (k0_pay2 x0 x1 xs0) x2 x3 x4 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S128x21) zeroOffsets, View.readCov_unit_zero (S := S128x1024) _ zeroOffsets]
  simp only [View.readAt_eq_ld, harg1.read_unread, harg2.read_unread, harg3.read_unread, harg4.read_unread,
    harg5.read_unread, harg10.read_unread,
    View.ld_unit_zero (S := S128x1792) zeroOffsets, View.ld_unit_zero (S := S1024x1792) zeroOffsets,
    View.ld_unit_zero (S := S128x1024) zeroOffsets, View.ld_unit_zero (S := S1x1024) zeroOffsets,
    View.ld_unit_zero (S := S21x1024) zeroOffsets, View.ld_unit_zero (S := S1x21) zeroOffsets]

/-- The last point's box head: computed from the updated accumulator, the hidden bias row, the box weights and the
    box bias row. -/
theorem reg_last (hc0 : ¬cond0_0 i) (hc1 : cond0_1 i) :
    out0_C_8 c i arg1 harg1 arg2 harg2 arg3 harg3 arg4 harg4 arg5 harg5 arg6 harg6 arg7 harg7 arg8 harg8 arg9 harg9 arg10 harg10 hc0 hc1 x0 x1 x2 x3 x4 x5 x6 xs0
      = k0_pay5 (k0_pay2 x0 x1 xs0) x2 x5 x6 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S128x4) zeroOffsets, View.readCov_unit_zero (S := S128x1024) _ zeroOffsets]
  simp only [View.readAt_eq_ld, harg1.read_unread, harg2.read_unread, harg3.read_unread, harg6.read_unread,
    harg7.read_unread, harg10.read_unread,
    View.ld_unit_zero (S := S128x1792) zeroOffsets, View.ld_unit_zero (S := S1024x1792) zeroOffsets,
    View.ld_unit_zero (S := S128x1024) zeroOffsets, View.ld_unit_zero (S := S1x1024) zeroOffsets,
    View.ld_unit_zero (S := S4x1024) zeroOffsets, View.ld_unit_zero (S := S1x4) zeroOffsets]

end Cert.KernelIdeal.HeadValue

end
-- ==== Proof.HeadSpec.lean ====
/-
  The classification head as functions of arrays of extended reals.

  From pooled features `x` (128 regions by 50176 features), the hidden layer is `h = x · wᵀ + b` with `w` of 1024 rows;
  each of the two heads is linear in `h` (`z = h · vᵀ + d`), and the class head ends in a softmax over its 21 columns,
  in its stabilised form: every logit is shifted by the row's maximum (taken from `-∞`, and once more against `-∞`),
  exponentiated, and divided by the row's sum of the exponentials. Indices are written by their coordinates.
-/
import Idealize.ShloMosaic.PureOps.Ideal.Laws
import Idealize.ShloMosaic.Lib.ValueIdx

noncomputable section

namespace Cert.Head

open Idealize.ShloMosaic Idealize.ShloMosaic.ValueIdx

/-- The value of the float pattern of `-∞`, the start of a maximum. -/
abbrev negInf : EReal := Ideal.ofBits .f32 0xFF800000#32

/-- The hidden layer at region `n` and unit `o`: the inner product of the region's features with the unit's weights,
    plus the unit's bias. -/
def hidden (x : (⟨2, ![128, 50176]⟩ : Shape).Idx → EReal) (w : (⟨2, ![1024, 50176]⟩ : Shape).Idx → EReal)
    (b : (⟨1, ![1024]⟩ : Shape).Idx → EReal) (n : Fin 128) (o : Fin 1024) : EReal :=
  (∑ j : Fin 50176, x (ix2 n j) * w (ix2 o j)) + b (ix1 o)

/-- A linear head of `K` outputs on the hidden layer. -/
def linear {K : ℕ} (h : Fin 128 → Fin 1024 → EReal) (v : (⟨2, ![K, 1024]⟩ : Shape).Idx → EReal)
    (d : (⟨1, ![K]⟩ : Shape).Idx → EReal) (n : Fin 128) (c : Fin K) : EReal :=
  (∑ o : Fin 1024, h n o * v (ix2 c o)) + d (ix1 c)

/-- The shift of row `n`: the maximum of its 21 logits from `-∞`, once more against `-∞`. -/
def rowShift (z : Fin 128 → Fin 21 → EReal) (n : Fin 128) : EReal :=
  max negInf ((Finset.univ : Finset (Fin 21)).fold max negInf (z n))

/-- The exponential of a shifted logit. -/
def expShift (z : Fin 128 → Fin 21 → EReal) (n : Fin 128) (c : Fin 21) : EReal :=
  Ideal.exp (z n c - rowShift z n)

/-- The softmax of row `n` at column `c`. -/
def softmax (z : Fin 128 → Fin 21 → EReal) (n : Fin 128) (c : Fin 21) : EReal :=
  Ideal.div (expShift z n c) (∑ c' : Fin 21, expShift z n c')

/-- The class probabilities, as an array. -/
def cls (x : (⟨2, ![128, 50176]⟩ : Shape).Idx → EReal) (w : (⟨2, ![1024, 50176]⟩ : Shape).Idx → EReal)
    (b : (⟨1, ![1024]⟩ : Shape).Idx → EReal) (v : (⟨2, ![21, 1024]⟩ : Shape).Idx → EReal)
    (d : (⟨1, ![21]⟩ : Shape).Idx → EReal) : (⟨2, ![128, 21]⟩ : Shape).Idx → EReal :=
  fun i => softmax (linear (hidden x w b) v d) (i 0) (i 1)

/-- The box regression, as an array. -/
def reg (x : (⟨2, ![128, 50176]⟩ : Shape).Idx → EReal) (w : (⟨2, ![1024, 50176]⟩ : Shape).Idx → EReal)
    (b : (⟨1, ![1024]⟩ : Shape).Idx → EReal) (v : (⟨2, ![4, 1024]⟩ : Shape).Idx → EReal)
    (d : (⟨1, ![4]⟩ : Shape).Idx → EReal) : (⟨2, ![128, 4]⟩ : Shape).Idx → EReal :=
  fun i => linear (hidden x w b) v d (i 0) (i 1)

end Cert.Head

end
-- ==== Proof.BlockSum.lean ====
/-
  A sum over `Fin (a * b)` is the sum over `a` consecutive blocks of `b` terms each, in any commutative
  additive monoid: the index `j` is `b * k + l` for exactly one block `k` and one position `l` inside it.
-/
import Mathlib.Algebra.BigOperators.Fin

namespace Cert.BlockSum

open Finset

/-- Regrouping a sum over `Fin (a * b)` into `a` blocks of `b` consecutive terms. -/
theorem sum_blocks {M : Type*} [AddCommMonoid M] (a b : ℕ) (f : Fin (a * b) → M) :
    ∑ j, f j = ∑ k : Fin a, ∑ l : Fin b, f (finProdFinEquiv (k, l)) := by
  rw [← Fintype.sum_prod_type' (f := fun k l => f (finProdFinEquiv (k, l)))]
  exact (Equiv.sum_comp finProdFinEquiv f).symm

end Cert.BlockSum
-- ==== Proof.HiddenBlocks.lean ====
/-
  The hidden layer's inner product over 50176 features, cut into 28 consecutive blocks of 1792 features: the sum of the
  first `t` blocks' partial products, how it grows by one block, and that all 28 blocks make the whole inner product.
  Only the commutativity and associativity of addition on the extended reals are used.
-/
import proofs.«164577_j44624710206046_1_alg».proof.Proof.HeadSpec
import proofs.«164577_j44624710206046_1_alg».proof.Proof.BlockSum

noncomputable section

namespace Cert.Head

open Idealize.ShloMosaic Idealize.ShloMosaic.ValueIdx

/-- Feature `l` of block `k` (taken modulo the number of features, so that it is defined for every `k`). -/
def col (k : ℕ) (l : Fin 1792) : Fin 50176 := ⟨(1792 * k + l.val) % 50176, Nat.mod_lt _ (by norm_num)⟩

theorem col_val {k : ℕ} (hk : k < 28) (l : Fin 1792) : (col k l).val = 1792 * k + l.val := by
  have := l.isLt
  show (1792 * k + l.val) % 50176 = _
  exact Nat.mod_eq_of_lt (by omega)

/-- Block `k`'s share of the inner product of region `n` with unit `o`. -/
def blockTerm (x : (⟨2, ![128, 50176]⟩ : Shape).Idx → EReal) (w : (⟨2, ![1024, 50176]⟩ : Shape).Idx → EReal)
    (k : ℕ) (n : Fin 128) (o : Fin 1024) : EReal :=
  ∑ l : Fin 1792, x (ix2 n (col k l)) * w (ix2 o (col k l))

/-- The first `t` blocks' shares, summed. -/
def partialHidden (x : (⟨2, ![128, 50176]⟩ : Shape).Idx → EReal) (w : (⟨2, ![1024, 50176]⟩ : Shape).Idx → EReal)
    (t : ℕ) (n : Fin 128) (o : Fin 1024) : EReal :=
  ∑ k ∈ Finset.range t, blockTerm x w k n o

theorem partialHidden_zero (x : (⟨2, ![128, 50176]⟩ : Shape).Idx → EReal) (w : (⟨2, ![1024, 50176]⟩ : Shape).Idx → EReal)
    (n : Fin 128) (o : Fin 1024) : partialHidden x w 0 n o = 0 := by
  simp [partialHidden]

theorem partialHidden_succ (x : (⟨2, ![128, 50176]⟩ : Shape).Idx → EReal) (w : (⟨2, ![1024, 50176]⟩ : Shape).Idx → EReal)
    (t : ℕ) (n : Fin 128) (o : Fin 1024) :
    partialHidden x w (t + 1) n o = partialHidden x w t n o + blockTerm x w t n o := by
  simp [partialHidden, Finset.sum_range_succ]

/-- All 28 blocks together are the whole inner product. -/
theorem partialHidden_full (x : (⟨2, ![128, 50176]⟩ : Shape).Idx → EReal) (w : (⟨2, ![1024, 50176]⟩ : Shape).Idx → EReal)
    (n : Fin 128) (o : Fin 1024) :
    partialHidden x w 28 n o = ∑ j : Fin 50176, x (ix2 n j) * w (ix2 o j) := by
  have h := Cert.BlockSum.sum_blocks (M := EReal) 28 1792 (fun j : Fin (28 * 1792) => x (ix2 n (Fin.cast (by norm_num) j)) * w (ix2 o (Fin.cast (by norm_num) j)))
  have hl : (∑ j : Fin 50176, x (ix2 n j) * w (ix2 o j))
      = ∑ j : Fin (28 * 1792), x (ix2 n (Fin.cast (by norm_num) j)) * w (ix2 o (Fin.cast (by norm_num) j)) :=
    (Equiv.sum_comp (finCongr (by norm_num : 28 * 1792 = 50176)) (fun j : Fin 50176 => x (ix2 n j) * w (ix2 o j))).symm
  rw [hl, h, partialHidden, Finset.sum_range]
  refine Finset.sum_congr rfl fun k _ => Finset.sum_congr rfl fun l _ => ?_
  have e : (Fin.cast (by norm_num : 28 * 1792 = 50176) (finProdFinEquiv (k, l))) = col k.val l := by
    apply Fin.ext
    rw [col_val k.isLt]
    simp [finProdFinEquiv, Nat.add_comm, Nat.mul_comm]
  rw [e]

/-- The hidden layer is the 28 blocks' shares plus the bias. -/
theorem hidden_eq_blocks (x : (⟨2, ![128, 50176]⟩ : Shape).Idx → EReal) (w : (⟨2, ![1024, 50176]⟩ : Shape).Idx → EReal)
    (b : (⟨1, ![1024]⟩ : Shape).Idx → EReal) (n : Fin 128) (o : Fin 1024) :
    hidden x w b n o = partialHidden x w 28 n o + b (ix1 o) := by
  rw [partialHidden_full, hidden]

end Cert.Head

end
-- ==== Proof.KernelBlocks.lean ====
/-
  The blocks a grid point reads, entry by entry. Point t reads columns 1792·t … 1792·t + 1791 of the features and of the
  hidden weights: entry (a, l) of the feature block is feature 1792·t + l of region a, and entry (o, l) of the weight
  block is weight 1792·t + l of unit o. The bias rows and the two heads' weights are read whole at every point.
-/
import proofs.«164577_j44624710206046_1_alg».proof.Proof.Gen.KernelIdeal.Frame
import proofs.«164577_j44624710206046_1_alg».proof.Proof.HiddenBlocks
import Idealize.ShloMosaic.Lib.ValueIdx
import Idealize.ShloMosaic.Lib.Pipeline.Value

noncomputable section

namespace Cert.KernelIdeal.HeadValue

open Cert.KernelIdeal Cert.KernelIdeal.Gen Idealize.ShloMosaic Idealize.ShloMosaic.ValueIdx Idealize.ShloMosaic.TcCoe

/-- The grid has 28 points. -/
theorem points_lt (t : Fin cfg0.N) : t.val < 28 := lt_of_lt_of_eq t.isLt (show cfg0.N = 28 from N_0)

/-- The feature block of point t starts at row 0 and at column block t. -/
theorem featIndex : ∀ t : Fin cfg0.N, win0_0.index t 0 = 0 ∧ win0_0.index t 1 = t.val :=
  (by decide +kernel : ∀ t : Fin grid0.N, win0_0.index t 0 = 0 ∧ win0_0.index t 1 = t.val)

/-- The weight block of point t starts at row 0 and at column block t. -/
theorem weightIndex : ∀ t : Fin cfg0.N, win0_1.index t 0 = 0 ∧ win0_1.index t 1 = t.val :=
  (by decide +kernel : ∀ t : Fin grid0.N, win0_1.index t 0 = 0 ∧ win0_1.index t 1 = t.val)

/-- Entry (a, l) of point t's feature block is feature 1792·t + l of region a. -/
theorem featBlock_read (X : S128x50176.Idx → EReal) (t : Fin cfg0.N) (a : Fin 128) (l : Fin 1792) :
    (((cfg0.win 0).blk t).view.read (Elt Ideal) X : S128x1792.Idx → EReal) (ix2 a l) = X (ix2 a (Cert.Head.col t.val l)) := by
  have hi := featIndex t
  have ht := points_lt t
  rw [View.read_apply]
  show X _ = X _
  refine congrArg X ?_
  funext d
  apply Fin.ext
  match d with
  | ⟨0, _⟩ => show win0_0.index t 0 * 128 + 1 * a.val = a.val; rw [hi.1]; omega
  | ⟨1, _⟩ => show win0_0.index t 1 * 1792 + 1 * l.val = (Cert.Head.col t.val l).val; rw [hi.2, Cert.Head.col_val ht]; omega

/-- Entry (o, l) of point t's weight block is weight 1792·t + l of unit o. -/
theorem weightBlock_read (X : S1024x50176.Idx → EReal) (t : Fin cfg0.N) (o : Fin 1024) (l : Fin 1792) :
    (((cfg0.win 1).blk t).view.read (Elt Ideal) X : S1024x1792.Idx → EReal) (ix2 o l) = X (ix2 o (Cert.Head.col t.val l)) := by
  have hi := weightIndex t
  have ht := points_lt t
  rw [View.read_apply]
  show X _ = X _
  refine congrArg X ?_
  funext d
  apply Fin.ext
  match d with
  | ⟨0, _⟩ => show win0_1.index t 0 * 1024 + 1 * o.val = o.val; rw [hi.1]; omega
  | ⟨1, _⟩ => show win0_1.index t 1 * 1792 + 1 * l.val = (Cert.Head.col t.val l).val; rw [hi.2, Cert.Head.col_val ht]; omega

/-- The hidden bias row, the class weights, the class bias row, the box weights and the box bias row are each one block
    that starts at row 0 and column 0, at every point. -/
theorem wholeIndex : ∀ t : Fin cfg0.N,
    (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0)
      ∧ (win0_6.index t 0 = 0 ∧ win0_6.index t 1 = 0) :=
  (by decide +kernel : ∀ t : Fin grid0.N,
    (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0)
      ∧ (win0_6.index t 0 = 0 ∧ win0_6.index t 1 = 0))

/-- The hidden bias row is read whole. -/
theorem hiddenBiasBlock_read (X : S1x1024.Idx → EReal) (t : Fin cfg0.N) :
    (((cfg0.win 2).blk t).view.read (Elt Ideal) X : S1x1024.Idx → EReal) = X := by
  have hi := (wholeIndex t).1
  funext y
  rw [View.read_apply]
  show X _ = X y
  refine congrArg X ?_
  funext d
  apply Fin.ext
  match d with
  | ⟨0, _⟩ => show win0_2.index t 0 * 1 + 1 * (y 0).val = (y 0).val; rw [hi.1]; omega
  | ⟨1, _⟩ => show win0_2.index t 1 * 1024 + 1 * (y 1).val = (y 1).val; rw [hi.2]; omega

/-- The class weights are read whole. -/
theorem clsWeightBlock_read (X : S21x1024.Idx → EReal) (t : Fin cfg0.N) :
    (((cfg0.win 3).blk t).view.read (Elt Ideal) X : S21x1024.Idx → EReal) = X := by
  have hi := (wholeIndex t).2.1
  funext y
  rw [View.read_apply]
  show X _ = X y
  refine congrArg X ?_
  funext d
  apply Fin.ext
  match d with
  | ⟨0, _⟩ => show win0_3.index t 0 * 21 + 1 * (y 0).val = (y 0).val; rw [hi.1]; omega
  | ⟨1, _⟩ => show win0_3.index t 1 * 1024 + 1 * (y 1).val = (y 1).val; rw [hi.2]; omega

/-- The class bias row is read whole. -/
theorem clsBiasBlock_read (X : S1x21.Idx → EReal) (t : Fin cfg0.N) :
    (((cfg0.win 4).blk t).view.read (Elt Ideal) X : S1x21.Idx → EReal) = X := by
  have hi := (wholeIndex t).2.2.1
  funext y
  rw [View.read_apply]
  show X _ = X y
  refine congrArg X ?_
  funext d
  apply Fin.ext
  match d with
  | ⟨0, _⟩ => show win0_4.index t 0 * 1 + 1 * (y 0).val = (y 0).val; rw [hi.1]; omega
  | ⟨1, _⟩ => show win0_4.index t 1 * 21 + 1 * (y 1).val = (y 1).val; rw [hi.2]; omega

/-- The box weights are read whole. -/
theorem regWeightBlock_read (X : S4x1024.Idx → EReal) (t : Fin cfg0.N) :
    (((cfg0.win 5).blk t).view.read (Elt Ideal) X : S4x1024.Idx → EReal) = X := by
  have hi := (wholeIndex t).2.2.2.1
  funext y
  rw [View.read_apply]
  show X _ = X y
  refine congrArg X ?_
  funext d
  apply Fin.ext
  match d with
  | ⟨0, _⟩ => show win0_5.index t 0 * 4 + 1 * (y 0).val = (y 0).val; rw [hi.1]; omega
  | ⟨1, _⟩ => show win0_5.index t 1 * 1024 + 1 * (y 1).val = (y 1).val; rw [hi.2]; omega

/-- The box bias row is read whole. -/
theorem regBiasBlock_read (X : S1x4.Idx → EReal) (t : Fin cfg0.N) :
    (((cfg0.win 6).blk t).view.read (Elt Ideal) X : S1x4.Idx → EReal) = X := by
  have hi := (wholeIndex t).2.2.2.2
  funext y
  rw [View.read_apply]
  show X _ = X y
  refine congrArg X ?_
  funext d
  apply Fin.ext
  match d with
  | ⟨0, _⟩ => show win0_6.index t 0 * 1 + 1 * (y 0).val = (y 0).val; rw [hi.1]; omega
  | ⟨1, _⟩ => show win0_6.index t 1 * 4 + 1 * (y 1).val = (y 1).val; rw [hi.2]; omega

variable (m : (ℓ : Loc nD τ sig) → Buf (Elt Ideal) ℓ)

/-- Point t's feature block, entry by entry, in the pooled features as the grid finds them. -/
theorem featBlock_at (c : Dev nD) (t : Fin cfg0.N) (a : Fin 128) (l : Fin 1792) :
    (iblk m c 0 t : Vec Ideal S128x1792 .f32) (ix2 a l)
      = (Gen.V m c main_v112 : S128x50176.Idx → EReal) (ix2 a (Cert.Head.col t.val l)) :=
  featBlock_read (Gen.V m c main_v112) t a l

/-- Point t's weight block, entry by entry, in the hidden weights. -/
theorem weightBlock_at (c : Dev nD) (t : Fin cfg0.N) (o : Fin 1024) (l : Fin 1792) :
    (iblk m c 1 t : Vec Ideal S1024x1792 .f32) (ix2 o l)
      = (m ((c : Thread nD τ).loc main_arg2) : S1024x50176.Idx → EReal) (ix2 o (Cert.Head.col t.val l)) :=
  (weightBlock_read (Gen.V m c main_arg2) t o l).trans (by rw [Gen.V_main_arg2 m c])

/-- The hidden bias row as the points read it. -/
theorem hiddenBiasBlock_eq (c : Dev nD) (t : Fin cfg0.N) :
    (iblk m c 2 t : Vec Ideal S1x1024 .f32) = (Gen.V m c main_v113 : S1x1024.Idx → EReal) :=
  hiddenBiasBlock_read (Gen.V m c main_v113) t

/-- The class weights as the points read them. -/
theorem clsWeightBlock_eq (c : Dev nD) (t : Fin cfg0.N) :
    (iblk m c 3 t : Vec Ideal S21x1024 .f32) = (m ((c : Thread nD τ).loc main_arg4) : S21x1024.Idx → EReal) :=
  (clsWeightBlock_read (Gen.V m c main_arg4) t).trans (Gen.V_main_arg4 m c)

/-- The class bias row as the points read it. -/
theorem clsBiasBlock_eq (c : Dev nD) (t : Fin cfg0.N) :
    (iblk m c 4 t : Vec Ideal S1x21 .f32) = (Gen.V m c main_v114 : S1x21.Idx → EReal) :=
  clsBiasBlock_read (Gen.V m c main_v114) t

/-- The box weights as the points read them. -/
theorem regWeightBlock_eq (c : Dev nD) (t : Fin cfg0.N) :
    (iblk m c 5 t : Vec Ideal S4x1024 .f32) = (m ((c : Thread nD τ).loc main_arg6) : S4x1024.Idx → EReal) :=
  (regWeightBlock_read (Gen.V m c main_arg6) t).trans (Gen.V_main_arg6 m c)

/-- The box bias row as the points read it. -/
theorem regBiasBlock_eq (c : Dev nD) (t : Fin cfg0.N) :
    (iblk m c 6 t : Vec Ideal S1x4 .f32) = (Gen.V m c main_v115 : S1x4.Idx → EReal) :=
  regBiasBlock_read (Gen.V m c main_v115) t

end Cert.KernelIdeal.HeadValue

end
-- ==== Proof.LibRowOps.lean ====
/-
  Operations of a two-dimensional array read at one index, on the extended reals.

  The product of an a×k array with the transpose of a b×k array, accumulated into zero, is at (p, q) the inner product
  of row p of the first with row q of the second. The maximum of each row, taken from -∞, is the fold of max over the
  row's entries; the sum of each row is the sum of its entries. A vector viewed as one column reads its entry at
  the row, and a column spread over b columns reads the column's entry at the row.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Ops

open Idealize.ShloMosaic Idealize.ShloMosaic.ValueIdx

/-- The contraction of the second axes of an a×k and a b×k array into zero, read at (p, q): the sum over the
    contracted coordinate l of the products of the entries (p, l) and (q, l). -/
theorem matmul_rows_apply {a b k : Nat} {φ₁ φ₂ : FTy}
    (w : DotDims.WF ⟨2, ![a, k]⟩ ⟨2, ![b, k]⟩ ⟨2, ![a, b]⟩ [1] [1] [0] [0] [] [])
    (prec : Option ContractPrecision) (A : FVec Ideal ⟨2, ![a, k]⟩ φ₁) (B : FVec Ideal ⟨2, ![b, k]⟩ φ₂)
    (p : Fin a) (q : Fin b) :
    matmul (⟨[1], [1], [0], [0], [], [], w⟩ : DotDims _ _ _) prec A B
        (constant (F := Ideal) ⟨2, ![a, b]⟩ .f32 0x00000000#32) (ix2 p q)
      = ∑ l : Fin k, A (ix2 p l) * B (ix2 q l) := by
  show FloatOps.matmul _ prec A B _ (ix2 p q) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![a, k]⟩ ⟨2, ![b, k]⟩ ⟨2, ![a, b]⟩) k rfl rfl c
  have l2 : (⟨[1], [1], [0], [0], [], [], w⟩ : DotDims ⟨2, ![a, k]⟩ ⟨2, ![b, k]⟩ ⟨2, ![a, b]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![a, k]⟩ ⟨2, ![b, k]⟩ ⟨2, ![a, b]⟩).rhsIdx (ix2 p q)
      ((contrEquiv1 _ k rfl rfl).symm c) = ix2 q c := by
    funext ax; apply Fin.ext
    match ax with
    | ⟨0, _⟩ => simp [DotDims.rhsIdx]; rfl
    | ⟨1, _⟩ => simp [DotDims.rhsIdx]; exact c2
  rw [l2, r2]

/-- The index of an a×b array that a reduction over the columns visits at row p and column c is (p, c). -/
theorem lift_cols {a b : Nat} (h : Shape.Reduces ⟨2, ![a, b]⟩ [1] ⟨1, ![a]⟩) (p : Fin a) (c : Fin b) :
    h.lift (ix1 p) c = ix2 p c := by
  funext ax; apply Fin.ext
  match ax with
  | ⟨0, _⟩ => rfl
  | ⟨1, _⟩ => rfl

/-- The maximum over the columns, from -∞, read at row p: the fold of max over the row's entries. -/
theorem rowMax_apply {a b : Nat} (src : FVec Ideal ⟨2, ![a, b]⟩ .f32) (h : Shape.Reduces ⟨2, ![a, b]⟩ [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun c => src (ix2 p c)) := by
  refine (Ideal.multiReduction_maximumf_single src 0xFF800000#32 h hφ hacc (ix1 p)).trans ?_
  have e : (src ∘ h.lift (ix1 p)) = fun c : Fin b => src (ix2 p c) := funext fun c => congrArg src (lift_cols h p c)
  rw [e]
  rfl

/-- The sum over the columns read at row p: the sum of the row's entries. -/
theorem rowSum_apply {a b : Nat} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ c : Fin b, src (ix2 p c) := by
  refine (Ideal.multiReduction_add_single src 0x00000000#32 h hφ hacc (ix1 p)).trans ?_
  exact Finset.sum_congr rfl fun c _ => congrArg src (lift_cols h p c)

/-- A vector of a entries viewed as an a×1 array reads, at (i, u), the vector's entry i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 array spread over b columns reads, at (p, c), the column's entry at row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Ops

end
-- ==== Proof.Payloads.lean ====
/-
  The kernel body's arithmetic read at one index, on the extended reals: the cleared accumulator is zero; one grid
  point adds to the accumulator the inner product of a block of 1792 features with the matching block of weights; and at
  the last point the two heads are linear in accumulator-plus-bias, the class head followed by the row softmax.
-/
import proofs.«164577_j44624710206046_1_alg».proof.Proof.Gen.KernelIdeal.Skeleton
import proofs.«164577_j44624710206046_1_alg».proof.Proof.HeadSpec
import proofs.«164577_j44624710206046_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The cleared accumulator holds zero everywhere. -/
theorem pay1_at (n : Fin 128) (o : Fin 1024) : k0_pay1 (F := Ideal) (ix2 n o) = 0 := by
  unfold k0_pay1
  simp only [shapeCast_self]
  exact Ideal.ofBits_zero_f32

/-- One point's update of the accumulator at (n, o): what was there plus the block's inner product. -/
theorem pay2_at (x0 : Vec Ideal S128x1792 .f32) (x1 : Vec Ideal S1024x1792 .f32) (acc : Vec Ideal S128x1024 .f32)
    (n : Fin 128) (o : Fin 1024) :
    k0_pay2 x0 x1 acc (ix2 n o) = acc (ix2 n o) + ∑ l : Fin 1792, x0 (ix2 n l) * x1 (ix2 o l) := by
  unfold k0_pay2
  simp only [shapeCast_self]
  rw [addf_apply]
  refine congrArg (acc (ix2 n o) + ·) ?_
  exact Cert.Ops.matmul_rows_apply dot_S128x1792_S1024x1792_S128x1024_1_1_0_0_n_n_wf none _ _ n o

/-- Accumulator plus bias at (n, o): the one row of the bias is added to every row of the accumulator. -/
theorem pay3_at (acc : Vec Ideal S128x1024 .f32) (bb : Vec Ideal S1x1024 .f32) (n : Fin 128) (o : Fin 1024) :
    k0_pay3 acc bb (ix2 n o) = acc (ix2 n o) + bb (ix2 (0 : Fin 1) o) := by
  unfold k0_pay3
  simp only [shapeCast_self]
  rw [truncf_apply, addf_apply, broadcastTo_1b_ab_apply]

/-- The shift the body subtracts from row n: the row's maximum from -∞, once more against -∞, kept as one column. -/
theorem shift_at (z : FVec Ideal S128x21 .f32) (h : S128x21.Reduces [1] S128) (hφ : FKind.Formats .f32)
    (hacc : (0xFF800000#32 : BitVec 32) = 0xFF800000#32) (hc : S128.ShapeCasts S128x1) (n : Fin 128) (u : Fin 1) :
    shapeCast S128x1 (maximumf (broadcast S128 (Scalar.ofBits (F := Ideal) .f32 0xFF800000#32))
        (multiReduction .maximumf [1] S128 z 0xFF800000#32 h hφ hacc)) hc (ix2 n u)
      = Cert.Head.rowShift (fun n c => z (ix2 n c)) n := by
  rw [Cert.Ops.shapeCast_a_a1_apply, maximumf_apply, broadcast_apply, Cert.Ops.rowMax_apply]
  rfl

/-- The exponential of a logit less its row's shift, read at (n, c). -/
theorem expShift_at (z : FVec Ideal S128x21 .f32) (h : S128x21.Reduces [1] S128) (hφ : FKind.Formats .f32)
    (hacc : (0xFF800000#32 : BitVec 32) = 0xFF800000#32) (hc : S128.ShapeCasts S128x1)
    (hb : S128x1.Broadcasts S128x21) (n : Fin 128) (c : Fin 21) :
    exp (subf z (broadcastTo S128x21 (shapeCast S128x1 (maximumf
        (broadcast S128 (Scalar.ofBits (F := Ideal) .f32 0xFF800000#32))
        (multiReduction .maximumf [1] S128 z 0xFF800000#32 h hφ hacc)) hc) hb)) (ix2 n c)
      = Cert.Head.expShift (fun n c => z (ix2 n c)) n c := by
  show Ideal.exp (subf z _ (ix2 n c)) = _
  rw [subf_apply, Cert.Ops.broadcastTo_a1_ab_apply, shift_at]
  rfl

/-- The row softmax as the body computes it from an array of logits, read at (n, c): the exponential of the shifted
    logit over the sum of the row's exponentials. -/
theorem softmaxBody_at (z : FVec Ideal S128x21 .f32) (h : S128x21.Reduces [1] S128) (hφ : FKind.Formats .f32)
    (hacc : (0xFF800000#32 : BitVec 32) = 0xFF800000#32) (hacc0 : (0x00000000#32 : BitVec 32) = 0x00000000#32)
    (hc : S128.ShapeCasts S128x1) (hb : S128x1.Broadcasts S128x21) (n : Fin 128) (c : Fin 21) :
    divf
        (exp (subf z (broadcastTo S128x21 (shapeCast S128x1 (maximumf
          (broadcast S128 (Scalar.ofBits (F := Ideal) .f32 0xFF800000#32))
          (multiReduction .maximumf [1] S128 z 0xFF800000#32 h hφ hacc)) hc) hb)))
        (broadcastTo S128x21 (shapeCast S128x1 (multiReduction .add [1] S128
          (exp (subf z (broadcastTo S128x21 (shapeCast S128x1 (maximumf
            (broadcast S128 (Scalar.ofBits (F := Ideal) .f32 0xFF800000#32))
            (multiReduction .maximumf [1] S128 z 0xFF800000#32 h hφ hacc)) hc) hb)))
          0x00000000#32 h hφ hacc0) hc) hb)
        (ix2 n c)
      = Cert.Head.softmax (fun n c => z (ix2 n c)) n c := by
  rw [divf_apply, Cert.Ops.broadcastTo_a1_ab_apply, Cert.Ops.shapeCast_a_a1_apply, Cert.Ops.rowSum_apply]
  unfold Cert.Head.softmax
  refine congrArg₂ Ideal.div (expShift_at z h hφ hacc hc hb n c) ?_
  exact Finset.sum_congr rfl fun c' _ => expShift_at z h hφ hacc hc hb n c'

/-- The class head at (n, c): the softmax of the logits that are linear in accumulator-plus-bias. -/
theorem pay4_at (acc : Vec Ideal S128x1024 .f32) (bb : Vec Ideal S1x1024 .f32) (cw : Vec Ideal S21x1024 .f32)
    (cb : Vec Ideal S1x21 .f32) (n : Fin 128) (c : Fin 21) :
    k0_pay4 acc bb cw cb (ix2 n c)
      = Cert.Head.softmax (Cert.Head.linear (fun n o => acc (ix2 n o) + bb (ix2 (0 : Fin 1) o)) cw
          (fun i : (⟨1, ![21]⟩ : Shape).Idx => cb (ix2 (0 : Fin 1) (i 0)))) n c := by
  unfold k0_pay4
  simp only [shapeCast_self]
  refine (softmaxBody_at _ _ _ _ _ _ _ n c).trans ?_
  refine congrArg (fun z => Cert.Head.softmax z n c) ?_
  funext n' c'
  show addf _ _ (ix2 n' c') = _
  unfold Cert.Head.linear
  rw [addf_apply, broadcastTo_1b_ab_apply]
  refine congrArg (· + cb (ix2 (0 : Fin 1) c')) ?_
  refine (Cert.Ops.matmul_rows_apply dot_S128x1024_S21x1024_S128x21_1_1_0_0_n_n_wf none _ _ n' c').trans ?_
  refine Finset.sum_congr rfl fun o _ => ?_
  rw [pay3_at, truncf_apply]

/-- The regression head at (n, q): linear in accumulator-plus-bias. -/
theorem pay5_at (acc : Vec Ideal S128x1024 .f32) (bb : Vec Ideal S1x1024 .f32) (rw : Vec Ideal S4x1024 .f32)
    (rb : Vec Ideal S1x4 .f32) (n : Fin 128) (q : Fin 4) :
    k0_pay5 acc bb rw rb (ix2 n q)
      = Cert.Head.linear (fun n o => acc (ix2 n o) + bb (ix2 (0 : Fin 1) o)) rw
          (fun i : (⟨1, ![4]⟩ : Shape).Idx => rb (ix2 (0 : Fin 1) (i 0))) n q := by
  unfold k0_pay5 Cert.Head.linear
  simp only [shapeCast_self]
  rw [addf_apply, broadcastTo_1b_ab_apply]
  refine congrArg (· + rb (ix2 (0 : Fin 1) q)) ?_
  refine (Cert.Ops.matmul_rows_apply dot_S128x1024_S4x1024_S128x4_1_1_0_0_n_n_wf none _ _ n q).trans ?_
  refine Finset.sum_congr rfl fun o _ => ?_
  rw [pay3_at, truncf_apply]

end Cert.KernelIdeal.Payload

end
-- ==== Proof.KernelAcc.lean ====
/-
  The accumulator after each grid point. After point n (counting from 0) the accumulator holds, at region a and unit o,
  the sum of the first n + 1 blocks' shares of the inner product of the region's features with the unit's weights:
  the first point clears it and adds block 0's share, and every later point adds its own block's share to what the
  point before left. The proof is an induction over the points.
-/
import proofs.«164577_j44624710206046_1_alg».proof.Proof.KernelPieces
import proofs.«164577_j44624710206046_1_alg».proof.Proof.KernelBlocks
import proofs.«164577_j44624710206046_1_alg».proof.Proof.Payloads
import proofs.«164577_j44624710206046_1_alg».proof.Proof.HiddenBlocks

noncomputable section

namespace Cert.KernelIdeal.HeadValue

open Cert.KernelIdeal Cert.KernelIdeal.Gen Idealize.ShloMosaic Idealize.ShloMosaic.ValueIdx Idealize.ShloMosaic.TcCoe

/-- One point's update, entry by entry: if the accumulator held the first k blocks' shares and the point reads block k
    of the features and of the weights, it leaves the first k + 1 blocks' shares. -/
theorem update_at (X : (⟨2, ![128, 50176]⟩ : Shape).Idx → EReal) (W : (⟨2, ![1024, 50176]⟩ : Shape).Idx → EReal) (k : ℕ)
    (x0 : Vec Ideal S128x1792 .f32) (x1 : Vec Ideal S1024x1792 .f32) (acc : Vec Ideal S128x1024 .f32)
    (hx0 : ∀ (a : Fin 128) (l : Fin 1792), x0 (ix2 a l) = X (ix2 a (Cert.Head.col k l)))
    (hx1 : ∀ (o : Fin 1024) (l : Fin 1792), x1 (ix2 o l) = W (ix2 o (Cert.Head.col k l)))
    (hacc : ∀ (a : Fin 128) (o : Fin 1024), acc (ix2 a o) = Cert.Head.partialHidden X W k a o)
    (a : Fin 128) (o : Fin 1024) :
    k0_pay2 x0 x1 acc (ix2 a o) = Cert.Head.partialHidden X W (k + 1) a o := by
  rw [Payload.pay2_at, hacc, Cert.Head.partialHidden_succ]
  refine congrArg (fun z => Cert.Head.partialHidden X W k a o + z) ?_
  unfold Cert.Head.blockTerm
  exact Finset.sum_congr rfl fun l _ => by rw [hx0, hx1]

variable (m : (ℓ : Loc nD τ sig) → Buf (Elt Ideal) ℓ)

/-- After point n the accumulator holds the first n + 1 blocks' shares. -/
theorem acc_after (c : Dev nD) : ∀ (n : ℕ) (hn : n < cfg0.N) (a : Fin 128) (o : Fin 1024),
    ((outsAt0 m c n hn).2.2 : S128x1024.Idx → EReal) (ix2 a o)
      = Cert.Head.partialHidden (Gen.V m c main_v112) (m ((c : Thread nD τ).loc main_arg2)) (n + 1) a o
  | 0, hn, a, o => by
    have h0 : (⟨0, hn⟩ : Fin cfg0.N).val % 28 = 0 := rfl
    have h1 : ¬(⟨0, hn⟩ : Fin cfg0.N).val % 28 = 27 := by dsimp only; omega
    rw [outsAt0_A m c ⟨0, hn⟩ h0 h1]
    dsimp only
    refine (congrFun (acc_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) ((hcond0_0 ⟨0, hn⟩).mpr h0) (fun h => h1 ((hcond0_1 ⟨0, hn⟩).mp h))) (ix2 a o)).trans ?_
    exact update_at (Gen.V m c main_v112) (m ((c : Thread nD τ).loc main_arg2)) 0 (iblk m c 0 ⟨0, hn⟩) (iblk m c 1 ⟨0, hn⟩) (k0_pay1 (F := Ideal))
      (featBlock_at m c ⟨0, hn⟩) (weightBlock_at m c ⟨0, hn⟩)
      (fun a o => (Payload.pay1_at a o).trans (Cert.Head.partialHidden_zero _ _ a o).symm) a o
  | n + 1, hn, a, o => by
    have hN : n + 1 < 28 := lt_of_lt_of_eq hn (show cfg0.N = 28 from N_0)
    have h0 : ¬(⟨n + 1, hn⟩ : Fin cfg0.N).val % 28 = 0 := by dsimp only; omega
    have ih := acc_after c n (Nat.lt_of_succ_lt hn)
    by_cases h1 : (⟨n + 1, hn⟩ : Fin cfg0.N).val % 28 = 27
    · rw [outsAt0_C m c ⟨n + 1, hn⟩ h0 h1]
      dsimp only
      refine (congrFun (acc_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ (fun h => h0 ((hcond0_0 ⟨n + 1, hn⟩).mp h)) ((hcond0_1 ⟨n + 1, hn⟩).mpr h1)) (ix2 a o)).trans ?_
      exact update_at (Gen.V m c main_v112) (m ((c : Thread nD τ).loc main_arg2)) (n + 1) (iblk m c 0 ⟨n + 1, hn⟩) (iblk m c 1 ⟨n + 1, hn⟩) _
        (featBlock_at m c ⟨n + 1, hn⟩) (weightBlock_at m c ⟨n + 1, hn⟩) ih a o
    · rw [outsAt0_B m c ⟨n + 1, hn⟩ h0 h1]
      dsimp only
      refine (congrFun (acc_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ (fun h => h0 ((hcond0_0 ⟨n + 1, hn⟩).mp h)) (fun h => h1 ((hcond0_1 ⟨n + 1, hn⟩).mp h))) (ix2 a o)).trans ?_
      exact update_at (Gen.V m c main_v112) (m ((c : Thread nD τ).loc main_arg2)) (n + 1) (iblk m c 0 ⟨n + 1, hn⟩) (iblk m c 1 ⟨n + 1, hn⟩) _
        (featBlock_at m c ⟨n + 1, hn⟩) (weightBlock_at m c ⟨n + 1, hn⟩) ih a o

end Cert.KernelIdeal.HeadValue

end
-- ==== Proof.KernelBias.lean ====
/-
  The three bias rows as the grid finds them. Before the grid starts, each bias vector (of 1024, 21 and 4 entries) is
  re-laid as a single row: a [1, b] array whose entry (0, j) is entry j of the vector. Nothing else writes these rows,
  so inside the grid the row of the hidden layer's bias read at (0, o) is the bias of unit o, and likewise for the two
  heads' biases.
-/
import proofs.«164577_j44624710206046_1_alg».proof.Proof.Gen.KernelIdeal.Frame
import Idealize.ShloMosaic.Lib.ValueIdx
import Idealize.ShloMosaic.Lib.ValueLayout

noncomputable section

namespace Cert.KernelIdeal.HeadValue

open Cert.KernelIdeal Cert.KernelIdeal.Gen Idealize.ShloMosaic Idealize.ShloMosaic.ValueIdx Idealize.ShloMosaic.TcCoe

variable (m : (ℓ : Loc nD τ sig) → Buf (Elt Ideal) ℓ)

set_option maxHeartbeats 4000000 in
/-- The hidden layer's bias row is the bias vector re-laid as [1, 1024]. -/
theorem hiddenBiasRow_eq (c : Dev nD) :
    (Gen.V m c main_v113 : S1x1024.Idx → EReal)
      = shapeCast S1x1024 (m ((c : Thread nD τ).loc main_arg3) : S1024.Idx → EReal) shapeCasts_S1024_S1x1024 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp
  rfl

set_option maxHeartbeats 4000000 in
/-- The class head's bias row is its bias vector re-laid as [1, 21]. -/
theorem clsBiasRow_eq (c : Dev nD) :
    (Gen.V m c main_v114 : S1x21.Idx → EReal)
      = shapeCast S1x21 (m ((c : Thread nD τ).loc main_arg5) : S21.Idx → EReal) shapeCasts_S21_S1x21 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp
  rfl

set_option maxHeartbeats 4000000 in
/-- The box head's bias row is its bias vector re-laid as [1, 4]. -/
theorem regBiasRow_eq (c : Dev nD) :
    (Gen.V m c main_v115 : S1x4.Idx → EReal)
      = shapeCast S1x4 (m ((c : Thread nD τ).loc main_arg7) : S4.Idx → EReal) shapeCasts_S4_S1x4 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results_simp
  rfl

/-- Entry (0, o) of the hidden layer's bias row is the bias of unit o. -/
theorem hiddenBiasRow_at (c : Dev nD) (o : Fin 1024) :
    (Gen.V m c main_v113 : S1x1024.Idx → EReal) (ix2 (0 : Fin 1) o)
      = (m ((c : Thread nD τ).loc main_arg3) : S1024.Idx → EReal) (ix1 o) := by
  rw [hiddenBiasRow_eq m c]
  exact shapeCast_a_1a_apply _ _ (0 : Fin 1) o

/-- Entry (0, k) of the class head's bias row is the bias of class k. -/
theorem clsBiasRow_at (c : Dev nD) (k : Fin 21) :
    (Gen.V m c main_v114 : S1x21.Idx → EReal) (ix2 (0 : Fin 1) k)
      = (m ((c : Thread nD τ).loc main_arg5) : S21.Idx → EReal) (ix1 k) := by
  rw [clsBiasRow_eq m c]
  exact shapeCast_a_1a_apply _ _ (0 : Fin 1) k

/-- Entry (0, q) of the box head's bias row is the bias of box coordinate q. -/
theorem regBiasRow_at (c : Dev nD) (q : Fin 4) :
    (Gen.V m c main_v115 : S1x4.Idx → EReal) (ix2 (0 : Fin 1) q)
      = (m ((c : Thread nD τ).loc main_arg7) : S4.Idx → EReal) (ix1 q) := by
  rw [regBiasRow_eq m c]
  exact shapeCast_a_1a_apply _ _ (0 : Fin 1) q

end Cert.KernelIdeal.HeadValue

end
-- ==== Proof.KernelOut.lean ====
/-
  What the grid writes back. Only the last point writes the two output blocks back, and each block is its whole array.
  At that point the accumulator holds all 28 blocks' shares, that is the whole inner product, so accumulator plus bias
  is the hidden layer; the class head is the row softmax of the logits that are linear in it, and the box head is
  linear in it. Hence after the grid the class array is the class probabilities and the box array is the box
  regression, as functions of the pooled features and of the six weight and bias arrays.
-/
import proofs.«164577_j44624710206046_1_alg».proof.Proof.Gen.KernelIdeal.Value
import proofs.«164577_j44624710206046_1_alg».proof.Proof.KernelAcc
import proofs.«164577_j44624710206046_1_alg».proof.Proof.KernelBias

noncomputable section

namespace Cert.KernelIdeal.HeadValue

open Cert.KernelIdeal Cert.KernelIdeal.Gen Idealize.ShloMosaic Idealize.ShloMosaic.ValueIdx Idealize.ShloMosaic.TcCoe
open Idealize.ShloMosaic.Pipeline (Dat)

/-- The class head, entry by entry: with the accumulator at all 28 blocks' shares and the bias rows and weights at the
    arguments, the softmax of the linear logits is the class probability. -/
theorem cls_at (X : (⟨2, ![128, 50176]⟩ : Shape).Idx → EReal) (W : (⟨2, ![1024, 50176]⟩ : Shape).Idx → EReal)
    (b : (⟨1, ![1024]⟩ : Shape).Idx → EReal) (v : (⟨2, ![21, 1024]⟩ : Shape).Idx → EReal) (d : (⟨1, ![21]⟩ : Shape).Idx → EReal)
    (acc : Vec Ideal S128x1024 .f32) (bb : Vec Ideal S1x1024 .f32) (cw : Vec Ideal S21x1024 .f32) (cb : Vec Ideal S1x21 .f32)
    (hacc : ∀ (a : Fin 128) (o : Fin 1024), acc (ix2 a o) = Cert.Head.partialHidden X W 28 a o)
    (hbb : ∀ o : Fin 1024, bb (ix2 (0 : Fin 1) o) = b (ix1 o))
    (hcw : cw = v)
    (hcb : ∀ k : Fin 21, cb (ix2 (0 : Fin 1) k) = d (ix1 k))
    (n : Fin 128) (k : Fin 21) :
    k0_pay4 acc bb cw cb (ix2 n k) = Cert.Head.cls X W b v d (ix2 n k) := by
  rw [Payload.pay4_at]
  have e1 : (fun (n : Fin 128) (o : Fin 1024) => acc (ix2 n o) + bb (ix2 (0 : Fin 1) o)) = Cert.Head.hidden X W b := by
    funext n o
    rw [Cert.Head.hidden_eq_blocks, hacc, hbb]
  have e2 : (fun i : (⟨1, ![21]⟩ : Shape).Idx => cb (ix2 (0 : Fin 1) (i 0))) = d := by
    funext i
    exact (hcb (i 0)).trans (congrArg d (eq_ix1 i).symm)
  rw [e1, e2, hcw]
  rfl

/-- The box head, entry by entry: linear in accumulator plus bias. -/
theorem reg_at (X : (⟨2, ![128, 50176]⟩ : Shape).Idx → EReal) (W : (⟨2, ![1024, 50176]⟩ : Shape).Idx → EReal)
    (b : (⟨1, ![1024]⟩ : Shape).Idx → EReal) (v : (⟨2, ![4, 1024]⟩ : Shape).Idx → EReal) (d : (⟨1, ![4]⟩ : Shape).Idx → EReal)
    (acc : Vec Ideal S128x1024 .f32) (bb : Vec Ideal S1x1024 .f32) (rw : Vec Ideal S4x1024 .f32) (rb : Vec Ideal S1x4 .f32)
    (hacc : ∀ (a : Fin 128) (o : Fin 1024), acc (ix2 a o) = Cert.Head.partialHidden X W 28 a o)
    (hbb : ∀ o : Fin 1024, bb (ix2 (0 : Fin 1) o) = b (ix1 o))
    (hrw : rw = v)
    (hrb : ∀ q : Fin 4, rb (ix2 (0 : Fin 1) q) = d (ix1 q))
    (n : Fin 128) (q : Fin 4) :
    k0_pay5 acc bb rw rb (ix2 n q) = Cert.Head.reg X W b v d (ix2 n q) := by
  rw [Payload.pay5_at]
  have e1 : (fun (n : Fin 128) (o : Fin 1024) => acc (ix2 n o) + bb (ix2 (0 : Fin 1) o)) = Cert.Head.hidden X W b := by
    funext n o
    rw [Cert.Head.hidden_eq_blocks, hacc, hbb]
  have e2 : (fun i : (⟨1, ![4]⟩ : Shape).Idx => rb (ix2 (0 : Fin 1) (i 0))) = d := by
    funext i
    exact (hrb (i 0)).trans (congrArg d (eq_ix1 i).symm)
  rw [e1, e2, hrw]
  rfl

variable (m : (ℓ : Loc nD τ sig) → Buf (Elt Ideal) ℓ)

/-- Before the last point the accumulator holds the first 27 blocks' shares. -/
theorem acc_before_last (c : Dev nD) (k : ℕ) (hk : k < cfg0.N) (e : k = 26) (a : Fin 128) (o : Fin 1024) :
    ((outsAt0 m c k hk).2.2 : S128x1024.Idx → EReal) (ix2 a o)
      = Cert.Head.partialHidden (Gen.V m c main_v112) (m ((c : Thread nD τ).loc main_arg2)) 27 a o := by
  subst e
  exact acc_after m c 26 hk a o

/-- What the last point leaves in the class block: the class probabilities. -/
theorem cls_block (c : Dev nD) (t : Fin cfg0.N) (h1 : t.val % 28 = 27) :
    ((outsAt0 m c t.val t.isLt).1 : S128x21.Idx → EReal)
      = Cert.Head.cls (Gen.V m c main_v112) (m ((c : Thread nD τ).loc main_arg2)) (m ((c : Thread nD τ).loc main_arg3))
          (m ((c : Thread nD τ).loc main_arg4)) (m ((c : Thread nD τ).loc main_arg5)) := by
  have ht := points_lt t
  have h0 : ¬t.val % 28 = 0 := by omega
  have h27 : t.val = 27 := by omega
  rw [outsAt0_C m c t h0 h1]
  dsimp only
  refine (cls_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) _ (fun h => h0 ((hcond0_0 t).mp h)) ((hcond0_1 t).mpr h1)).trans ?_
  funext i
  obtain ⟨n, k, rfl⟩ : ∃ (n : Fin 128) (k : Fin 21), i = ix2 n k := ⟨i 0, i 1, eq_ix2 i⟩
  exact cls_at (Gen.V m c main_v112) (m ((c : Thread nD τ).loc main_arg2)) (m ((c : Thread nD τ).loc main_arg3))
    (m ((c : Thread nD τ).loc main_arg4)) (m ((c : Thread nD τ).loc main_arg5))
    (k0_pay2 (iblk m c 0 t) (iblk m c 1 t) _) (iblk m c 2 t) (iblk m c 3 t) (iblk m c 4 t)
    (fun a o => update_at (Gen.V m c main_v112) (m ((c : Thread nD τ).loc main_arg2)) 27 (iblk m c 0 t) (iblk m c 1 t) _
      (fun a l => (featBlock_at m c t a l).trans (by rw [h27])) (fun o l => (weightBlock_at m c t o l).trans (by rw [h27]))
      (fun a o => acc_before_last m c (t.val - 1) _ (by omega) a o) a o)
    (fun o => by rw [hiddenBiasBlock_eq m c t]; exact hiddenBiasRow_at m c o)
    (clsWeightBlock_eq m c t)
    (fun k => by rw [clsBiasBlock_eq m c t]; exact clsBiasRow_at m c k)
    n k

/-- What the last point leaves in the box block: the box regression. -/
theorem reg_block (c : Dev nD) (t : Fin cfg0.N) (h1 : t.val % 28 = 27) :
    ((outsAt0 m c t.val t.isLt).2.1 : S128x4.Idx → EReal)
      = Cert.Head.reg (Gen.V m c main_v112) (m ((c : Thread nD τ).loc main_arg2)) (m ((c : Thread nD τ).loc main_arg3))
          (m ((c : Thread nD τ).loc main_arg6)) (m ((c : Thread nD τ).loc main_arg7)) := by
  have ht := points_lt t
  have h0 : ¬t.val % 28 = 0 := by omega
  have h27 : t.val = 27 := by omega
  rw [outsAt0_C m c t h0 h1]
  dsimp only
  refine (reg_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) _ (fun h => h0 ((hcond0_0 t).mp h)) ((hcond0_1 t).mpr h1)).trans ?_
  funext i
  obtain ⟨n, q, rfl⟩ : ∃ (n : Fin 128) (q : Fin 4), i = ix2 n q := ⟨i 0, i 1, eq_ix2 i⟩
  exact reg_at (Gen.V m c main_v112) (m ((c : Thread nD τ).loc main_arg2)) (m ((c : Thread nD τ).loc main_arg3))
    (m ((c : Thread nD τ).loc main_arg6)) (m ((c : Thread nD τ).loc main_arg7))
    (k0_pay2 (iblk m c 0 t) (iblk m c 1 t) _) (iblk m c 2 t) (iblk m c 5 t) (iblk m c 6 t)
    (fun a o => update_at (Gen.V m c main_v112) (m ((c : Thread nD τ).loc main_arg2)) 27 (iblk m c 0 t) (iblk m c 1 t) _
      (fun a l => (featBlock_at m c t a l).trans (by rw [h27])) (fun o l => (weightBlock_at m c t o l).trans (by rw [h27]))
      (fun a o => acc_before_last m c (t.val - 1) _ (by omega) a o) a o)
    (fun o => by rw [hiddenBiasBlock_eq m c t]; exact hiddenBiasRow_at m c o)
    (regWeightBlock_eq m c t)
    (fun q => by rw [regBiasBlock_eq m c t]; exact regBiasRow_at m c q)
    n q

/-- Each output block starts at row 0 and column 0, at every point: the block is the whole array. -/
theorem outIndex : ∀ t : Fin cfg0.N, (∀ a : Fin 2, win0_7.index t a = 0) ∧ (∀ a : Fin 2, win0_8.index t a = 0) :=
  (by decide +kernel : ∀ t : Fin grid0.N, (∀ a : Fin 2, win0_7.index t a = 0) ∧ (∀ a : Fin 2, win0_8.index t a = 0))

/-- The last point. -/
abbrev lastPoint : Fin cfg0.N := ⟨27, by rw [show cfg0.N = 28 from N_0]; decide⟩

/-- The one write-back of the class block writes the class probabilities, read through the block. -/
theorem cls_flushed (c : Dev nD) (t : Fin cfg0.N) (hf : (cfg0.win 7).flush t = true) :
    (dats m 0 c).flushed 7 t = ((cfg0.win 7).blk t).view.read (Elt Ideal)
      (Cert.Head.cls (Gen.V m c main_v112) (m ((c : Thread nD τ).loc main_arg2)) (m ((c : Thread nD τ).loc main_arg3))
        (m ((c : Thread nD τ).loc main_arg4)) (m ((c : Thread nD τ).loc main_arg5))) := by
  have h1 : t.val % 28 = 27 := (flush0_7 t).mp hf
  rw [Value.flushed7, cls_block m c t h1]
  have hz' : (fun a => win0_7.index t a * main_v116_0.ty.shape.size a) = fun _ => 0 :=
    funext fun a => by rw [(outIndex t).1 a]; exact Nat.zero_mul _
  exact (Memref.read_access_unit_zero (Elt Ideal) main_v116_0 hz' (fun a => by rw [congrFun hz' a]; simp) _).symm

/-- The one write-back of the box block writes the box regression, read through the block. -/
theorem reg_flushed (c : Dev nD) (t : Fin cfg0.N) (hf : (cfg0.win 8).flush t = true) :
    (dats m 0 c).flushed 8 t = ((cfg0.win 8).blk t).view.read (Elt Ideal)
      (Cert.Head.reg (Gen.V m c main_v112) (m ((c : Thread nD τ).loc main_arg2)) (m ((c : Thread nD τ).loc main_arg3))
        (m ((c : Thread nD τ).loc main_arg6)) (m ((c : Thread nD τ).loc main_arg7))) := by
  have h1 : t.val % 28 = 27 := (flush0_8 t).mp hf
  rw [Value.flushed8, reg_block m c t h1]
  have hz' : (fun a => win0_8.index t a * main_v116_1.ty.shape.size a) = fun _ => 0 :=
    funext fun a => by rw [(outIndex t).2 a]; exact Nat.zero_mul _
  exact (Memref.read_access_unit_zero (Elt Ideal) main_v116_1 hz' (fun a => by rw [congrFun hz' a]; simp) _).symm

/-- After the grid the class array holds the class probabilities: the last point's block covers the array. -/
theorem cls_final (c : Dev nD) :
    (dats m 0 c).arrAt 7 cfg0.N
      = Cert.Head.cls (Gen.V m c main_v112) (m ((c : Thread nD τ).loc main_arg2)) (m ((c : Thread nD τ).loc main_arg3))
          (m ((c : Thread nD τ).loc main_arg4)) (m ((c : Thread nD τ).loc main_arg5)) :=
  (dats m 0 c).arrAt_eq_of_cover 7 _ (cls_flushed m c) fun i =>
    ⟨lastPoint, (flush0_7 lastPoint).mpr rfl, by
      show i ∈ ((View.whole main_v116_0).slice (win0_7.rect lastPoint)).set
      rw [View.set_slice_whole, Rect.mem_set_unit]
      intro a
      have h0 : (i 0 : Nat) < 128 := (i 0).isLt
      have h1 : (i 1 : Nat) < 21 := (i 1).isLt
      match a with
      | ⟨0, _⟩ => show win0_7.index lastPoint 0 * win0_7.size 0 ≤ (i 0 : Nat) ∧ (i 0 : Nat) < win0_7.index lastPoint 0 * win0_7.size 0 + win0_7.xsize (grid0.coords lastPoint) 0
                  rw [show win0_7.index lastPoint 0 * win0_7.size 0 = 0 from by decide +kernel, show win0_7.xsize (grid0.coords lastPoint) 0 = 128 from by decide +kernel]; omega
      | ⟨1, _⟩ => show win0_7.index lastPoint 1 * win0_7.size 1 ≤ (i 1 : Nat) ∧ (i 1 : Nat) < win0_7.index lastPoint 1 * win0_7.size 1 + win0_7.xsize (grid0.coords lastPoint) 1
                  rw [show win0_7.index lastPoint 1 * win0_7.size 1 = 0 from by decide +kernel, show win0_7.xsize (grid0.coords lastPoint) 1 = 21 from by decide +kernel]; omega⟩

/-- After the grid the box array holds the box regression: the last point's block covers the array. -/
theorem reg_final (c : Dev nD) :
    (dats m 0 c).arrAt 8 cfg0.N
      = Cert.Head.reg (Gen.V m c main_v112) (m ((c : Thread nD τ).loc main_arg2)) (m ((c : Thread nD τ).loc main_arg3))
          (m ((c : Thread nD τ).loc main_arg6)) (m ((c : Thread nD τ).loc main_arg7)) :=
  (dats m 0 c).arrAt_eq_of_cover 8 _ (reg_flushed m c) fun i =>
    ⟨lastPoint, (flush0_8 lastPoint).mpr rfl, by
      show i ∈ ((View.whole main_v116_1).slice (win0_8.rect lastPoint)).set
      rw [View.set_slice_whole, Rect.mem_set_unit]
      intro a
      have h0 : (i 0 : Nat) < 128 := (i 0).isLt
      have h1 : (i 1 : Nat) < 4 := (i 1).isLt
      match a with
      | ⟨0, _⟩ => show win0_8.index lastPoint 0 * win0_8.size 0 ≤ (i 0 : Nat) ∧ (i 0 : Nat) < win0_8.index lastPoint 0 * win0_8.size 0 + win0_8.xsize (grid0.coords lastPoint) 0
                  rw [show win0_8.index lastPoint 0 * win0_8.size 0 = 0 from by decide +kernel, show win0_8.xsize (grid0.coords lastPoint) 0 = 128 from by decide +kernel]; omega
      | ⟨1, _⟩ => show win0_8.index lastPoint 1 * win0_8.size 1 ≤ (i 1 : Nat) ∧ (i 1 : Nat) < win0_8.index lastPoint 1 * win0_8.size 1 + win0_8.xsize (grid0.coords lastPoint) 1
                  rw [show win0_8.index lastPoint 1 * win0_8.size 1 = 0 from by decide +kernel, show win0_8.xsize (grid0.coords lastPoint) 1 = 4 from by decide +kernel]; omega⟩

end Cert.KernelIdeal.HeadValue

end
-- ==== Proof.KernelValue.lean ====
/-
  The kernel's run, read as values. After the run the class array holds the class probabilities and the box array
  the box regression of the pooled features under the six weight and bias arguments, and every argument array is as
  it was at the start.
-/
import proofs.«164577_j44624710206046_1_alg».proof.Proof.Gen.KernelIdeal.Value
import proofs.«164577_j44624710206046_1_alg».proof.Proof.KernelOut

noncomputable section

namespace Cert.KernelIdeal.HeadValue

open Cert.KernelIdeal Cert.KernelIdeal.Gen Idealize.ShloMosaic Idealize.ShloMosaic.TcCoe Idealize.SL.Sem

/-- Every execution of the program ends with the two output arrays at the class probabilities and the box regression,
    and the eight arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v116_0) = Cert.Head.cls (Gen.V m c main_v112) (m ((c : Thread nD τ).loc main_arg2)) (m ((c : Thread nD τ).loc main_arg3)) (m ((c : Thread nD τ).loc main_arg4)) (m ((c : Thread nD τ).loc main_arg5))
      ∧ r.2.mem ((c : Thread nD τ).loc main_v116_1) = Cert.Head.reg (Gen.V m c main_v112) (m ((c : Thread nD τ).loc main_arg2)) (m ((c : Thread nD τ).loc main_arg3)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (cls_final m c), (h c).2.1.trans (reg_final m c), (h c).2.2⟩)
    (Value.run_blocks m ρ)

end Cert.KernelIdeal.HeadValue

end
-- ==== Proof.RefTailOps.lean ====
/-
  The last 26 operations of the reference: from the pooled features (held in `main_v112`) to its two results —
  the hidden layer as one matrix product with the transposed weights plus the bias, the class logits and their softmax
  (`main_v133`), and the box regression (`main_v138`).
-/
import proofs.«164577_j44624710206046_1_alg».proof.Proof.Gen.ReferenceIdeal
import Idealize.ShloMosaic.Lib.StableHlo.Run

noncomputable section

namespace Cert.ReferenceIdeal.Tail

open Cert.ReferenceIdeal Cert.ReferenceIdeal.Gen Idealize.ShloMosaic Idealize.ShloMosaic.TcCoe Idealize.ShloMosaic.StableHlo

variable {F : FTy → Type} [FloatOps F]

/-- The operations after the pooled features, in order. -/
abbrev tailOps : List (HloOp τ sig (Elt F)) :=
  [ unary main_arg2 main_v113 ((transpose S50176x1024 [1, 0] · transposes_S1024x50176_S50176x1024_1_0) : (⟨S1024x50176, .f32⟩ : BufTy).Contents (Elt F) → (⟨S50176x1024, .f32⟩ : BufTy).Contents (Elt F)),
    binary main_v112 main_v113 main_v114 ((fun l r => Host.dotGeneral dot_S128x50176_S50176x1024_S128x1024_1_0_0_1_n_n none l r) : (⟨S128x50176, .f32⟩ : BufTy).Contents (Elt F) → (⟨S50176x1024, .f32⟩ : BufTy).Contents (Elt F) → (⟨S128x1024, .f32⟩ : BufTy).Contents (Elt F)),
    unary main_arg3 main_v115 (broadcastInDim S1x1024 ![1] bcast_S1024_S1x1024_1 : (⟨S1024, .f32⟩ : BufTy).Contents (Elt F) → (⟨S1x1024, .f32⟩ : BufTy).Contents (Elt F)),
    unary main_v115 main_v116 (broadcastInDim S128x1024 ![0, 1] bcast_S1x1024_S128x1024_0_1 : (⟨S1x1024, .f32⟩ : BufTy).Contents (Elt F) → (⟨S128x1024, .f32⟩ : BufTy).Contents (Elt F)),
    binary main_v114 main_v116 main_v117 (addf : (⟨S128x1024, .f32⟩ : BufTy).Contents (Elt F) → (⟨S128x1024, .f32⟩ : BufTy).Contents (Elt F) → (⟨S128x1024, .f32⟩ : BufTy).Contents (Elt F)),
    unary main_arg4 main_v118 ((transpose S1024x21 [1, 0] · transposes_S21x1024_S1024x21_1_0) : (⟨S21x1024, .f32⟩ : BufTy).Contents (Elt F) → (⟨S1024x21, .f32⟩ : BufTy).Contents (Elt F)),
    binary main_v117 main_v118 main_v119 ((fun l r => Host.dotGeneral dot_S128x1024_S1024x21_S128x21_1_0_0_1_n_n none l r) : (⟨S128x1024, .f32⟩ : BufTy).Contents (Elt F) → (⟨S1024x21, .f32⟩ : BufTy).Contents (Elt F) → (⟨S128x21, .f32⟩ : BufTy).Contents (Elt F)),
    unary main_arg5 main_v120 (broadcastInDim S1x21 ![1] bcast_S21_S1x21_1 : (⟨S21, .f32⟩ : BufTy).Contents (Elt F) → (⟨S1x21, .f32⟩ : BufTy).Contents (Elt F)),
    unary main_v120 main_v121 (broadcastInDim S128x21 ![0, 1] bcast_S1x21_S128x21_0_1 : (⟨S1x21, .f32⟩ : BufTy).Contents (Elt F) → (⟨S128x21, .f32⟩ : BufTy).Contents (Elt F)),
    binary main_v119 main_v121 main_v122 (addf : (⟨S128x21, .f32⟩ : BufTy).Contents (Elt F) → (⟨S128x21, .f32⟩ : BufTy).Contents (Elt F) → (⟨S128x21, .f32⟩ : BufTy).Contents (Elt F)),
    nullary main_cst_21 (constant S_ .f32 0xFF800000#32),
    binary main_v122 main_cst_21 main_v123 ((fun x v => Host.reduce FloatOps.maximumf x v reducesTo_S128x21_S128_d1 h_S_) : (⟨S128x21, .f32⟩ : BufTy).Contents (Elt F) → (⟨S_, .f32⟩ : BufTy).Contents (Elt F) → (⟨S128, .f32⟩ : BufTy).Contents (Elt F)),
    nullary main_cst_22 (constant S_ .f32 0xFF800000#32),
    unary main_cst_22 main_v124 (broadcastInDim S128 ![] bcast_S_S128 : (⟨S_, .f32⟩ : BufTy).Contents (Elt F) → (⟨S128, .f32⟩ : BufTy).Contents (Elt F)),
    binary main_v124 main_v123 main_v125 (maximumf : (⟨S128, .f32⟩ : BufTy).Contents (Elt F) → (⟨S128, .f32⟩ : BufTy).Contents (Elt F) → (⟨S128, .f32⟩ : BufTy).Contents (Elt F)),
    unary main_v125 main_v126 (broadcastInDim S128x1 ![0] bcast_S128_S128x1_0 : (⟨S128, .f32⟩ : BufTy).Contents (Elt F) → (⟨S128x1, .f32⟩ : BufTy).Contents (Elt F)),
    unary main_v126 main_v127 (broadcastInDim S128x21 ![0, 1] bcast_S128x1_S128x21_0_1 : (⟨S128x1, .f32⟩ : BufTy).Contents (Elt F) → (⟨S128x21, .f32⟩ : BufTy).Contents (Elt F)),
    binary main_v122 main_v127 main_v128 (subf : (⟨S128x21, .f32⟩ : BufTy).Contents (Elt F) → (⟨S128x21, .f32⟩ : BufTy).Contents (Elt F) → (⟨S128x21, .f32⟩ : BufTy).Contents (Elt F)),
    unary main_v128 main_v129 (Host.exp : (⟨S128x21, .f32⟩ : BufTy).Contents (Elt F) → (⟨S128x21, .f32⟩ : BufTy).Contents (Elt F)),
    nullary main_cst_23 (constant S_ .f32 0x00000000#32),
    binary main_v129 main_cst_23 main_v130 ((fun x v => Host.reduceAdd x v reducesTo_S128x21_S128_d1 h_S_) : (⟨S128x21, .f32⟩ : BufTy).Contents (Elt F) → (⟨S_, .f32⟩ : BufTy).Contents (Elt F) → (⟨S128, .f32⟩ : BufTy).Contents (Elt F)),
    unary main_v130 main_v131 (broadcastInDim S128x1 ![0] bcast_S128_S128x1_0 : (⟨S128, .f32⟩ : BufTy).Contents (Elt F) → (⟨S128x1, .f32⟩ : BufTy).Contents (Elt F)),
    unary main_v131 main_v132 (broadcastInDim S128x21 ![0, 1] bcast_S128x1_S128x21_0_1 : (⟨S128x1, .f32⟩ : BufTy).Contents (Elt F) → (⟨S128x21, .f32⟩ : BufTy).Contents (Elt F)),
    binary main_v129 main_v132 main_v133 (Host.divf : (⟨S128x21, .f32⟩ : BufTy).Contents (Elt F) → (⟨S128x21, .f32⟩ : BufTy).Contents (Elt F) → (⟨S128x21, .f32⟩ : BufTy).Contents (Elt F)),
    unary main_arg6 main_v134 ((transpose S1024x4 [1, 0] · transposes_S4x1024_S1024x4_1_0) : (⟨S4x1024, .f32⟩ : BufTy).Contents (Elt F) → (⟨S1024x4, .f32⟩ : BufTy).Contents (Elt F)),
    binary main_v117 main_v134 main_v135 ((fun l r => Host.dotGeneral dot_S128x1024_S1024x4_S128x4_1_0_0_1_n_n none l r) : (⟨S128x1024, .f32⟩ : BufTy).Contents (Elt F) → (⟨S1024x4, .f32⟩ : BufTy).Contents (Elt F) → (⟨S128x4, .f32⟩ : BufTy).Contents (Elt F)),
    unary main_arg7 main_v136 (broadcastInDim S1x4 ![1] bcast_S4_S1x4_1 : (⟨S4, .f32⟩ : BufTy).Contents (Elt F) → (⟨S1x4, .f32⟩ : BufTy).Contents (Elt F)),
    unary main_v136 main_v137 (broadcastInDim S128x4 ![0, 1] bcast_S1x4_S128x4_0_1 : (⟨S1x4, .f32⟩ : BufTy).Contents (Elt F) → (⟨S128x4, .f32⟩ : BufTy).Contents (Elt F)),
    binary main_v135 main_v137 main_v138 (addf : (⟨S128x4, .f32⟩ : BufTy).Contents (Elt F) → (⟨S128x4, .f32⟩ : BufTy).Contents (Elt F) → (⟨S128x4, .f32⟩ : BufTy).Contents (Elt F)) ]

/-- Each of them touches buffers of the one processor only. -/
theorem tailOps_sub : (tailOps : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., binary_bufs_sub .., unary_bufs_sub .., unary_bufs_sub .., binary_bufs_sub ..⟩

end Cert.ReferenceIdeal.Tail

end
-- ==== Proof.RefPrefixOps.lean ====
/-
  The reference's run up to the pooled features: every operation of its main function before the hidden layer,
  in order, with each call of a local function (the floor divisions, the clamps, the masked selection) replaced by
  the operations of that function's body over the call's own buffers.
-/
import proofs.«164577_j44624710206046_1_alg».proof.Proof.RefTailOps

noncomputable section

namespace Cert.ReferenceIdeal.HostRun

open Cert.ReferenceIdeal Cert.ReferenceIdeal.Gen Idealize.ShloMosaic Idealize.ShloMosaic.TcCoe Idealize.ShloMosaic.StableHlo

variable {F : FTy → Type} [FloatOps F]

-- the contents of a tensor of shape `S` and element type `t`
set_option hygiene false in
local notation "Cn[" S ", " t "]" => (⟨S, t⟩ : BufTy).Contents (Elt F)
-- a typed reference to a tensor of shape `S` and element type `t`
local notation "Tr[" S ", " t "]" => StableHlo.TRef sig ⟨S, t⟩

/-- Statements 1 … 60: the four corner columns of the boxes, their widths and heights, and the first three of the
    four tables of bin boundaries (each a floor division by 7 of a product of the bin index and an extent). -/
abbrev part0Ops : List (HloOp τ sig (Elt F)) :=
  [ nullary main_c (constantI S_ 32 16#32),
    -- floor division of the boxes by 16
    TRef.unary (.of main_c : Tr[S_, .i32]) (.of main_call0_v0 : Tr[S_, .i32]) id,
    TRef.unary (.of main_call0_v0 : Tr[S_, .i32]) (.of main_call0_v1 : Tr[S128x4, .i32]) (broadcastInDim S128x4 ![] bcast_S_S128x4),
    TRef.binary (.of main_arg1 : Tr[S128x4, .i32]) (.of main_call0_v1 : Tr[S128x4, .i32]) (.of main_call0_v2 : Tr[S128x4, .i32]) Host.divsi,
    TRef.unary (.of main_arg1 : Tr[S128x4, .i32]) (.of main_call0_v3 : Tr[S128x4, .i32]) signi,
    TRef.unary (.of main_call0_v0 : Tr[S_, .i32]) (.of main_call0_v4 : Tr[S_, .i32]) signi,
    TRef.unary (.of main_call0_v4 : Tr[S_, .i32]) (.of main_call0_v5 : Tr[S128x4, .i32]) (broadcastInDim S128x4 ![] bcast_S_S128x4),
    TRef.binary (.of main_call0_v3 : Tr[S128x4, .i32]) (.of main_call0_v5 : Tr[S128x4, .i32]) (.of main_call0_v6 : Tr[S128x4, .i1]) (cmpi .ne),
    TRef.unary (.of main_call0_v0 : Tr[S_, .i32]) (.of main_call0_v7 : Tr[S128x4, .i32]) (broadcastInDim S128x4 ![] bcast_S_S128x4),
    TRef.binary (.of main_arg1 : Tr[S128x4, .i32]) (.of main_call0_v7 : Tr[S128x4, .i32]) (.of main_call0_v8 : Tr[S128x4, .i32]) Host.remsi,
    TRef.nullary (.of main_call0_c : Tr[S_, .i32]) (constantI S_ 32 0#32),
    TRef.unary (.of main_call0_c : Tr[S_, .i32]) (.of main_call0_v9 : Tr[S128x4, .i32]) (broadcastInDim S128x4 ![] bcast_S_S128x4),
    TRef.binary (.of main_call0_v8 : Tr[S128x4, .i32]) (.of main_call0_v9 : Tr[S128x4, .i32]) (.of main_call0_v10 : Tr[S128x4, .i1]) (cmpi .ne),
    TRef.binary (.of main_call0_v6 : Tr[S128x4, .i1]) (.of main_call0_v10 : Tr[S128x4, .i1]) (.of main_call0_v11 : Tr[S128x4, .i1]) andi,
    TRef.nullary (.of main_call0_c_0 : Tr[S_, .i32]) (constantI S_ 32 1#32),
    TRef.unary (.of main_call0_c_0 : Tr[S_, .i32]) (.of main_call0_v12 : Tr[S128x4, .i32]) (broadcastInDim S128x4 ![] bcast_S_S128x4),
    TRef.binary (.of main_call0_v2 : Tr[S128x4, .i32]) (.of main_call0_v12 : Tr[S128x4, .i32]) (.of main_call0_v13 : Tr[S128x4, .i32]) subi,
    TRef.ternary (.of main_call0_v11 : Tr[S128x4, .i1]) (.of main_call0_v13 : Tr[S128x4, .i32]) (.of main_call0_v2 : Tr[S128x4, .i32]) (.of main_v0 : Tr[S128x4, .i32]) select,
    -- the four columns
    unary main_v0 main_v1 ((extractStridedSlice S128x1 ![0, 0] · slices_S128x4_S128x1_0_0) : Cn[S128x4, .i32] → Cn[S128x1, .i32]),
    StableHlo.reshape main_v1 main_v2 rfl shapeCasts_S128x1_S128,
    unary main_v0 main_v3 ((extractStridedSlice S128x1 ![0, 1] · slices_S128x4_S128x1_0_1) : Cn[S128x4, .i32] → Cn[S128x1, .i32]),
    StableHlo.reshape main_v3 main_v4 rfl shapeCasts_S128x1_S128,
    unary main_v0 main_v5 ((extractStridedSlice S128x1 ![0, 2] · slices_S128x4_S128x1_0_2) : Cn[S128x4, .i32] → Cn[S128x1, .i32]),
    StableHlo.reshape main_v5 main_v6 rfl shapeCasts_S128x1_S128,
    unary main_v0 main_v7 ((extractStridedSlice S128x1 ![0, 3] · slices_S128x4_S128x1_0_3) : Cn[S128x4, .i32] → Cn[S128x1, .i32]),
    StableHlo.reshape main_v7 main_v8 rfl shapeCasts_S128x1_S128,
    -- width and height
    binary main_v6 main_v2 main_v9 (subi : Cn[S128, .i32] → Cn[S128, .i32] → Cn[S128, .i32]),
    nullary main_c_0 (constantI S_ 32 1#32),
    unary main_c_0 main_v10 (broadcastInDim S128 ![] bcast_S_S128 : Cn[S_, .i32] → Cn[S128, .i32]),
    binary main_v9 main_v10 main_v11 (addi : Cn[S128, .i32] → Cn[S128, .i32] → Cn[S128, .i32]),
    binary main_v8 main_v4 main_v12 (subi : Cn[S128, .i32] → Cn[S128, .i32] → Cn[S128, .i32]),
    nullary main_c_1 (constantI S_ 32 1#32),
    unary main_c_1 main_v13 (broadcastInDim S128 ![] bcast_S_S128 : Cn[S_, .i32] → Cn[S128, .i32]),
    binary main_v12 main_v13 main_v14 (addi : Cn[S128, .i32] → Cn[S128, .i32] → Cn[S128, .i32]),
    -- first table: left edge plus the floor of (bin index times width) over 7
    nullary main_v15 (iotaInDim S7 32 0),
    unary main_v15 main_v16 (broadcastInDim S1x7 ![1] bcast_S7_S1x7_1 : Cn[S7, .i32] → Cn[S1x7, .i32]),
    unary main_v11 main_v17 (broadcastInDim S128x1 ![0] bcast_S128_S128x1_0 : Cn[S128, .i32] → Cn[S128x1, .i32]),
    unary main_v16 main_v18 (broadcastInDim S128x7 ![0, 1] bcast_S1x7_S128x7_0_1 : Cn[S1x7, .i32] → Cn[S128x7, .i32]),
    unary main_v17 main_v19 (broadcastInDim S128x7 ![0, 1] bcast_S128x1_S128x7_0_1 : Cn[S128x1, .i32] → Cn[S128x7, .i32]),
    binary main_v18 main_v19 main_v20 (muli : Cn[S128x7, .i32] → Cn[S128x7, .i32] → Cn[S128x7, .i32]),
    nullary main_c_2 (constantI S_ 32 7#32),
    TRef.unary (.of main_c_2 : Tr[S_, .i32]) (.of main_call1_v0 : Tr[S_, .i32]) id,
    TRef.unary (.of main_call1_v0 : Tr[S_, .i32]) (.of main_call1_v1 : Tr[S128x7, .i32]) (broadcastInDim S128x7 ![] bcast_S_S128x7),
    TRef.binary (.of main_v20 : Tr[S128x7, .i32]) (.of main_call1_v1 : Tr[S128x7, .i32]) (.of main_call1_v2 : Tr[S128x7, .i32]) Host.divsi,
    TRef.unary (.of main_v20 : Tr[S128x7, .i32]) (.of main_call1_v3 : Tr[S128x7, .i32]) signi,
    TRef.unary (.of main_call1_v0 : Tr[S_, .i32]) (.of main_call1_v4 : Tr[S_, .i32]) signi,
    TRef.unary (.of main_call1_v4 : Tr[S_, .i32]) (.of main_call1_v5 : Tr[S128x7, .i32]) (broadcastInDim S128x7 ![] bcast_S_S128x7),
    TRef.binary (.of main_call1_v3 : Tr[S128x7, .i32]) (.of main_call1_v5 : Tr[S128x7, .i32]) (.of main_call1_v6 : Tr[S128x7, .i1]) (cmpi .ne),
    TRef.unary (.of main_call1_v0 : Tr[S_, .i32]) (.of main_call1_v7 : Tr[S128x7, .i32]) (broadcastInDim S128x7 ![] bcast_S_S128x7),
    TRef.binary (.of main_v20 : Tr[S128x7, .i32]) (.of main_call1_v7 : Tr[S128x7, .i32]) (.of main_call1_v8 : Tr[S128x7, .i32]) Host.remsi,
    TRef.nullary (.of main_call1_c : Tr[S_, .i32]) (constantI S_ 32 0#32),
    TRef.unary (.of main_call1_c : Tr[S_, .i32]) (.of main_call1_v9 : Tr[S128x7, .i32]) (broadcastInDim S128x7 ![] bcast_S_S128x7),
    TRef.binary (.of main_call1_v8 : Tr[S128x7, .i32]) (.of main_call1_v9 : Tr[S128x7, .i32]) (.of main_call1_v10 : Tr[S128x7, .i1]) (cmpi .ne),
    TRef.binary (.of main_call1_v6 : Tr[S128x7, .i1]) (.of main_call1_v10 : Tr[S128x7, .i1]) (.of main_call1_v11 : Tr[S128x7, .i1]) andi,
    TRef.nullary (.of main_call1_c_0 : Tr[S_, .i32]) (constantI S_ 32 1#32),
    TRef.unary (.of main_call1_c_0 : Tr[S_, .i32]) (.of main_call1_v12 : Tr[S128x7, .i32]) (broadcastInDim S128x7 ![] bcast_S_S128x7),
    TRef.binary (.of main_call1_v2 : Tr[S128x7, .i32]) (.of main_call1_v12 : Tr[S128x7, .i32]) (.of main_call1_v13 : Tr[S128x7, .i32]) subi,
    TRef.ternary (.of main_call1_v11 : Tr[S128x7, .i1]) (.of main_call1_v13 : Tr[S128x7, .i32]) (.of main_call1_v2 : Tr[S128x7, .i32]) (.of main_v21 : Tr[S128x7, .i32]) select,
    unary main_v2 main_v22 (broadcastInDim S128x1 ![0] bcast_S128_S128x1_0 : Cn[S128, .i32] → Cn[S128x1, .i32]),
    unary main_v22 main_v23 (broadcastInDim S128x7 ![0, 1] bcast_S128x1_S128x7_0_1 : Cn[S128x1, .i32] → Cn[S128x7, .i32]),
    binary main_v23 main_v21 main_v24 (addi : Cn[S128x7, .i32] → Cn[S128x7, .i32] → Cn[S128x7, .i32]),
    -- second table: left edge plus the ceiling of ((bin index + 1) times width) over 7
    nullary main_c_3 (constantI S_ 32 1#32),
    unary main_c_3 main_v25 (broadcastInDim S7 ![] bcast_S_S7 : Cn[S_, .i32] → Cn[S7, .i32]),
    binary main_v15 main_v25 main_v26 (addi : Cn[S7, .i32] → Cn[S7, .i32] → Cn[S7, .i32]),
    unary main_v26 main_v27 (broadcastInDim S1x7 ![1] bcast_S7_S1x7_1 : Cn[S7, .i32] → Cn[S1x7, .i32]),
    unary main_v11 main_v28 (broadcastInDim S128x1 ![0] bcast_S128_S128x1_0 : Cn[S128, .i32] → Cn[S128x1, .i32]),
    unary main_v27 main_v29 (broadcastInDim S128x7 ![0, 1] bcast_S1x7_S128x7_0_1 : Cn[S1x7, .i32] → Cn[S128x7, .i32]),
    unary main_v28 main_v30 (broadcastInDim S128x7 ![0, 1] bcast_S128x1_S128x7_0_1 : Cn[S128x1, .i32] → Cn[S128x7, .i32]),
    binary main_v29 main_v30 main_v31 (muli : Cn[S128x7, .i32] → Cn[S128x7, .i32] → Cn[S128x7, .i32]),
    nullary main_c_4 (constantI S_ 32 7#32),
    unary main_c_4 main_v32 (broadcastInDim S128x7 ![] bcast_S_S128x7 : Cn[S_, .i32] → Cn[S128x7, .i32]),
    binary main_v31 main_v32 main_v33 (addi : Cn[S128x7, .i32] → Cn[S128x7, .i32] → Cn[S128x7, .i32]),
    nullary main_c_5 (constantI S_ 32 1#32),
    unary main_c_5 main_v34 (broadcastInDim S128x7 ![] bcast_S_S128x7 : Cn[S_, .i32] → Cn[S128x7, .i32]),
    binary main_v33 main_v34 main_v35 (subi : Cn[S128x7, .i32] → Cn[S128x7, .i32] → Cn[S128x7, .i32]),
    nullary main_c_6 (constantI S_ 32 7#32),
    TRef.unary (.of main_c_6 : Tr[S_, .i32]) (.of main_call2_v0 : Tr[S_, .i32]) id,
    TRef.unary (.of main_call2_v0 : Tr[S_, .i32]) (.of main_call2_v1 : Tr[S128x7, .i32]) (broadcastInDim S128x7 ![] bcast_S_S128x7),
    TRef.binary (.of main_v35 : Tr[S128x7, .i32]) (.of main_call2_v1 : Tr[S128x7, .i32]) (.of main_call2_v2 : Tr[S128x7, .i32]) Host.divsi,
    TRef.unary (.of main_v35 : Tr[S128x7, .i32]) (.of main_call2_v3 : Tr[S128x7, .i32]) signi,
    TRef.unary (.of main_call2_v0 : Tr[S_, .i32]) (.of main_call2_v4 : Tr[S_, .i32]) signi,
    TRef.unary (.of main_call2_v4 : Tr[S_, .i32]) (.of main_call2_v5 : Tr[S128x7, .i32]) (broadcastInDim S128x7 ![] bcast_S_S128x7),
    TRef.binary (.of main_call2_v3 : Tr[S128x7, .i32]) (.of main_call2_v5 : Tr[S128x7, .i32]) (.of main_call2_v6 : Tr[S128x7, .i1]) (cmpi .ne),
    TRef.unary (.of main_call2_v0 : Tr[S_, .i32]) (.of main_call2_v7 : Tr[S128x7, .i32]) (broadcastInDim S128x7 ![] bcast_S_S128x7),
    TRef.binary (.of main_v35 : Tr[S128x7, .i32]) (.of main_call2_v7 : Tr[S128x7, .i32]) (.of main_call2_v8 : Tr[S128x7, .i32]) Host.remsi,
    TRef.nullary (.of main_call2_c : Tr[S_, .i32]) (constantI S_ 32 0#32),
    TRef.unary (.of main_call2_c : Tr[S_, .i32]) (.of main_call2_v9 : Tr[S128x7, .i32]) (broadcastInDim S128x7 ![] bcast_S_S128x7),
    TRef.binary (.of main_call2_v8 : Tr[S128x7, .i32]) (.of main_call2_v9 : Tr[S128x7, .i32]) (.of main_call2_v10 : Tr[S128x7, .i1]) (cmpi .ne),
    TRef.binary (.of main_call2_v6 : Tr[S128x7, .i1]) (.of main_call2_v10 : Tr[S128x7, .i1]) (.of main_call2_v11 : Tr[S128x7, .i1]) andi,
    TRef.nullary (.of main_call2_c_0 : Tr[S_, .i32]) (constantI S_ 32 1#32),
    TRef.unary (.of main_call2_c_0 : Tr[S_, .i32]) (.of main_call2_v12 : Tr[S128x7, .i32]) (broadcastInDim S128x7 ![] bcast_S_S128x7),
    TRef.binary (.of main_call2_v2 : Tr[S128x7, .i32]) (.of main_call2_v12 : Tr[S128x7, .i32]) (.of main_call2_v13 : Tr[S128x7, .i32]) subi,
    TRef.ternary (.of main_call2_v11 : Tr[S128x7, .i1]) (.of main_call2_v13 : Tr[S128x7, .i32]) (.of main_call2_v2 : Tr[S128x7, .i32]) (.of main_v36 : Tr[S128x7, .i32]) select,
    unary main_v2 main_v37 (broadcastInDim S128x1 ![0] bcast_S128_S128x1_0 : Cn[S128, .i32] → Cn[S128x1, .i32]),
    unary main_v37 main_v38 (broadcastInDim S128x7 ![0, 1] bcast_S128x1_S128x7_0_1 : Cn[S128x1, .i32] → Cn[S128x7, .i32]),
    binary main_v38 main_v36 main_v39 (addi : Cn[S128x7, .i32] → Cn[S128x7, .i32] → Cn[S128x7, .i32]),
    -- third table: top edge plus the floor of (bin index times height) over 7
    unary main_v15 main_v40 (broadcastInDim S1x7 ![1] bcast_S7_S1x7_1 : Cn[S7, .i32] → Cn[S1x7, .i32]),
    unary main_v14 main_v41 (broadcastInDim S128x1 ![0] bcast_S128_S128x1_0 : Cn[S128, .i32] → Cn[S128x1, .i32]),
    unary main_v40 main_v42 (broadcastInDim S128x7 ![0, 1] bcast_S1x7_S128x7_0_1 : Cn[S1x7, .i32] → Cn[S128x7, .i32]),
    unary main_v41 main_v43 (broadcastInDim S128x7 ![0, 1] bcast_S128x1_S128x7_0_1 : Cn[S128x1, .i32] → Cn[S128x7, .i32]),
    binary main_v42 main_v43 main_v44 (muli : Cn[S128x7, .i32] → Cn[S128x7, .i32] → Cn[S128x7, .i32]),
    nullary main_c_7 (constantI S_ 32 7#32),
    TRef.unary (.of main_c_7 : Tr[S_, .i32]) (.of main_call3_v0 : Tr[S_, .i32]) id,
    TRef.unary (.of main_call3_v0 : Tr[S_, .i32]) (.of main_call3_v1 : Tr[S128x7, .i32]) (broadcastInDim S128x7 ![] bcast_S_S128x7),
    TRef.binary (.of main_v44 : Tr[S128x7, .i32]) (.of main_call3_v1 : Tr[S128x7, .i32]) (.of main_call3_v2 : Tr[S128x7, .i32]) Host.divsi,
    TRef.unary (.of main_v44 : Tr[S128x7, .i32]) (.of main_call3_v3 : Tr[S128x7, .i32]) signi,
    TRef.unary (.of main_call3_v0 : Tr[S_, .i32]) (.of main_call3_v4 : Tr[S_, .i32]) signi,
    TRef.unary (.of main_call3_v4 : Tr[S_, .i32]) (.of main_call3_v5 : Tr[S128x7, .i32]) (broadcastInDim S128x7 ![] bcast_S_S128x7),
    TRef.binary (.of main_call3_v3 : Tr[S128x7, .i32]) (.of main_call3_v5 : Tr[S128x7, .i32]) (.of main_call3_v6 : Tr[S128x7, .i1]) (cmpi .ne),
    TRef.unary (.of main_call3_v0 : Tr[S_, .i32]) (.of main_call3_v7 : Tr[S128x7, .i32]) (broadcastInDim S128x7 ![] bcast_S_S128x7),
    TRef.binary (.of main_v44 : Tr[S128x7, .i32]) (.of main_call3_v7 : Tr[S128x7, .i32]) (.of main_call3_v8 : Tr[S128x7, .i32]) Host.remsi,
    TRef.nullary (.of main_call3_c : Tr[S_, .i32]) (constantI S_ 32 0#32),
    TRef.unary (.of main_call3_c : Tr[S_, .i32]) (.of main_call3_v9 : Tr[S128x7, .i32]) (broadcastInDim S128x7 ![] bcast_S_S128x7),
    TRef.binary (.of main_call3_v8 : Tr[S128x7, .i32]) (.of main_call3_v9 : Tr[S128x7, .i32]) (.of main_call3_v10 : Tr[S128x7, .i1]) (cmpi .ne),
    TRef.binary (.of main_call3_v6 : Tr[S128x7, .i1]) (.of main_call3_v10 : Tr[S128x7, .i1]) (.of main_call3_v11 : Tr[S128x7, .i1]) andi,
    TRef.nullary (.of main_call3_c_0 : Tr[S_, .i32]) (constantI S_ 32 1#32),
    TRef.unary (.of main_call3_c_0 : Tr[S_, .i32]) (.of main_call3_v12 : Tr[S128x7, .i32]) (broadcastInDim S128x7 ![] bcast_S_S128x7),
    TRef.binary (.of main_call3_v2 : Tr[S128x7, .i32]) (.of main_call3_v12 : Tr[S128x7, .i32]) (.of main_call3_v13 : Tr[S128x7, .i32]) subi,
    TRef.ternary (.of main_call3_v11 : Tr[S128x7, .i1]) (.of main_call3_v13 : Tr[S128x7, .i32]) (.of main_call3_v2 : Tr[S128x7, .i32]) (.of main_v45 : Tr[S128x7, .i32]) select,
    unary main_v4 main_v46 (broadcastInDim S128x1 ![0] bcast_S128_S128x1_0 : Cn[S128, .i32] → Cn[S128x1, .i32]),
    unary main_v46 main_v47 (broadcastInDim S128x7 ![0, 1] bcast_S128x1_S128x7_0_1 : Cn[S128x1, .i32] → Cn[S128x7, .i32]),
    binary main_v47 main_v45 main_v48 (addi : Cn[S128x7, .i32] → Cn[S128x7, .i32] → Cn[S128x7, .i32]),
    nullary main_c_8 (constantI S_ 32 1#32),
    unary main_c_8 main_v49 (broadcastInDim S7 ![] bcast_S_S7 : Cn[S_, .i32] → Cn[S7, .i32]) ]

/-- Each of them touches buffers of the one processor only. -/
theorem part0Ops_sub : (part0Ops : List (HloOp τ sig (Elt F))).Forall fun op => op.bufs ⊆ tcRefs τ sig :=
  ⟨nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., reshape_bufs_sub .., unary_bufs_sub .., reshape_bufs_sub .., unary_bufs_sub .., reshape_bufs_sub .., unary_bufs_sub .., reshape_bufs_sub ..,
    binary_bufs_sub .., nullary_bufs_sub .., unary_bufs_sub .., binary_bufs_sub .., binary_bufs_sub .., nullary_bufs_sub .., unary_bufs_sub .., binary_bufs_sub ..,
    nullary_bufs_sub .., unary_bufs_sub .., unary_bufs_sub .., unary_bufs_sub .., unary_bufs_sub .., binary_bufs_sub .., nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., unary_bufs_sub .., binary_bufs_sub ..,
    nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., unary_bufs_sub .., binary_bufs_sub ..,
    unary_bufs_sub .., unary_bufs_sub .., unary_bufs_sub .., unary_bufs_sub .., binary_bufs_sub .., nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., unary_bufs_sub .., binary_bufs_sub .., nullary_bufs_sub .., unary_bufs_sub ..⟩

/-- Statements 61 … 120: the fourth table of bin boundaries, the sample positions inside each bin along both axes
    (bin boundary plus an offset 0 … 4), whether each lies inside its bin, the positions clamped to the feature map,
    and the row and column indices wrapped and spread over the 7 × 5 × 7 × 5 grid of samples. -/
abbrev part1Ops : List (HloOp τ sig (Elt F)) :=
  [ binary main_v15 main_v49 main_v50 (addi : Cn[S7, .i32] → Cn[S7, .i32] → Cn[S7, .i32]),
    unary main_v50 main_v51 (broadcastInDim S1x7 ![1] bcast_S7_S1x7_1 : Cn[S7, .i32] → Cn[S1x7, .i32]),
    unary main_v14 main_v52 (broadcastInDim S128x1 ![0] bcast_S128_S128x1_0 : Cn[S128, .i32] → Cn[S128x1, .i32]),
    unary main_v51 main_v53 (broadcastInDim S128x7 ![0, 1] bcast_S1x7_S128x7_0_1 : Cn[S1x7, .i32] → Cn[S128x7, .i32]),
    unary main_v52 main_v54 (broadcastInDim S128x7 ![0, 1] bcast_S128x1_S128x7_0_1 : Cn[S128x1, .i32] → Cn[S128x7, .i32]),
    binary main_v53 main_v54 main_v55 (muli : Cn[S128x7, .i32] → Cn[S128x7, .i32] → Cn[S128x7, .i32]),
    nullary main_c_9 (constantI S_ 32 7#32),
    unary main_c_9 main_v56 (broadcastInDim S128x7 ![] bcast_S_S128x7 : Cn[S_, .i32] → Cn[S128x7, .i32]),
    binary main_v55 main_v56 main_v57 (addi : Cn[S128x7, .i32] → Cn[S128x7, .i32] → Cn[S128x7, .i32]),
    nullary main_c_10 (constantI S_ 32 1#32),
    unary main_c_10 main_v58 (broadcastInDim S128x7 ![] bcast_S_S128x7 : Cn[S_, .i32] → Cn[S128x7, .i32]),
    binary main_v57 main_v58 main_v59 (subi : Cn[S128x7, .i32] → Cn[S128x7, .i32] → Cn[S128x7, .i32]),
    nullary main_c_11 (constantI S_ 32 7#32),
    TRef.unary (.of main_c_11 : Tr[S_, .i32]) (.of main_call4_v0 : Tr[S_, .i32]) id,
    TRef.unary (.of main_call4_v0 : Tr[S_, .i32]) (.of main_call4_v1 : Tr[S128x7, .i32]) (broadcastInDim S128x7 ![] bcast_S_S128x7),
    TRef.binary (.of main_v59 : Tr[S128x7, .i32]) (.of main_call4_v1 : Tr[S128x7, .i32]) (.of main_call4_v2 : Tr[S128x7, .i32]) Host.divsi,
    TRef.unary (.of main_v59 : Tr[S128x7, .i32]) (.of main_call4_v3 : Tr[S128x7, .i32]) signi,
    TRef.unary (.of main_call4_v0 : Tr[S_, .i32]) (.of main_call4_v4 : Tr[S_, .i32]) signi,
    TRef.unary (.of main_call4_v4 : Tr[S_, .i32]) (.of main_call4_v5 : Tr[S128x7, .i32]) (broadcastInDim S128x7 ![] bcast_S_S128x7),
    TRef.binary (.of main_call4_v3 : Tr[S128x7, .i32]) (.of main_call4_v5 : Tr[S128x7, .i32]) (.of main_call4_v6 : Tr[S128x7, .i1]) (cmpi .ne),
    TRef.unary (.of main_call4_v0 : Tr[S_, .i32]) (.of main_call4_v7 : Tr[S128x7, .i32]) (broadcastInDim S128x7 ![] bcast_S_S128x7),
    TRef.binary (.of main_v59 : Tr[S128x7, .i32]) (.of main_call4_v7 : Tr[S128x7, .i32]) (.of main_call4_v8 : Tr[S128x7, .i32]) Host.remsi,
    TRef.nullary (.of main_call4_c : Tr[S_, .i32]) (constantI S_ 32 0#32),
    TRef.unary (.of main_call4_c : Tr[S_, .i32]) (.of main_call4_v9 : Tr[S128x7, .i32]) (broadcastInDim S128x7 ![] bcast_S_S128x7),
    TRef.binary (.of main_call4_v8 : Tr[S128x7, .i32]) (.of main_call4_v9 : Tr[S128x7, .i32]) (.of main_call4_v10 : Tr[S128x7, .i1]) (cmpi .ne),
    TRef.binary (.of main_call4_v6 : Tr[S128x7, .i1]) (.of main_call4_v10 : Tr[S128x7, .i1]) (.of main_call4_v11 : Tr[S128x7, .i1]) andi,
    TRef.nullary (.of main_call4_c_0 : Tr[S_, .i32]) (constantI S_ 32 1#32),
    TRef.unary (.of main_call4_c_0 : Tr[S_, .i32]) (.of main_call4_v12 : Tr[S128x7, .i32]) (broadcastInDim S128x7 ![] bcast_S_S128x7),
    TRef.binary (.of main_call4_v2 : Tr[S128x7, .i32]) (.of main_call4_v12 : Tr[S128x7, .i32]) (.of main_call4_v13 : Tr[S128x7, .i32]) subi,
    TRef.ternary (.of main_call4_v11 : Tr[S128x7, .i1]) (.of main_call4_v13 : Tr[S128x7, .i32]) (.of main_call4_v2 : Tr[S128x7, .i32]) (.of main_v60 : Tr[S128x7, .i32]) select,
    unary main_v4 main_v61 (broadcastInDim S128x1 ![0] bcast_S128_S128x1_0 : Cn[S128, .i32] → Cn[S128x1, .i32]),
    unary main_v61 main_v62 (broadcastInDim S128x7 ![0, 1] bcast_S128x1_S128x7_0_1 : Cn[S128x1, .i32] → Cn[S128x7, .i32]),
    binary main_v62 main_v60 main_v63 (addi : Cn[S128x7, .i32] → Cn[S128x7, .i32] → Cn[S128x7, .i32]),
    -- sample columns: first table plus 0 … 4
    unary main_v24 main_v64 (broadcastInDim S128x7x1 ![0, 1] bcast_S128x7_S128x7x1_0_1 : Cn[S128x7, .i32] → Cn[S128x7x1, .i32]),
    nullary main_v65 (iotaInDim S5 32 0),
    unary main_v65 main_v66 (broadcastInDim S1x5 ![1] bcast_S5_S1x5_1 : Cn[S5, .i32] → Cn[S1x5, .i32]),
    unary main_v66 main_v67 (broadcastInDim S1x1x5 ![1, 2] bcast_S1x5_S1x1x5_1_2 : Cn[S1x5, .i32] → Cn[S1x1x5, .i32]),
    unary main_v64 main_v68 (broadcastInDim S128x7x5 ![0, 1, 2] bcast_S128x7x1_S128x7x5_0_1_2 : Cn[S128x7x1, .i32] → Cn[S128x7x5, .i32]),
    unary main_v67 main_v69 (broadcastInDim S128x7x5 ![0, 1, 2] bcast_S1x1x5_S128x7x5_0_1_2 : Cn[S1x1x5, .i32] → Cn[S128x7x5, .i32]),
    binary main_v68 main_v69 main_v70 (addi : Cn[S128x7x5, .i32] → Cn[S128x7x5, .i32] → Cn[S128x7x5, .i32]),
    -- sample rows: third table plus 0 … 4
    unary main_v48 main_v71 (broadcastInDim S128x7x1 ![0, 1] bcast_S128x7_S128x7x1_0_1 : Cn[S128x7, .i32] → Cn[S128x7x1, .i32]),
    nullary main_v72 (iotaInDim S5 32 0),
    unary main_v72 main_v73 (broadcastInDim S1x5 ![1] bcast_S5_S1x5_1 : Cn[S5, .i32] → Cn[S1x5, .i32]),
    unary main_v73 main_v74 (broadcastInDim S1x1x5 ![1, 2] bcast_S1x5_S1x1x5_1_2 : Cn[S1x5, .i32] → Cn[S1x1x5, .i32]),
    unary main_v71 main_v75 (broadcastInDim S128x7x5 ![0, 1, 2] bcast_S128x7x1_S128x7x5_0_1_2 : Cn[S128x7x1, .i32] → Cn[S128x7x5, .i32]),
    unary main_v74 main_v76 (broadcastInDim S128x7x5 ![0, 1, 2] bcast_S1x1x5_S128x7x5_0_1_2 : Cn[S1x1x5, .i32] → Cn[S128x7x5, .i32]),
    binary main_v75 main_v76 main_v77 (addi : Cn[S128x7x5, .i32] → Cn[S128x7x5, .i32] → Cn[S128x7x5, .i32]),
    -- inside the bin: below the second and the fourth table
    unary main_v39 main_v78 (broadcastInDim S128x7x1 ![0, 1] bcast_S128x7_S128x7x1_0_1 : Cn[S128x7, .i32] → Cn[S128x7x1, .i32]),
    unary main_v78 main_v79 (broadcastInDim S128x7x5 ![0, 1, 2] bcast_S128x7x1_S128x7x5_0_1_2 : Cn[S128x7x1, .i32] → Cn[S128x7x5, .i32]),
    binary main_v70 main_v79 main_v80 (cmpi .slt : Cn[S128x7x5, .i32] → Cn[S128x7x5, .i32] → Cn[S128x7x5, .i1]),
    unary main_v63 main_v81 (broadcastInDim S128x7x1 ![0, 1] bcast_S128x7_S128x7x1_0_1 : Cn[S128x7, .i32] → Cn[S128x7x1, .i32]),
    unary main_v81 main_v82 (broadcastInDim S128x7x5 ![0, 1, 2] bcast_S128x7x1_S128x7x5_0_1_2 : Cn[S128x7x1, .i32] → Cn[S128x7x5, .i32]),
    binary main_v77 main_v82 main_v83 (cmpi .slt : Cn[S128x7x5, .i32] → Cn[S128x7x5, .i32] → Cn[S128x7x5, .i1]),
    -- the positions clamped to 0 … 99 and 0 … 49
    nullary main_c_12 (constantI S_ 32 0#32),
    nullary main_c_13 (constantI S_ 32 99#32),
    TRef.unary (.of main_c_12 : Tr[S_, .i32]) (.of main_call5_v0 : Tr[S_, .i32]) id,
    TRef.unary (.of main_call5_v0 : Tr[S_, .i32]) (.of main_call5_v1 : Tr[S128x7x5, .i32]) (broadcastInDim S128x7x5 ![] bcast_S_S128x7x5),
    TRef.binary (.of main_call5_v1 : Tr[S128x7x5, .i32]) (.of main_v70 : Tr[S128x7x5, .i32]) (.of main_call5_v2 : Tr[S128x7x5, .i32]) maxsi,
    TRef.unary (.of main_c_13 : Tr[S_, .i32]) (.of main_call5_v3 : Tr[S_, .i32]) id,
    TRef.unary (.of main_call5_v3 : Tr[S_, .i32]) (.of main_call5_v4 : Tr[S128x7x5, .i32]) (broadcastInDim S128x7x5 ![] bcast_S_S128x7x5),
    TRef.binary (.of main_call5_v4 : Tr[S128x7x5, .i32]) (.of main_call5_v2 : Tr[S128x7x5, .i32]) (.of main_v84 : Tr[S128x7x5, .i32]) minsi,
    nullary main_c_14 (constantI S_ 32 0#32),
    nullary main_c_15 (constantI S_ 32 49#32),
    TRef.unary (.of main_c_14 : Tr[S_, .i32]) (.of main_call6_v0 : Tr[S_, .i32]) id,
    TRef.unary (.of main_call6_v0 : Tr[S_, .i32]) (.of main_call6_v1 : Tr[S128x7x5, .i32]) (broadcastInDim S128x7x5 ![] bcast_S_S128x7x5),
    TRef.binary (.of main_call6_v1 : Tr[S128x7x5, .i32]) (.of main_v77 : Tr[S128x7x5, .i32]) (.of main_call6_v2 : Tr[S128x7x5, .i32]) maxsi,
    TRef.unary (.of main_c_15 : Tr[S_, .i32]) (.of main_call6_v3 : Tr[S_, .i32]) id,
    TRef.unary (.of main_call6_v3 : Tr[S_, .i32]) (.of main_call6_v4 : Tr[S128x7x5, .i32]) (broadcastInDim S128x7x5 ![] bcast_S_S128x7x5),
    TRef.binary (.of main_call6_v4 : Tr[S128x7x5, .i32]) (.of main_call6_v2 : Tr[S128x7x5, .i32]) (.of main_v85 : Tr[S128x7x5, .i32]) minsi,
    -- the two index grids, negative indices wrapped
    unary main_v84 main_v86 (broadcastInDim S128x7x5x1x1 ![0, 1, 2] bcast_S128x7x5_S128x7x5x1x1_0_1_2 : Cn[S128x7x5, .i32] → Cn[S128x7x5x1x1, .i32]),
    unary main_v85 main_v87 (broadcastInDim S128x1x1x7x5 ![0, 3, 4] bcast_S128x7x5_S128x1x1x7x5_0_3_4 : Cn[S128x7x5, .i32] → Cn[S128x1x1x7x5, .i32]),
    nullary main_c_16 (constantI S_ 32 0#32),
    unary main_c_16 main_v88 (broadcastInDim S128x7x5x1x1 ![] bcast_S_S128x7x5x1x1 : Cn[S_, .i32] → Cn[S128x7x5x1x1, .i32]),
    binary main_v86 main_v88 main_v89 (cmpi .slt : Cn[S128x7x5x1x1, .i32] → Cn[S128x7x5x1x1, .i32] → Cn[S128x7x5x1x1, .i1]),
    nullary main_c_17 (constantI S_ 32 100#32),
    unary main_c_17 main_v90 (broadcastInDim S128x7x5x1x1 ![] bcast_S_S128x7x5x1x1 : Cn[S_, .i32] → Cn[S128x7x5x1x1, .i32]),
    binary main_v86 main_v90 main_v91 (addi : Cn[S128x7x5x1x1, .i32] → Cn[S128x7x5x1x1, .i32] → Cn[S128x7x5x1x1, .i32]),
    ternary main_v89 main_v91 main_v86 main_v92 (select : Cn[S128x7x5x1x1, .i1] → Cn[S128x7x5x1x1, .i32] → Cn[S128x7x5x1x1, .i32] → Cn[S128x7x5x1x1, .i32]),
    nullary main_c_18 (constantI S_ 32 0#32),
    unary main_c_18 main_v93 (broadcastInDim S128x1x1x7x5 ![] bcast_S_S128x1x1x7x5 : Cn[S_, .i32] → Cn[S128x1x1x7x5, .i32]),
    binary main_v87 main_v93 main_v94 (cmpi .slt : Cn[S128x1x1x7x5, .i32] → Cn[S128x1x1x7x5, .i32] → Cn[S128x1x1x7x5, .i1]),
    nullary main_c_19 (constantI S_ 32 50#32),
    unary main_c_19 main_v95 (broadcastInDim S128x1x1x7x5 ![] bcast_S_S128x1x1x7x5 : Cn[S_, .i32] → Cn[S128x1x1x7x5, .i32]),
    binary main_v87 main_v95 main_v96 (addi : Cn[S128x1x1x7x5, .i32] → Cn[S128x1x1x7x5, .i32] → Cn[S128x1x1x7x5, .i32]),
    ternary main_v94 main_v96 main_v87 main_v97 (select : Cn[S128x1x1x7x5, .i1] → Cn[S128x1x1x7x5, .i32] → Cn[S128x1x1x7x5, .i32] → Cn[S128x1x1x7x5, .i32]),
    unary main_v92 main_v98 (broadcastInDim S128x7x5x7x5 ![0, 1, 2, 3, 4] bcast_S128x7x5x1x1_S128x7x5x7x5_0_1_2_3_4 : Cn[S128x7x5x1x1, .i32] → Cn[S128x7x5x7x5, .i32]) ]

/-- Each of them touches buffers of the one processor only. -/
theorem part1Ops_sub : (part1Ops : List (HloOp τ sig (Elt F))).Forall fun op => op.bufs ⊆ tcRefs τ sig :=
  ⟨binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..,
    unary_bufs_sub .., unary_bufs_sub .., binary_bufs_sub ..,
    unary_bufs_sub .., nullary_bufs_sub .., unary_bufs_sub .., unary_bufs_sub .., unary_bufs_sub .., unary_bufs_sub .., binary_bufs_sub ..,
    unary_bufs_sub .., nullary_bufs_sub .., unary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., nullary_bufs_sub ..,
    unary_bufs_sub .., unary_bufs_sub .., binary_bufs_sub .., unary_bufs_sub .., unary_bufs_sub .., binary_bufs_sub ..,
    nullary_bufs_sub .., nullary_bufs_sub ..,
    unary_bufs_sub .., unary_bufs_sub .., binary_bufs_sub .., unary_bufs_sub .., unary_bufs_sub .., binary_bufs_sub ..,
    unary_bufs_sub .., unary_bufs_sub ..,
    nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub ..⟩

/-- Statements 121 … 137: the two index grids joined into one table of (row, column) pairs, the features gathered at
    them, the samples outside their bin replaced by −∞, the maximum over the 5 × 5 samples of each bin, and the result
    laid out as one row of 50176 features per box. -/
abbrev part2aOps : List (HloOp τ sig (Elt F)) :=
  [ unary main_v97 main_v99 (broadcastInDim S128x7x5x7x5 ![0, 1, 2, 3, 4] bcast_S128x1x1x7x5_S128x7x5x7x5_0_1_2_3_4 : Cn[S128x1x1x7x5, .i32] → Cn[S128x7x5x7x5, .i32]),
    unary main_v98 main_v100 (broadcastInDim S128x7x5x7x5x1 ![0, 1, 2, 3, 4] bcast_S128x7x5x7x5_S128x7x5x7x5x1_0_1_2_3_4 : Cn[S128x7x5x7x5, .i32] → Cn[S128x7x5x7x5x1, .i32]),
    unary main_v99 main_v101 (broadcastInDim S128x7x5x7x5x1 ![0, 1, 2, 3, 4] bcast_S128x7x5x7x5_S128x7x5x7x5x1_0_1_2_3_4 : Cn[S128x7x5x7x5, .i32] → Cn[S128x7x5x7x5x1, .i32]),
    binary main_v100 main_v101 main_v102 ((fun a b => concatenate S128x7x5x7x5x2 5 [⟨S128x7x5x7x5x1, a⟩, ⟨S128x7x5x7x5x1, b⟩] concatenates_S128x7x5x7x5x1_S128x7x5x7x5x1_S128x7x5x7x5x2_d5) : Cn[S128x7x5x7x5x1, .i32] → Cn[S128x7x5x7x5x1, .i32] → Cn[S128x7x5x7x5x2, .i32]),
    binary main_arg0 main_v102 main_v103 ((fun x i => Host.gather gather_S1024x100x50_S128x7x5x7x5x2_S128x1024x7x5x7x5_1_12_n_n_12_5_102411 x i) : Cn[S1024x100x50, .f32] → Cn[S128x7x5x7x5x2, .i32] → Cn[S128x1024x7x5x7x5, .f32]),
    unary main_v80 main_v104 (broadcastInDim S128x7x5x1x1 ![0, 1, 2] bcast_S128x7x5_S128x7x5x1x1_0_1_2 : Cn[S128x7x5, .i1] → Cn[S128x7x5x1x1, .i1]),
    unary main_v83 main_v105 (broadcastInDim S128x1x1x7x5 ![0, 3, 4] bcast_S128x7x5_S128x1x1x7x5_0_3_4 : Cn[S128x7x5, .i1] → Cn[S128x1x1x7x5, .i1]),
    unary main_v104 main_v106 (broadcastInDim S128x7x5x7x5 ![0, 1, 2, 3, 4] bcast_S128x7x5x1x1_S128x7x5x7x5_0_1_2_3_4 : Cn[S128x7x5x1x1, .i1] → Cn[S128x7x5x7x5, .i1]),
    unary main_v105 main_v107 (broadcastInDim S128x7x5x7x5 ![0, 1, 2, 3, 4] bcast_S128x1x1x7x5_S128x7x5x7x5_0_1_2_3_4 : Cn[S128x1x1x7x5, .i1] → Cn[S128x7x5x7x5, .i1]),
    binary main_v106 main_v107 main_v108 (andi : Cn[S128x7x5x7x5, .i1] → Cn[S128x7x5x7x5, .i1] → Cn[S128x7x5x7x5, .i1]),
    unary main_v108 main_v109 (broadcastInDim S128x1x7x5x7x5 ![0, 2, 3, 4, 5] bcast_S128x7x5x7x5_S128x1x7x5x7x5_0_2_3_4_5 : Cn[S128x7x5x7x5, .i1] → Cn[S128x1x7x5x7x5, .i1]),
    nullary main_cst (constant S_ .f32 0xFF800000#32),
    TRef.unary (.of main_cst : Tr[S_, .f32]) (.of main_call7_v0 : Tr[S_, .f32]) id,
    TRef.unary (.of main_v109 : Tr[S128x1x7x5x7x5, .i1]) (.of main_call7_v1 : Tr[S128x1024x7x5x7x5, .i1]) (broadcastInDim S128x1024x7x5x7x5 ![0, 1, 2, 3, 4, 5] bcast_S128x1x7x5x7x5_S128x1024x7x5x7x5_0_1_2_3_4_5),
    TRef.unary (.of main_call7_v0 : Tr[S_, .f32]) (.of main_call7_v2 : Tr[S1024x7x5x7x5, .f32]) (broadcastInDim S1024x7x5x7x5 ![] bcast_S_S1024x7x5x7x5),
    TRef.unary (.of main_call7_v2 : Tr[S1024x7x5x7x5, .f32]) (.of main_call7_v3 : Tr[S128x1024x7x5x7x5, .f32]) (broadcastInDim S128x1024x7x5x7x5 ![1, 2, 3, 4, 5] bcast_S1024x7x5x7x5_S128x1024x7x5x7x5_1_2_3_4_5),
    TRef.ternary (.of main_call7_v1 : Tr[S128x1024x7x5x7x5, .i1]) (.of main_v103 : Tr[S128x1024x7x5x7x5, .f32]) (.of main_call7_v3 : Tr[S128x1024x7x5x7x5, .f32]) (.of main_v110 : Tr[S128x1024x7x5x7x5, .f32]) select,
    nullary main_cst_20 (constant S_ .f32 0xFF800000#32),
    binary main_v110 main_cst_20 main_v111 ((fun x v => Host.reduce FloatOps.maximumf x v reducesTo_S128x1024x7x5x7x5_S128x1024x7x7_d3_5 h_S_) : Cn[S128x1024x7x5x7x5, .f32] → Cn[S_, .f32] → Cn[S128x1024x7x7, .f32]),
    StableHlo.reshape main_v111 main_v112 rfl shapeCasts_S128x1024x7x7_S128x50176 ]

/-- Each of them touches buffers of the one processor only. -/
theorem part2aOps_sub : (part2aOps : List (HloOp τ sig (Elt F))).Forall fun op => op.bufs ⊆ tcRefs τ sig :=
  ⟨unary_bufs_sub .., unary_bufs_sub .., unary_bufs_sub .., binary_bufs_sub .., binary_bufs_sub .., unary_bufs_sub .., unary_bufs_sub .., unary_bufs_sub .., unary_bufs_sub .., binary_bufs_sub .., unary_bufs_sub .., nullary_bufs_sub ..,
    unary_bufs_sub .., unary_bufs_sub .., unary_bufs_sub .., unary_bufs_sub .., ternary_bufs_sub ..,
    nullary_bufs_sub .., binary_bufs_sub .., reshape_bufs_sub ..⟩

/-- All the operations before the hidden layer, in order. -/
abbrev prefixOps : List (HloOp τ sig (Elt F)) := part0Ops ++ part1Ops ++ part2aOps

/-- Each of them touches buffers of the one processor only. -/
theorem prefixOps_sub : (prefixOps : List (HloOp τ sig (Elt F))).Forall fun op => op.bufs ⊆ tcRefs τ sig :=
  List.forall_append.mpr ⟨List.forall_append.mpr ⟨part0Ops_sub, part1Ops_sub⟩, part2aOps_sub⟩

end Cert.ReferenceIdeal.HostRun

end
-- ==== Proof.RefRun.lean ====
/-
  The reference's run: its main function is the straight line of the operations before the hidden layer followed by
  the operations after it; run on any mesh from any memory, every buffer ends at the fold of those operations'
  results over its launch contents; and the operations before the hidden layer write none of the eight arguments.
-/
import proofs.«164577_j44624710206046_1_alg».proof.Proof.RefPrefixOps

noncomputable section

namespace Cert.ReferenceIdeal.HostRun

open Cert.ReferenceIdeal Cert.ReferenceIdeal.Gen Idealize.ShloMosaic Idealize.ShloMosaic.TcCoe Idealize.ShloMosaic.StableHlo

variable {F : FTy → Type} [FloatOps F]

set_option maxRecDepth 8192 in
set_option maxHeartbeats 4000000 in
/-- The first window of statements is the first list run in order: each call unfolds to its body's operations and
    sequencing is associative. -/
theorem main_part0_eq (c : Dev nD) : main_part0 (F := F) c = seq part0Ops := rfl

set_option maxRecDepth 8192 in
set_option maxHeartbeats 4000000 in
/-- The second window of statements is the second list run in order. -/
theorem main_part1_eq (c : Dev nD) : main_part1 (F := F) c = seq part1Ops := rfl

set_option maxRecDepth 8192 in
set_option maxHeartbeats 4000000 in
/-- The third window of statements is the third list, then the operations after the pooled features, run in order. -/
theorem main_part2_eq (c : Dev nD) : main_part2 (F := F) c = seq (part2aOps ++ Tail.tailOps) := rfl

/-- The whole main function is one straight line: the three windows in a row, two lines run one after the other
    being their concatenation run as one. -/
theorem main_eq (c : Dev nD) : main (F := F) c = seq (prefixOps ++ Tail.tailOps) := by
  have h : (prefixOps ++ Tail.tailOps : List (HloOp τ sig (Elt F)))
      = part0Ops ++ (part1Ops ++ (part2aOps ++ Tail.tailOps)) :=
    (List.append_assoc _ _ _).trans (List.append_assoc _ _ _)
  rw [h, seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the first window determines its results. -/
theorem part0Ops_fresh : (part0Ops : List (HloOp τ sig (Elt F))).Forall fun op => op.fresh = ∅ := by
  simp only [List.Forall]; repeat' constructor
/-- Every operation of the second window determines its results. -/
theorem part1Ops_fresh : (part1Ops : List (HloOp τ sig (Elt F))).Forall fun op => op.fresh = ∅ := by
  simp only [List.Forall]; repeat' constructor
/-- Every operation of the third window determines its results. -/
theorem part2aOps_fresh : (part2aOps : List (HloOp τ sig (Elt F))).Forall fun op => op.fresh = ∅ := by
  simp only [List.Forall]; repeat' constructor
/-- Every operation after the pooled features determines its results. -/
theorem tailOps_fresh : (Tail.tailOps : List (HloOp τ sig (Elt F))).Forall fun op => op.fresh = ∅ := by
  simp only [List.Forall]; repeat' constructor

/-- Every operation of the whole line determines its results. -/
theorem allOps_fresh : ∀ op ∈ (prefixOps ++ Tail.tailOps : List (HloOp τ sig (Elt F))), op.fresh = ∅ :=
  List.forall_iff_forall_mem.mp (List.forall_append.mpr
    ⟨List.forall_append.mpr ⟨List.forall_append.mpr ⟨part0Ops_fresh, part1Ops_fresh⟩, part2aOps_fresh⟩, tailOps_fresh⟩)

/-- On any mesh, from any memory: the reference terminates, and every buffer of every core ends at the fold of the
    line's results over that core's launch contents. -/
theorem run_main (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (prefixOps ++ Tail.tailOps) (launchContents m c) (b : DevRef τ sig) :=
  run_seq scopedRefs_eq scopedSems_eq defs main (fun _ => prefixOps ++ Tail.tailOps) main_eq
    (fun _ => List.forall_append.mpr ⟨prefixOps_sub, Tail.tailOps_sub⟩) m ρ (fun _ => allOps_fresh)

/-- A buffer that no operation before the hidden layer writes keeps its contents: each operation writes the one
    buffer it names, and which reference is which is decided. -/
local macro "prefix_keeps" : tactic => `(tactic| (
  refine after_of_forall_not_mem _ _ (List.forall_iff_forall_mem.mp ?_)
  simp only [prefixOps, part0Ops, part1Ops, part2aOps, List.cons_append, List.nil_append, List.Forall,
    nullary_writes, unary_writes, binary_writes, ternary_writes, reshape_writes, Finset.mem_singleton]
  repeat' apply And.intro
  all_goals exact devRef_ne_of_ne (by decide)))

/-- No operation before the hidden layer writes the feature map. -/
theorem prefix_keeps_arg0 (V : Valuation τ sig (Elt F)) :
    after prefixOps V (main_arg0 : DevRef τ sig) = V (main_arg0 : DevRef τ sig) := by prefix_keeps
/-- No operation before the hidden layer writes the boxes. -/
theorem prefix_keeps_arg1 (V : Valuation τ sig (Elt F)) :
    after prefixOps V (main_arg1 : DevRef τ sig) = V (main_arg1 : DevRef τ sig) := by prefix_keeps
/-- No operation before the hidden layer writes the hidden layer's weights. -/
theorem prefix_keeps_arg2 (V : Valuation τ sig (Elt F)) :
    after prefixOps V (main_arg2 : DevRef τ sig) = V (main_arg2 : DevRef τ sig) := by prefix_keeps
/-- No operation before the hidden layer writes the hidden layer's bias. -/
theorem prefix_keeps_arg3 (V : Valuation τ sig (Elt F)) :
    after prefixOps V (main_arg3 : DevRef τ sig) = V (main_arg3 : DevRef τ sig) := by prefix_keeps
/-- No operation before the hidden layer writes the class head's weights. -/
theorem prefix_keeps_arg4 (V : Valuation τ sig (Elt F)) :
    after prefixOps V (main_arg4 : DevRef τ sig) = V (main_arg4 : DevRef τ sig) := by prefix_keeps
/-- No operation before the hidden layer writes the class head's bias. -/
theorem prefix_keeps_arg5 (V : Valuation τ sig (Elt F)) :
    after prefixOps V (main_arg5 : DevRef τ sig) = V (main_arg5 : DevRef τ sig) := by prefix_keeps
/-- No operation before the hidden layer writes the box head's weights. -/
theorem prefix_keeps_arg6 (V : Valuation τ sig (Elt F)) :
    after prefixOps V (main_arg6 : DevRef τ sig) = V (main_arg6 : DevRef τ sig) := by prefix_keeps
/-- No operation before the hidden layer writes the box head's bias. -/
theorem prefix_keeps_arg7 (V : Valuation τ sig (Elt F)) :
    after prefixOps V (main_arg7 : DevRef τ sig) = V (main_arg7 : DevRef τ sig) := by prefix_keeps

end Cert.ReferenceIdeal.HostRun

end
-- ==== Proof.LibHostForms.lean ====
/-
  Host array operations read at an index of two coordinates, on the extended reals:

  * a vector made a row and repeated down the rows (`[k] → [1, k] → [a, k]`) reads the vector at the column;
  * a vector made a column and repeated along the rows (`[a] → [a, 1] → [a, k]`) reads the vector at the row;
  * a transposed matrix reads the matrix at the swapped coordinates;
  * the product of `x : [a, k]` with a matrix `y : [k, b]`, contracted over `k`, is `∑ j, x (n, j) · y (j, o)`;
  * a maximum taken along the second axis from an initial scalar is the fold of `max` over the row, and a sum taken
    along it from an initial scalar is that scalar plus the row's sum.
-/
import Idealize.ShloMosaic.PureOps.Ideal.Laws
import Idealize.ShloMosaic.Lib.ValueIdx
import Idealize.ShloMosaic.Lib.IdealHost
import Idealize.ShloMosaic.Lib.Pipeline.Value

noncomputable section

namespace Cert.HostForms

open Idealize.ShloMosaic Idealize.ShloMosaic.ValueIdx

/-- A vector as a row, repeated down `a` rows, read at `(n, o)`: the vector at `o`. -/
theorem row_bcast_at {α : Type} {a k : ℕ} (hk : 1 < k) (b : (⟨1, ![k]⟩ : Shape).Idx → α)
    (h : (⟨1, ![k]⟩ : Shape).BroadcastsInDim ⟨2, ![1, k]⟩ ![1])
    (h' : (⟨2, ![1, k]⟩ : Shape).BroadcastsInDim ⟨2, ![a, k]⟩ ![0, 1]) (n : Fin a) (o : Fin k) :
    broadcastInDim ⟨2, ![a, k]⟩ ![0, 1] h' (broadcastInDim ⟨2, ![1, k]⟩ ![1] h b) (ix2 n o) = b (ix1 o) := by
  rw [broadcastInDim_apply ![0, 1] h' _ (ix2 n o) (ix2 (0 : Fin 1) o) (fun ax => by
    match ax with
    | ⟨0, _⟩ => simp
    | ⟨1, _⟩ => show o.val = if k = 1 then 0 else o.val; rw [if_neg (by omega)])]
  rw [broadcastInDim_apply ![1] h _ (ix2 (0 : Fin 1) o) (ix1 o) (fun ax => by
    match ax with
    | ⟨0, _⟩ => show o.val = if k = 1 then 0 else o.val; rw [if_neg (by omega)])]

/-- A vector as a column, repeated along `k` columns, read at `(n, c)`: the vector at `n`. -/
theorem col_bcast_at {α : Type} {a k : ℕ} (ha : 1 < a) (v : (⟨1, ![a]⟩ : Shape).Idx → α)
    (h : (⟨1, ![a]⟩ : Shape).BroadcastsInDim ⟨2, ![a, 1]⟩ ![0])
    (h' : (⟨2, ![a, 1]⟩ : Shape).BroadcastsInDim ⟨2, ![a, k]⟩ ![0, 1]) (n : Fin a) (c : Fin k) :
    broadcastInDim ⟨2, ![a, k]⟩ ![0, 1] h' (broadcastInDim ⟨2, ![a, 1]⟩ ![0] h v) (ix2 n c) = v (ix1 n) := by
  rw [broadcastInDim_apply ![0, 1] h' _ (ix2 n c) (ix2 n (0 : Fin 1)) (fun ax => by
    match ax with
    | ⟨0, _⟩ => show n.val = if a = 1 then 0 else n.val; rw [if_neg (by omega)]
    | ⟨1, _⟩ => simp)]
  rw [broadcastInDim_apply ![0] h _ (ix2 n (0 : Fin 1)) (ix1 n) (fun ax => by
    match ax with
    | ⟨0, _⟩ => show n.val = if a = 1 then 0 else n.val; rw [if_neg (by omega)])]

/-- A transposed matrix at `(j, o)` is the matrix at `(o, j)`. -/
theorem transpose_at {α : Type} {a k : ℕ} (w : (⟨2, ![a, k]⟩ : Shape).Idx → α)
    (h : (⟨2, ![a, k]⟩ : Shape).Transposes [1, 0] ⟨2, ![k, a]⟩) (j : Fin k) (o : Fin a) :
    transpose ⟨2, ![k, a]⟩ [1, 0] w h (ix2 j o) = w (ix2 o j) :=
  transpose_apply [1, 0] w h (ix2 j o) (ix2 o j) (fun b => by
    match b with
    | ⟨0, _⟩ => rfl
    | ⟨1, _⟩ => rfl)

/-- The product of `x : [a, k]` and `y : [k, b]` contracted over `k`, at `(n, o)`. The hypotheses say which axes
    the dimension numbers contract and keep; at a literal record each is closed by `rfl`. -/
theorem dot_at {a k b : ℕ} {φ₁ φ₂ : FTy} (D : DotDims ⟨2, ![a, k]⟩ ⟨2, ![k, b]⟩ ⟨2, ![a, b]⟩)
    (hl : D.lhsContracting = [1]) (hr : D.rhsContracting = [0])
    (hrank : D.contr.rank = 1) (hs : D.contr.size ⟨0, by omega⟩ = k)
    (hl0 : ∀ (j : (⟨2, ![a, b]⟩ : Shape).Idx) (q : D.contr.Idx), (D.lhsIdx j q 0).val = (j 0).val)
    (hr1 : ∀ (j : (⟨2, ![a, b]⟩ : Shape).Idx) (q : D.contr.Idx), (D.rhsIdx j q 1).val = (j 1).val)
    (prec : Option ContractPrecision)
    (x : FVec Ideal ⟨2, ![a, k]⟩ φ₁) (y : FVec Ideal ⟨2, ![k, b]⟩ φ₂) (n : Fin a) (o : Fin b) :
    Host.dotGeneral D prec x y (ix2 n o) = ∑ j : Fin k, x (ix2 n j) * y (ix2 j o) := by
  simp only [Host.dotGeneral]
  rw [Ideal.dotGeneral_apply, ← Equiv.sum_comp (contrEquiv1 D k hrank hs).symm]
  refine Finset.sum_congr rfl fun j _ => ?_
  have e1 : D.lhsIdx (ix2 n o) ((contrEquiv1 D k hrank hs).symm j) = ix2 n j := by
    funext ax
    match ax with
    | ⟨0, _⟩ => exact Fin.ext (hl0 _ _)
    | ⟨1, _⟩ => exact Fin.ext ((D.lhsIdx_val_of_single hl _ _).trans (contrEquiv1_symm_val D k hrank hs j))
  have e2 : D.rhsIdx (ix2 n o) ((contrEquiv1 D k hrank hs).symm j) = ix2 j o := by
    funext ax
    match ax with
    | ⟨0, _⟩ => exact Fin.ext ((D.rhsIdx_val_of_single hr _ _).trans (contrEquiv1_symm_val D k hrank hs j))
    | ⟨1, _⟩ => exact Fin.ext (hr1 _ _)
  rw [e1, e2]

/-- A maximum along the second axis, from an initial scalar, at row `n`: the fold of `max` over the row. -/
theorem rowmax_at {a k : ℕ} {φ : FTy} (z : FVec Ideal ⟨2, ![a, k]⟩ φ) (init : (⟨0, ![]⟩ : Shape).Idx → Ideal φ)
    (h' : (⟨2, ![a, k]⟩ : Shape).ReducesTo [1] ⟨1, ![a]⟩) (h : (⟨2, ![a, k]⟩ : Shape).Reduces [1] ⟨1, ![a]⟩)
    (hu : 0 < (⟨0, ![]⟩ : Shape).numel) (n : Fin a) :
    Host.reduce (FloatOps.maximumf (F := Ideal) (φ := φ)) z init h' hu (ix1 n)
      = (Finset.univ : Finset (Fin k)).fold max (init ix0) (fun c => z (ix2 n c)) := by
  rw [Host.reduce_eq_fold_single _ z init h' h hu (ix1 n)]
  have e0 : init (Shape.Idx.first hu) = init ix0 := congrArg init (eq_ix0 _)
  have e1 : (z ∘ h.lift (ix1 n)) = fun c => z (ix2 n c) := by
    funext c
    refine congrArg z (funext fun ax => ?_)
    match ax with
    | ⟨0, _⟩ => exact Fin.ext rfl
    | ⟨1, _⟩ => exact Fin.ext rfl
  rw [e0, e1]
  rfl

/-- A sum along the second axis, from an initial scalar, at row `n`: the scalar plus the row's sum. -/
theorem rowsum_at {a k : ℕ} {φ : FTy} (z : FVec Ideal ⟨2, ![a, k]⟩ φ) (init : (⟨0, ![]⟩ : Shape).Idx → Ideal φ)
    (h' : (⟨2, ![a, k]⟩ : Shape).ReducesTo [1] ⟨1, ![a]⟩) (h : (⟨2, ![a, k]⟩ : Shape).Reduces [1] ⟨1, ![a]⟩)
    (hu : 0 < (⟨0, ![]⟩ : Shape).numel) (n : Fin a) :
    Host.reduceAdd z init h' hu (ix1 n) = init ix0 + ∑ c : Fin k, z (ix2 n c) := by
  rw [hostReduceAdd_apply, Ideal.hostReduceAdd_single h' h z _ (ix1 n)]
  have e0 : init (Shape.Idx.first hu) = init ix0 := congrArg init (eq_ix0 _)
  rw [e0]
  refine congrArg (init ix0 + ·) (Finset.sum_congr rfl fun c _ => congrArg z (funext fun ax => ?_))
  match ax with
  | ⟨0, _⟩ => exact Fin.ext rfl
  | ⟨1, _⟩ => exact Fin.ext rfl

end Cert.HostForms

end
-- ==== Proof.RefTail.lean ====
/-
  The reference's last operations compute, from the pooled features `x`, exactly the head of `Cert.Head`:
  the hidden layer is one matrix product with the transposed weights plus the bias repeated down the rows; each head is
  again a product with transposed weights plus a bias row; the class head ends with the row softmax (maximum from `-∞`,
  shift, exponential, row sum from zero, quotient). Each array is read at an index `(n, o)` and met with the
  coordinate-wise definition.
-/
import proofs.«164577_j44624710206046_1_alg».proof.Proof.RefTailOps
import proofs.«164577_j44624710206046_1_alg».proof.Proof.LibHostForms
import proofs.«164577_j44624710206046_1_alg».proof.Proof.HeadSpec

noncomputable section

namespace Cert.ReferenceIdeal.Tail

open Cert.ReferenceIdeal Cert.ReferenceIdeal.Gen Idealize.ShloMosaic Idealize.ShloMosaic.TcCoe Idealize.ShloMosaic.StableHlo
open Idealize.ShloMosaic.ValueIdx Cert.HostForms

/-- The hidden layer as an array: features times transposed weights, plus the bias row repeated. -/
def hiddenArr (x : FVec Ideal S128x50176 .f32) (w : FVec Ideal S1024x50176 .f32) (b : FVec Ideal S1024 .f32) :
    FVec Ideal S128x1024 .f32 :=
  addf (Host.dotGeneral dot_S128x50176_S50176x1024_S128x1024_1_0_0_1_n_n none x
      (transpose S50176x1024 [1, 0] w transposes_S1024x50176_S50176x1024_1_0))
    (broadcastInDim S128x1024 ![0, 1] bcast_S1x1024_S128x1024_0_1 (broadcastInDim S1x1024 ![1] bcast_S1024_S1x1024_1 b))

theorem hiddenArr_at (x : FVec Ideal S128x50176 .f32) (w : FVec Ideal S1024x50176 .f32) (b : FVec Ideal S1024 .f32)
    (n : Fin 128) (o : Fin 1024) : hiddenArr x w b (ix2 n o) = Cert.Head.hidden x w b n o := by
  unfold hiddenArr Cert.Head.hidden
  rw [addf_apply, dot_at _ rfl rfl rfl rfl (fun _ _ => rfl) (fun _ _ => rfl), row_bcast_at (by norm_num)]
  refine congrArg (· + b (ix1 o)) (Finset.sum_congr rfl fun j _ => ?_)
  rw [transpose_at]

/-- The class logits as an array. -/
def logitsArr (h : FVec Ideal S128x1024 .f32) (v : FVec Ideal S21x1024 .f32) (d : FVec Ideal S21 .f32) :
    FVec Ideal S128x21 .f32 :=
  addf (Host.dotGeneral dot_S128x1024_S1024x21_S128x21_1_0_0_1_n_n none h
      (transpose S1024x21 [1, 0] v transposes_S21x1024_S1024x21_1_0))
    (broadcastInDim S128x21 ![0, 1] bcast_S1x21_S128x21_0_1 (broadcastInDim S1x21 ![1] bcast_S21_S1x21_1 d))

theorem logitsArr_at (h : FVec Ideal S128x1024 .f32) (v : FVec Ideal S21x1024 .f32) (d : FVec Ideal S21 .f32)
    (n : Fin 128) (c : Fin 21) :
    logitsArr h v d (ix2 n c) = Cert.Head.linear (fun n o => h (ix2 n o)) v d n c := by
  unfold logitsArr Cert.Head.linear
  rw [addf_apply, dot_at _ rfl rfl rfl rfl (fun _ _ => rfl) (fun _ _ => rfl), row_bcast_at (by norm_num)]
  refine congrArg (· + d (ix1 c)) (Finset.sum_congr rfl fun j _ => ?_)
  rw [transpose_at]

/-- The box regression as an array. -/
def regArr (h : FVec Ideal S128x1024 .f32) (v : FVec Ideal S4x1024 .f32) (d : FVec Ideal S4 .f32) :
    FVec Ideal S128x4 .f32 :=
  addf (Host.dotGeneral dot_S128x1024_S1024x4_S128x4_1_0_0_1_n_n none h
      (transpose S1024x4 [1, 0] v transposes_S4x1024_S1024x4_1_0))
    (broadcastInDim S128x4 ![0, 1] bcast_S1x4_S128x4_0_1 (broadcastInDim S1x4 ![1] bcast_S4_S1x4_1 d))

theorem regArr_at (h : FVec Ideal S128x1024 .f32) (v : FVec Ideal S4x1024 .f32) (d : FVec Ideal S4 .f32)
    (n : Fin 128) (q : Fin 4) :
    regArr h v d (ix2 n q) = Cert.Head.linear (fun n o => h (ix2 n o)) v d n q := by
  unfold regArr Cert.Head.linear
  rw [addf_apply, dot_at _ rfl rfl rfl rfl (fun _ _ => rfl) (fun _ _ => rfl), row_bcast_at (by norm_num)]
  refine congrArg (· + d (ix1 q)) (Finset.sum_congr rfl fun j _ => ?_)
  rw [transpose_at]

/-- Each row's shift, repeated along the row. -/
def shiftArr (z : FVec Ideal S128x21 .f32) : FVec Ideal S128x21 .f32 :=
  broadcastInDim S128x21 ![0, 1] bcast_S128x1_S128x21_0_1 (broadcastInDim S128x1 ![0] bcast_S128_S128x1_0
    (maximumf (broadcastInDim S128 ![] bcast_S_S128 (constant (F := Ideal) S_ .f32 0xFF800000#32))
      (Host.reduce FloatOps.maximumf z (constant (F := Ideal) S_ .f32 0xFF800000#32) reducesTo_S128x21_S128_d1 h_S_)))

theorem shiftArr_at (z : FVec Ideal S128x21 .f32) (n : Fin 128) (c : Fin 21) :
    shiftArr z (ix2 n c) = Cert.Head.rowShift (fun n c => z (ix2 n c)) n := by
  unfold shiftArr Cert.Head.rowShift
  rw [col_bcast_at (by norm_num), maximumf_apply, broadcastInDim_scalar_apply,
    rowmax_at z _ reducesTo_S128x21_S128_d1 (by decide) h_S_ n]
  rfl

/-- The exponentials of the shifted logits. -/
def expArr (z : FVec Ideal S128x21 .f32) : FVec Ideal S128x21 .f32 := Host.exp (subf z (shiftArr z))

theorem expArr_at (z : FVec Ideal S128x21 .f32) (n : Fin 128) (c : Fin 21) :
    expArr z (ix2 n c) = Cert.Head.expShift (fun n c => z (ix2 n c)) n c := by
  unfold expArr Cert.Head.expShift
  show Ideal.exp (subf z (shiftArr z) (ix2 n c)) = _
  rw [subf_apply, shiftArr_at]

/-- The row softmax as an array. -/
def softmaxArr (z : FVec Ideal S128x21 .f32) : FVec Ideal S128x21 .f32 :=
  Host.divf (expArr z)
    (broadcastInDim S128x21 ![0, 1] bcast_S128x1_S128x21_0_1 (broadcastInDim S128x1 ![0] bcast_S128_S128x1_0
      (Host.reduceAdd (expArr z) (constant (F := Ideal) S_ .f32 0x00000000#32) reducesTo_S128x21_S128_d1 h_S_)))

theorem softmaxArr_at (z : FVec Ideal S128x21 .f32) (n : Fin 128) (c : Fin 21) :
    softmaxArr z (ix2 n c) = Cert.Head.softmax (fun n c => z (ix2 n c)) n c := by
  unfold softmaxArr Cert.Head.softmax
  rw [hostDivf_apply, col_bcast_at (by norm_num), rowsum_at (expArr z) _ reducesTo_S128x21_S128_d1 (by decide) h_S_ n,
    constant_apply, Ideal.ofBits_zero_f32, zero_add, expArr_at]
  refine congrArg (Ideal.div _) (Finset.sum_congr rfl fun c' _ => ?_)
  rw [expArr_at]

/-- The class probabilities the tail computes are the head's. -/
theorem cls_eq (x : FVec Ideal S128x50176 .f32) (w : FVec Ideal S1024x50176 .f32) (b : FVec Ideal S1024 .f32)
    (v : FVec Ideal S21x1024 .f32) (d : FVec Ideal S21 .f32) :
    softmaxArr (logitsArr (hiddenArr x w b) v d) = Cert.Head.cls x w b v d := by
  funext i
  obtain ⟨n, c, rfl⟩ : ∃ (n : Fin 128) (c : Fin 21), i = ix2 n c := ⟨i 0, i 1, eq_ix2 i⟩
  rw [softmaxArr_at]
  unfold Cert.Head.cls
  refine congrArg (fun z => Cert.Head.softmax z n c) (funext fun n' => funext fun c' => ?_)
  rw [logitsArr_at]
  refine congrArg (fun h => Cert.Head.linear h v d n' c') (funext fun a => funext fun o => ?_)
  rw [hiddenArr_at]

/-- The box regression the tail computes is the head's. -/
theorem reg_eq (x : FVec Ideal S128x50176 .f32) (w : FVec Ideal S1024x50176 .f32) (b : FVec Ideal S1024 .f32)
    (v : FVec Ideal S4x1024 .f32) (d : FVec Ideal S4 .f32) :
    regArr (hiddenArr x w b) v d = Cert.Head.reg x w b v d := by
  funext i
  obtain ⟨n, q, rfl⟩ : ∃ (n : Fin 128) (q : Fin 4), i = ix2 n q := ⟨i 0, i 1, eq_ix2 i⟩
  rw [regArr_at]
  unfold Cert.Head.reg
  refine congrArg (fun h => Cert.Head.linear h v d n q) (funext fun a => funext fun o => ?_)
  rw [hiddenArr_at]

/-- After the tail's operations the class result holds the head's class probabilities of what the pooled-features
    buffer and the argument buffers held before them. -/
theorem tail_cls (W : Valuation τ sig (Elt Ideal)) :
    after (tailOps (F := Ideal)) W (main_v133 : DevRef τ sig)
      = Cert.Head.cls (W (main_v112 : DevRef τ sig)) (W (main_arg2 : DevRef τ sig)) (W (main_arg3 : DevRef τ sig))
          (W (main_arg4 : DevRef τ sig)) (W (main_arg5 : DevRef τ sig)) := by
  after_results_simp
  exact cls_eq _ _ _ _ _

/-- … and the regression result the head's box regression. -/
theorem tail_reg (W : Valuation τ sig (Elt Ideal)) :
    after (tailOps (F := Ideal)) W (main_v138 : DevRef τ sig)
      = Cert.Head.reg (W (main_v112 : DevRef τ sig)) (W (main_arg2 : DevRef τ sig)) (W (main_arg3 : DevRef τ sig))
          (W (main_arg6 : DevRef τ sig)) (W (main_arg7 : DevRef τ sig)) := by
  after_results_simp
  exact reg_eq _ _ _ _ _

end Cert.ReferenceIdeal.Tail

end
-- ==== Proof.RefSplice.lean ====
/-
  The reference's tail run after ANY list of operations that leaves the argument buffers alone: the class result is
  the head's class probabilities, and the regression result the head's box regression, of what that list left in the
  pooled-features buffer and of the arguments as launched; and the arguments end as launched.
-/
import proofs.«164577_j44624710206046_1_alg».proof.Proof.RefTail
import Idealize.ShloMosaic.Lib.Pipeline.Frame

noncomputable section

namespace Cert.ReferenceIdeal.Tail

open Cert.ReferenceIdeal Cert.ReferenceIdeal.Gen Idealize.ShloMosaic Idealize.ShloMosaic.TcCoe Idealize.ShloMosaic.StableHlo

/-! No operation of the tail writes an argument buffer. -/

theorem tail_keeps_arg0 (W : Valuation τ sig (Elt Ideal)) :
    after (tailOps (F := Ideal)) W (main_arg0 : DevRef τ sig) = W (main_arg0 : DevRef τ sig) := by
  after_results_simp

theorem tail_keeps_arg1 (W : Valuation τ sig (Elt Ideal)) :
    after (tailOps (F := Ideal)) W (main_arg1 : DevRef τ sig) = W (main_arg1 : DevRef τ sig) := by
  after_results_simp

theorem tail_keeps_arg2 (W : Valuation τ sig (Elt Ideal)) :
    after (tailOps (F := Ideal)) W (main_arg2 : DevRef τ sig) = W (main_arg2 : DevRef τ sig) := by
  after_results_simp

theorem tail_keeps_arg3 (W : Valuation τ sig (Elt Ideal)) :
    after (tailOps (F := Ideal)) W (main_arg3 : DevRef τ sig) = W (main_arg3 : DevRef τ sig) := by
  after_results_simp

theorem tail_keeps_arg4 (W : Valuation τ sig (Elt Ideal)) :
    after (tailOps (F := Ideal)) W (main_arg4 : DevRef τ sig) = W (main_arg4 : DevRef τ sig) := by
  after_results_simp

theorem tail_keeps_arg5 (W : Valuation τ sig (Elt Ideal)) :
    after (tailOps (F := Ideal)) W (main_arg5 : DevRef τ sig) = W (main_arg5 : DevRef τ sig) := by
  after_results_simp

theorem tail_keeps_arg6 (W : Valuation τ sig (Elt Ideal)) :
    after (tailOps (F := Ideal)) W (main_arg6 : DevRef τ sig) = W (main_arg6 : DevRef τ sig) := by
  after_results_simp

theorem tail_keeps_arg7 (W : Valuation τ sig (Elt Ideal)) :
    after (tailOps (F := Ideal)) W (main_arg7 : DevRef τ sig) = W (main_arg7 : DevRef τ sig) := by
  after_results_simp

/-- The class result after `pre` followed by the tail. -/
theorem spliced_cls (pre : List (HloOp τ sig (Elt Ideal))) (L : Valuation τ sig (Elt Ideal))
    (h2 : after pre L (main_arg2 : DevRef τ sig) = L (main_arg2 : DevRef τ sig))
    (h3 : after pre L (main_arg3 : DevRef τ sig) = L (main_arg3 : DevRef τ sig))
    (h4 : after pre L (main_arg4 : DevRef τ sig) = L (main_arg4 : DevRef τ sig))
    (h5 : after pre L (main_arg5 : DevRef τ sig) = L (main_arg5 : DevRef τ sig)) :
    after (pre ++ tailOps) L (main_v133 : DevRef τ sig)
      = Cert.Head.cls (after pre L (main_v112 : DevRef τ sig)) (L (main_arg2 : DevRef τ sig)) (L (main_arg3 : DevRef τ sig))
          (L (main_arg4 : DevRef τ sig)) (L (main_arg5 : DevRef τ sig)) := by
  rw [StableHlo.after_append, tail_cls, h2, h3, h4, h5]

/-- The regression result after `pre` followed by the tail. -/
theorem spliced_reg (pre : List (HloOp τ sig (Elt Ideal))) (L : Valuation τ sig (Elt Ideal))
    (h2 : after pre L (main_arg2 : DevRef τ sig) = L (main_arg2 : DevRef τ sig))
    (h3 : after pre L (main_arg3 : DevRef τ sig) = L (main_arg3 : DevRef τ sig))
    (h6 : after pre L (main_arg6 : DevRef τ sig) = L (main_arg6 : DevRef τ sig))
    (h7 : after pre L (main_arg7 : DevRef τ sig) = L (main_arg7 : DevRef τ sig)) :
    after (pre ++ tailOps) L (main_v138 : DevRef τ sig)
      = Cert.Head.reg (after pre L (main_v112 : DevRef τ sig)) (L (main_arg2 : DevRef τ sig)) (L (main_arg3 : DevRef τ sig))
          (L (main_arg6 : DevRef τ sig)) (L (main_arg7 : DevRef τ sig)) := by
  rw [StableHlo.after_append, tail_reg, h2, h3, h6, h7]

end Cert.ReferenceIdeal.Tail

end
-- ==== Proof.PooledStages.lean ====
/-
  The operations before the hidden layer, cut into three stages at the same places in both programs:
  stage A ends with the fourth table of bin boundaries' quotient (`main_v45`), stage B with the clamped row and column
  tables (`main_v85`), stage C with the pooled features (`main_v112`). Each program's whole list is its three stages
  one after the other.
-/
import proofs.«164577_j44624710206046_1_alg».proof.Proof.RefPrefixOps
import proofs.«164577_j44624710206046_1_alg».proof.Proof.Gen.KernelIdeal.Frame.Runs
import Idealize.ShloMosaic.Lib.Pipeline.Frame

noncomputable section

namespace Cert.Pooled

open Idealize.ShloMosaic Idealize.ShloMosaic.TcCoe Idealize.ShloMosaic.StableHlo

variable {F : FTy → Type} [FloatOps F]

/-- The reference's stage A: its first 119 operations. -/
abbrev refA : List (HloOp Cert.ReferenceIdeal.τ Cert.ReferenceIdeal.sig (Elt F)) :=
  (Cert.ReferenceIdeal.HostRun.part0Ops).take 119
/-- The reference's stage B: the next 74. -/
abbrev refB : List (HloOp Cert.ReferenceIdeal.τ Cert.ReferenceIdeal.sig (Elt F)) :=
  (Cert.ReferenceIdeal.HostRun.part0Ops).drop 119 ++ (Cert.ReferenceIdeal.HostRun.part1Ops).take 69
/-- The reference's stage C: the rest, up to the pooled features. -/
abbrev refC : List (HloOp Cert.ReferenceIdeal.τ Cert.ReferenceIdeal.sig (Elt F)) :=
  (Cert.ReferenceIdeal.HostRun.part1Ops).drop 69 ++ Cert.ReferenceIdeal.HostRun.part2aOps

theorem ref_split : (Cert.ReferenceIdeal.HostRun.prefixOps : List (HloOp Cert.ReferenceIdeal.τ Cert.ReferenceIdeal.sig (Elt F)))
    = refA ++ (refB ++ refC) := by
  show Cert.ReferenceIdeal.HostRun.part0Ops ++ Cert.ReferenceIdeal.HostRun.part1Ops ++ Cert.ReferenceIdeal.HostRun.part2aOps = _
  conv_lhs => rw [← List.take_append_drop 119 (Cert.ReferenceIdeal.HostRun.part0Ops (F := F)),
    ← List.take_append_drop 69 (Cert.ReferenceIdeal.HostRun.part1Ops (F := F))]
  simp only [List.append_assoc]

/-- The kernel program's stage A. -/
abbrev kerA : List (HloOp Cert.KernelIdeal.τ Cert.KernelIdeal.sig (Elt F)) :=
  Cert.KernelIdeal.Gen.hostOps0 ++ Cert.KernelIdeal.Gen.hostOps0_1 ++ Cert.KernelIdeal.Gen.hostOps0_2 ++ Cert.KernelIdeal.Gen.hostOps0_3 ++ Cert.KernelIdeal.Gen.hostOps0_4 ++ Cert.KernelIdeal.Gen.hostOps0_5 ++ Cert.KernelIdeal.Gen.hostOps0_6 ++ Cert.KernelIdeal.Gen.hostOps0_7
/-- The kernel program's stage B. -/
abbrev kerB : List (HloOp Cert.KernelIdeal.τ Cert.KernelIdeal.sig (Elt F)) :=
  Cert.KernelIdeal.Gen.hostOps0_8 ++ Cert.KernelIdeal.Gen.hostOps0_9 ++ Cert.KernelIdeal.Gen.hostOps0_10 ++ Cert.KernelIdeal.Gen.hostOps0_11 ++ Cert.KernelIdeal.Gen.hostOps0_12 ++ Cert.KernelIdeal.Gen.hostOps0_13
/-- The kernel program's stage C (its last three operations reshape the biases and do not touch the pooled features). -/
abbrev kerC : List (HloOp Cert.KernelIdeal.τ Cert.KernelIdeal.sig (Elt F)) :=
  Cert.KernelIdeal.Gen.hostOps0_14 ++ Cert.KernelIdeal.Gen.hostOps0_15 ++ Cert.KernelIdeal.Gen.hostOps0_16

theorem ker_split : (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16] : List (HloOp Cert.KernelIdeal.τ Cert.KernelIdeal.sig (Elt F)))
    = kerA ++ (kerB ++ kerC) := by
  simp only [List.flatten_cons, List.flatten_nil, List.append_nil, List.append_assoc]

end Cert.Pooled

end
-- ==== Proof.StageA.lean ====
/-
  Stage A of the agreement of the two programs' shared operations: the four corner columns of the boxes, their widths
  and heights, the first two tables of bin boundaries and the quotient of the third. The stage reads the boxes only.
  Both programs run the same operations in the same order over their own tables of buffers, so at each buffer that
  later stages read, the two folds of results are one and the same composed function of the boxes.
-/
import proofs.«164577_j44624710206046_1_alg».proof.Proof.PooledStages

noncomputable section

namespace Cert.Pooled

open Idealize.ShloMosaic Idealize.ShloMosaic.TcCoe Idealize.ShloMosaic.StableHlo

variable {F : FTy → Type} [FloatOps F]

set_option maxRecDepth 16384 in
set_option maxHeartbeats 4000000 in
/-- Over any two tables of contents that agree on the boxes: after stage A the two programs agree on the second
    column, the heights, the bin indices, the first two tables of bin boundaries and the third table's quotient.
    Each side's fold unrolls to the composition of its operations' functions applied to the boxes (every intermediate
    buffer is written once, before it is read), and the two compositions are the same term. -/
theorem stageA (W : Valuation Cert.KernelIdeal.τ Cert.KernelIdeal.sig (Elt F))
    (W' : Valuation Cert.ReferenceIdeal.τ Cert.ReferenceIdeal.sig (Elt F))
    (h1 : W' (Proc.devRef .tc Cert.ReferenceIdeal.main_arg1) = W (Proc.devRef .tc Cert.KernelIdeal.main_arg1)) :
    after refA W' (Proc.devRef .tc Cert.ReferenceIdeal.main_v4) = after kerA W (Proc.devRef .tc Cert.KernelIdeal.main_v4)
    ∧ after refA W' (Proc.devRef .tc Cert.ReferenceIdeal.main_v14) = after kerA W (Proc.devRef .tc Cert.KernelIdeal.main_v14)
    ∧ after refA W' (Proc.devRef .tc Cert.ReferenceIdeal.main_v15) = after kerA W (Proc.devRef .tc Cert.KernelIdeal.main_v15)
    ∧ after refA W' (Proc.devRef .tc Cert.ReferenceIdeal.main_v24) = after kerA W (Proc.devRef .tc Cert.KernelIdeal.main_v24)
    ∧ after refA W' (Proc.devRef .tc Cert.ReferenceIdeal.main_v39) = after kerA W (Proc.devRef .tc Cert.KernelIdeal.main_v39)
    ∧ after refA W' (Proc.devRef .tc Cert.ReferenceIdeal.main_v45) = after kerA W (Proc.devRef .tc Cert.KernelIdeal.main_v45) := by
  simp only [refA, kerA, Cert.ReferenceIdeal.HostRun.part0Ops,
    Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7,
    List.take_succ_cons, List.take_zero, List.cons_append, List.nil_append, List.append_assoc, List.append_nil]
  after_results_simp
  first | rw [h1] | fail "rewriting the boxes"
  refine ⟨?_, ?_, ?_, ?_, ?_, ?_⟩
  · first | rfl | fail "column"
  · first | rfl | fail "heights"
  · first | exact True.intro | rfl | fail "bin indices"
  · first | rfl | fail "first table"
  · first | rfl | fail "second table"
  · first | rfl | fail "third quotient"

set_option maxRecDepth 16384 in
set_option maxHeartbeats 4000000 in
/-- No operation of the reference's stage A writes the feature map. -/
theorem refA_keeps_arg0 (W' : Valuation Cert.ReferenceIdeal.τ Cert.ReferenceIdeal.sig (Elt F)) :
    after refA W' (Proc.devRef .tc Cert.ReferenceIdeal.main_arg0) = W' (Proc.devRef .tc Cert.ReferenceIdeal.main_arg0) := by
  simp only [refA, Cert.ReferenceIdeal.HostRun.part0Ops, List.take_succ_cons, List.take_zero]
  after_results_simp

set_option maxRecDepth 16384 in
set_option maxHeartbeats 4000000 in
/-- No operation of the kernel program's stage A writes the feature map. -/
theorem kerA_keeps_arg0 (W : Valuation Cert.KernelIdeal.τ Cert.KernelIdeal.sig (Elt F)) :
    after kerA W (Proc.devRef .tc Cert.KernelIdeal.main_arg0) = W (Proc.devRef .tc Cert.KernelIdeal.main_arg0) := by
  simp only [kerA, Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.KernelIdeal.Gen.hostOps0_7,
    List.cons_append, List.nil_append, List.append_assoc, List.append_nil]
  after_results_simp

set_option maxRecDepth 16384 in
set_option maxHeartbeats 4000000 in
/-- No operation of the reference's stage B writes the feature map. -/
theorem refB_keeps_arg0 (W' : Valuation Cert.ReferenceIdeal.τ Cert.ReferenceIdeal.sig (Elt F)) :
    after refB W' (Proc.devRef .tc Cert.ReferenceIdeal.main_arg0) = W' (Proc.devRef .tc Cert.ReferenceIdeal.main_arg0) := by
  simp only [refB, Cert.ReferenceIdeal.HostRun.part0Ops, Cert.ReferenceIdeal.HostRun.part1Ops,
    List.take_succ_cons, List.take_zero, List.drop_succ_cons, List.drop_zero, List.cons_append, List.nil_append]
  after_results_simp

set_option maxRecDepth 16384 in
set_option maxHeartbeats 4000000 in
/-- No operation of the kernel program's stage B writes the feature map. -/
theorem kerB_keeps_arg0 (W : Valuation Cert.KernelIdeal.τ Cert.KernelIdeal.sig (Elt F)) :
    after kerB W (Proc.devRef .tc Cert.KernelIdeal.main_arg0) = W (Proc.devRef .tc Cert.KernelIdeal.main_arg0) := by
  simp only [kerB, Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    List.cons_append, List.nil_append, List.append_assoc, List.append_nil]
  after_results_simp

end Cert.Pooled

end
-- ==== Proof.StageB.lean ====
/-
  The second stage of the operations before the hidden layer, run by both programs: from the boxes' corner columns,
  their widths and heights and the bin-boundary quotients to the row and column tables of the pooling windows, clamped
  into the feature map, together with the masks that say which table entries lie inside a bin. Both programs apply the
  same operations in the same order, so equal inputs give equal tables and masks.
-/
import proofs.«164577_j44624710206046_1_alg».proof.Proof.PooledStages

noncomputable section

namespace Cert.Pooled

open Idealize.ShloMosaic Idealize.ShloMosaic.TcCoe Idealize.ShloMosaic.StableHlo

variable {F : FTy → Type} [FloatOps F]

set_option maxRecDepth 16384 in
set_option maxHeartbeats 4000000 in
/-- The row mask agrees. -/
theorem stageB_v80 (W : Valuation Cert.KernelIdeal.τ Cert.KernelIdeal.sig (Elt F)) (W' : Valuation Cert.ReferenceIdeal.τ Cert.ReferenceIdeal.sig (Elt F))
    (h4 : W' (Proc.devRef .tc Cert.ReferenceIdeal.main_v4) = W (Proc.devRef .tc Cert.KernelIdeal.main_v4))
    (h14 : W' (Proc.devRef .tc Cert.ReferenceIdeal.main_v14) = W (Proc.devRef .tc Cert.KernelIdeal.main_v14))
    (h15 : W' (Proc.devRef .tc Cert.ReferenceIdeal.main_v15) = W (Proc.devRef .tc Cert.KernelIdeal.main_v15))
    (h24 : W' (Proc.devRef .tc Cert.ReferenceIdeal.main_v24) = W (Proc.devRef .tc Cert.KernelIdeal.main_v24))
    (h39 : W' (Proc.devRef .tc Cert.ReferenceIdeal.main_v39) = W (Proc.devRef .tc Cert.KernelIdeal.main_v39))
    (h45 : W' (Proc.devRef .tc Cert.ReferenceIdeal.main_v45) = W (Proc.devRef .tc Cert.KernelIdeal.main_v45)) :
    after refB W' (Proc.devRef .tc Cert.ReferenceIdeal.main_v80) = after kerB W (Proc.devRef .tc Cert.KernelIdeal.main_v80) := by
  simp only [refB, kerB, Cert.ReferenceIdeal.HostRun.part0Ops, Cert.ReferenceIdeal.HostRun.part1Ops,
    Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    List.take_succ_cons, List.take_zero, List.drop_succ_cons, List.drop_zero, List.cons_append, List.nil_append,
    List.append_assoc, List.append_nil]
  after_results_simp
  simp only [h4, h14, h15, h24, h39, h45]

set_option maxRecDepth 16384 in
set_option maxHeartbeats 4000000 in
/-- The column mask agrees. -/
theorem stageB_v83 (W : Valuation Cert.KernelIdeal.τ Cert.KernelIdeal.sig (Elt F)) (W' : Valuation Cert.ReferenceIdeal.τ Cert.ReferenceIdeal.sig (Elt F))
    (h4 : W' (Proc.devRef .tc Cert.ReferenceIdeal.main_v4) = W (Proc.devRef .tc Cert.KernelIdeal.main_v4))
    (h14 : W' (Proc.devRef .tc Cert.ReferenceIdeal.main_v14) = W (Proc.devRef .tc Cert.KernelIdeal.main_v14))
    (h15 : W' (Proc.devRef .tc Cert.ReferenceIdeal.main_v15) = W (Proc.devRef .tc Cert.KernelIdeal.main_v15))
    (h24 : W' (Proc.devRef .tc Cert.ReferenceIdeal.main_v24) = W (Proc.devRef .tc Cert.KernelIdeal.main_v24))
    (h39 : W' (Proc.devRef .tc Cert.ReferenceIdeal.main_v39) = W (Proc.devRef .tc Cert.KernelIdeal.main_v39))
    (h45 : W' (Proc.devRef .tc Cert.ReferenceIdeal.main_v45) = W (Proc.devRef .tc Cert.KernelIdeal.main_v45)) :
    after refB W' (Proc.devRef .tc Cert.ReferenceIdeal.main_v83) = after kerB W (Proc.devRef .tc Cert.KernelIdeal.main_v83) := by
  simp only [refB, kerB, Cert.ReferenceIdeal.HostRun.part0Ops, Cert.ReferenceIdeal.HostRun.part1Ops,
    Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    List.take_succ_cons, List.take_zero, List.drop_succ_cons, List.drop_zero, List.cons_append, List.nil_append,
    List.append_assoc, List.append_nil]
  after_results_simp
  simp only [h4, h14, h15, h24, h39, h45]

set_option maxRecDepth 16384 in
set_option maxHeartbeats 4000000 in
/-- The clamped row table agrees. -/
theorem stageB_v84 (W : Valuation Cert.KernelIdeal.τ Cert.KernelIdeal.sig (Elt F)) (W' : Valuation Cert.ReferenceIdeal.τ Cert.ReferenceIdeal.sig (Elt F))
    (h4 : W' (Proc.devRef .tc Cert.ReferenceIdeal.main_v4) = W (Proc.devRef .tc Cert.KernelIdeal.main_v4))
    (h14 : W' (Proc.devRef .tc Cert.ReferenceIdeal.main_v14) = W (Proc.devRef .tc Cert.KernelIdeal.main_v14))
    (h15 : W' (Proc.devRef .tc Cert.ReferenceIdeal.main_v15) = W (Proc.devRef .tc Cert.KernelIdeal.main_v15))
    (h24 : W' (Proc.devRef .tc Cert.ReferenceIdeal.main_v24) = W (Proc.devRef .tc Cert.KernelIdeal.main_v24))
    (h39 : W' (Proc.devRef .tc Cert.ReferenceIdeal.main_v39) = W (Proc.devRef .tc Cert.KernelIdeal.main_v39))
    (h45 : W' (Proc.devRef .tc Cert.ReferenceIdeal.main_v45) = W (Proc.devRef .tc Cert.KernelIdeal.main_v45)) :
    after refB W' (Proc.devRef .tc Cert.ReferenceIdeal.main_v84) = after kerB W (Proc.devRef .tc Cert.KernelIdeal.main_v84) := by
  simp only [refB, kerB, Cert.ReferenceIdeal.HostRun.part0Ops, Cert.ReferenceIdeal.HostRun.part1Ops,
    Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    List.take_succ_cons, List.take_zero, List.drop_succ_cons, List.drop_zero, List.cons_append, List.nil_append,
    List.append_assoc, List.append_nil]
  after_results_simp
  simp only [h4, h14, h15, h24, h39, h45]

set_option maxRecDepth 16384 in
set_option maxHeartbeats 4000000 in
/-- The clamped column table agrees. -/
theorem stageB_v85 (W : Valuation Cert.KernelIdeal.τ Cert.KernelIdeal.sig (Elt F)) (W' : Valuation Cert.ReferenceIdeal.τ Cert.ReferenceIdeal.sig (Elt F))
    (h4 : W' (Proc.devRef .tc Cert.ReferenceIdeal.main_v4) = W (Proc.devRef .tc Cert.KernelIdeal.main_v4))
    (h14 : W' (Proc.devRef .tc Cert.ReferenceIdeal.main_v14) = W (Proc.devRef .tc Cert.KernelIdeal.main_v14))
    (h15 : W' (Proc.devRef .tc Cert.ReferenceIdeal.main_v15) = W (Proc.devRef .tc Cert.KernelIdeal.main_v15))
    (h24 : W' (Proc.devRef .tc Cert.ReferenceIdeal.main_v24) = W (Proc.devRef .tc Cert.KernelIdeal.main_v24))
    (h39 : W' (Proc.devRef .tc Cert.ReferenceIdeal.main_v39) = W (Proc.devRef .tc Cert.KernelIdeal.main_v39))
    (h45 : W' (Proc.devRef .tc Cert.ReferenceIdeal.main_v45) = W (Proc.devRef .tc Cert.KernelIdeal.main_v45)) :
    after refB W' (Proc.devRef .tc Cert.ReferenceIdeal.main_v85) = after kerB W (Proc.devRef .tc Cert.KernelIdeal.main_v85) := by
  simp only [refB, kerB, Cert.ReferenceIdeal.HostRun.part0Ops, Cert.ReferenceIdeal.HostRun.part1Ops,
    Cert.KernelIdeal.Gen.hostOps0_8, Cert.KernelIdeal.Gen.hostOps0_9, Cert.KernelIdeal.Gen.hostOps0_10,
    Cert.KernelIdeal.Gen.hostOps0_11, Cert.KernelIdeal.Gen.hostOps0_12, Cert.KernelIdeal.Gen.hostOps0_13,
    List.take_succ_cons, List.take_zero, List.drop_succ_cons, List.drop_zero, List.cons_append, List.nil_append,
    List.append_assoc, List.append_nil]
  after_results_simp
  simp only [h4, h14, h15, h24, h39, h45]

/-- Stage B carries agreement of its six inputs to agreement of the two masks and the two clamped tables. -/
theorem stageB (W : Valuation Cert.KernelIdeal.τ Cert.KernelIdeal.sig (Elt F)) (W' : Valuation Cert.ReferenceIdeal.τ Cert.ReferenceIdeal.sig (Elt F))
    (h4 : W' (Proc.devRef .tc Cert.ReferenceIdeal.main_v4) = W (Proc.devRef .tc Cert.KernelIdeal.main_v4))
    (h14 : W' (Proc.devRef .tc Cert.ReferenceIdeal.main_v14) = W (Proc.devRef .tc Cert.KernelIdeal.main_v14))
    (h15 : W' (Proc.devRef .tc Cert.ReferenceIdeal.main_v15) = W (Proc.devRef .tc Cert.KernelIdeal.main_v15))
    (h24 : W' (Proc.devRef .tc Cert.ReferenceIdeal.main_v24) = W (Proc.devRef .tc Cert.KernelIdeal.main_v24))
    (h39 : W' (Proc.devRef .tc Cert.ReferenceIdeal.main_v39) = W (Proc.devRef .tc Cert.KernelIdeal.main_v39))
    (h45 : W' (Proc.devRef .tc Cert.ReferenceIdeal.main_v45) = W (Proc.devRef .tc Cert.KernelIdeal.main_v45)) :
    after refB W' (Proc.devRef .tc Cert.ReferenceIdeal.main_v80) = after kerB W (Proc.devRef .tc Cert.KernelIdeal.main_v80)
      ∧ after refB W' (Proc.devRef .tc Cert.ReferenceIdeal.main_v83) = after kerB W (Proc.devRef .tc Cert.KernelIdeal.main_v83)
      ∧ after refB W' (Proc.devRef .tc Cert.ReferenceIdeal.main_v84) = after kerB W (Proc.devRef .tc Cert.KernelIdeal.main_v84)
      ∧ after refB W' (Proc.devRef .tc Cert.ReferenceIdeal.main_v85) = after kerB W (Proc.devRef .tc Cert.KernelIdeal.main_v85) :=
  ⟨stageB_v80 W W' h4 h14 h15 h24 h39 h45, stageB_v83 W W' h4 h14 h15 h24 h39 h45,
    stageB_v84 W W' h4 h14 h15 h24 h39 h45, stageB_v85 W W' h4 h14 h15 h24 h39 h45⟩

end Cert.Pooled

end
-- ==== Proof.StageC.lean ====
/-
  The third stage of the operations before the hidden layer, run by both programs: from the clamped row and column
  tables and the two masks to the pooled features. The stage is cut where the row and column index tables are joined
  into one table of index pairs: its first twenty operations build the two index tables from the clamped tables, and
  the rest gathers the feature map at the index pairs, masks the entries outside a bin with minus infinity, takes the
  maximum over each bin and lays the result out as one row of 50176 features per region. Both programs apply the same
  operations in the same order, so equal inputs give equal pooled features.
-/
import proofs.«164577_j44624710206046_1_alg».proof.Proof.PooledStages

noncomputable section

namespace Cert.Pooled

open Idealize.ShloMosaic Idealize.ShloMosaic.TcCoe Idealize.ShloMosaic.StableHlo

variable {F : FTy → Type} [FloatOps F]

set_option maxRecDepth 16384 in
set_option maxHeartbeats 4000000 in
/-- The first twenty operations of stage C: the row index table of the pooling windows agrees. -/
theorem stageC1_v100 (W : Valuation Cert.KernelIdeal.τ Cert.KernelIdeal.sig (Elt F)) (W' : Valuation Cert.ReferenceIdeal.τ Cert.ReferenceIdeal.sig (Elt F))
    (h84 : W' (Proc.devRef .tc Cert.ReferenceIdeal.main_v84) = W (Proc.devRef .tc Cert.KernelIdeal.main_v84))
    (h85 : W' (Proc.devRef .tc Cert.ReferenceIdeal.main_v85) = W (Proc.devRef .tc Cert.KernelIdeal.main_v85)) :
    after (refC.take 20) W' (Proc.devRef .tc Cert.ReferenceIdeal.main_v100) = after (kerC.take 20) W (Proc.devRef .tc Cert.KernelIdeal.main_v100) := by
  simp only [refC, kerC, Cert.ReferenceIdeal.HostRun.part1Ops, Cert.ReferenceIdeal.HostRun.part2aOps,
    Cert.KernelIdeal.Gen.hostOps0_14, Cert.KernelIdeal.Gen.hostOps0_15, Cert.KernelIdeal.Gen.hostOps0_16,
    List.take_succ_cons, List.take_zero, List.drop_succ_cons, List.drop_zero, List.cons_append, List.nil_append,
    List.append_assoc, List.append_nil]
  after_results_simp
  simp only [h84, h85]

set_option maxRecDepth 16384 in
set_option maxHeartbeats 4000000 in
/-- The first twenty operations of stage C: the column index table of the pooling windows agrees. -/
theorem stageC1_v101 (W : Valuation Cert.KernelIdeal.τ Cert.KernelIdeal.sig (Elt F)) (W' : Valuation Cert.ReferenceIdeal.τ Cert.ReferenceIdeal.sig (Elt F))
    (h84 : W' (Proc.devRef .tc Cert.ReferenceIdeal.main_v84) = W (Proc.devRef .tc Cert.KernelIdeal.main_v84))
    (h85 : W' (Proc.devRef .tc Cert.ReferenceIdeal.main_v85) = W (Proc.devRef .tc Cert.KernelIdeal.main_v85)) :
    after (refC.take 20) W' (Proc.devRef .tc Cert.ReferenceIdeal.main_v101) = after (kerC.take 20) W (Proc.devRef .tc Cert.KernelIdeal.main_v101) := by
  simp only [refC, kerC, Cert.ReferenceIdeal.HostRun.part1Ops, Cert.ReferenceIdeal.HostRun.part2aOps,
    Cert.KernelIdeal.Gen.hostOps0_14, Cert.KernelIdeal.Gen.hostOps0_15, Cert.KernelIdeal.Gen.hostOps0_16,
    List.take_succ_cons, List.take_zero, List.drop_succ_cons, List.drop_zero, List.cons_append, List.nil_append,
    List.append_assoc, List.append_nil]
  after_results_simp
  simp only [h84, h85]

set_option maxRecDepth 16384 in
set_option maxHeartbeats 4000000 in
/-- The first twenty operations of stage C leave the feature map and the two masks as they were, in the reference. -/
theorem stageC1_keep_ref (W' : Valuation Cert.ReferenceIdeal.τ Cert.ReferenceIdeal.sig (Elt F)) :
    after (refC.take 20) W' (Proc.devRef .tc Cert.ReferenceIdeal.main_arg0) = W' (Proc.devRef .tc Cert.ReferenceIdeal.main_arg0)
      ∧ after (refC.take 20) W' (Proc.devRef .tc Cert.ReferenceIdeal.main_v80) = W' (Proc.devRef .tc Cert.ReferenceIdeal.main_v80)
      ∧ after (refC.take 20) W' (Proc.devRef .tc Cert.ReferenceIdeal.main_v83) = W' (Proc.devRef .tc Cert.ReferenceIdeal.main_v83) := by
  simp only [refC, Cert.ReferenceIdeal.HostRun.part1Ops, Cert.ReferenceIdeal.HostRun.part2aOps,
    List.take_succ_cons, List.take_zero, List.drop_succ_cons, List.drop_zero, List.cons_append, List.nil_append,
    List.append_assoc, List.append_nil]
  refine ⟨?_, ?_, ?_⟩ <;> after_results_simp

set_option maxRecDepth 16384 in
set_option maxHeartbeats 4000000 in
/-- The first twenty operations of stage C leave the feature map and the two masks as they were, in the kernel's
    program. -/
theorem stageC1_keep_ker (W : Valuation Cert.KernelIdeal.τ Cert.KernelIdeal.sig (Elt F)) :
    after (kerC.take 20) W (Proc.devRef .tc Cert.KernelIdeal.main_arg0) = W (Proc.devRef .tc Cert.KernelIdeal.main_arg0)
      ∧ after (kerC.take 20) W (Proc.devRef .tc Cert.KernelIdeal.main_v80) = W (Proc.devRef .tc Cert.KernelIdeal.main_v80)
      ∧ after (kerC.take 20) W (Proc.devRef .tc Cert.KernelIdeal.main_v83) = W (Proc.devRef .tc Cert.KernelIdeal.main_v83) := by
  simp only [kerC, Cert.KernelIdeal.Gen.hostOps0_14, Cert.KernelIdeal.Gen.hostOps0_15, Cert.KernelIdeal.Gen.hostOps0_16,
    List.take_succ_cons, List.take_zero, List.drop_succ_cons, List.drop_zero, List.cons_append, List.nil_append,
    List.append_assoc, List.append_nil]
  refine ⟨?_, ?_, ?_⟩ <;> after_results_simp

attribute [local irreducible] Host.gather Host.reduce concatenate

set_option maxRecDepth 16384 in
set_option maxHeartbeats 4000000 in
/-- The rest of stage C, from the joined index table on: equal feature maps, masks and index tables give equal pooled
    features. -/
theorem stageC2 (V : Valuation Cert.KernelIdeal.τ Cert.KernelIdeal.sig (Elt F)) (V' : Valuation Cert.ReferenceIdeal.τ Cert.ReferenceIdeal.sig (Elt F))
    (h0 : V' (Proc.devRef .tc Cert.ReferenceIdeal.main_arg0) = V (Proc.devRef .tc Cert.KernelIdeal.main_arg0))
    (h80 : V' (Proc.devRef .tc Cert.ReferenceIdeal.main_v80) = V (Proc.devRef .tc Cert.KernelIdeal.main_v80))
    (h83 : V' (Proc.devRef .tc Cert.ReferenceIdeal.main_v83) = V (Proc.devRef .tc Cert.KernelIdeal.main_v83))
    (h100 : V' (Proc.devRef .tc Cert.ReferenceIdeal.main_v100) = V (Proc.devRef .tc Cert.KernelIdeal.main_v100))
    (h101 : V' (Proc.devRef .tc Cert.ReferenceIdeal.main_v101) = V (Proc.devRef .tc Cert.KernelIdeal.main_v101)) :
    after (refC.drop 20) V' (Proc.devRef .tc Cert.ReferenceIdeal.main_v112) = after (kerC.drop 20) V (Proc.devRef .tc Cert.KernelIdeal.main_v112) := by
  simp only [refC, kerC, Cert.ReferenceIdeal.HostRun.part1Ops, Cert.ReferenceIdeal.HostRun.part2aOps,
    Cert.KernelIdeal.Gen.hostOps0_14, Cert.KernelIdeal.Gen.hostOps0_15, Cert.KernelIdeal.Gen.hostOps0_16,
    List.take_succ_cons, List.take_zero, List.drop_succ_cons, List.drop_zero, List.cons_append, List.nil_append,
    List.append_assoc, List.append_nil]
  after_results_simp
  simp only [h0, h80, h83]
  rw [h100, h101]
  rfl

/-- Stage C carries agreement of the feature map, the two masks and the two clamped tables to agreement of the pooled
    features. -/
theorem stageC (W : Valuation Cert.KernelIdeal.τ Cert.KernelIdeal.sig (Elt F)) (W' : Valuation Cert.ReferenceIdeal.τ Cert.ReferenceIdeal.sig (Elt F))
    (h0 : W' (Proc.devRef .tc Cert.ReferenceIdeal.main_arg0) = W (Proc.devRef .tc Cert.KernelIdeal.main_arg0))
    (h80 : W' (Proc.devRef .tc Cert.ReferenceIdeal.main_v80) = W (Proc.devRef .tc Cert.KernelIdeal.main_v80))
    (h83 : W' (Proc.devRef .tc Cert.ReferenceIdeal.main_v83) = W (Proc.devRef .tc Cert.KernelIdeal.main_v83))
    (h84 : W' (Proc.devRef .tc Cert.ReferenceIdeal.main_v84) = W (Proc.devRef .tc Cert.KernelIdeal.main_v84))
    (h85 : W' (Proc.devRef .tc Cert.ReferenceIdeal.main_v85) = W (Proc.devRef .tc Cert.KernelIdeal.main_v85)) :
    after refC W' (Proc.devRef .tc Cert.ReferenceIdeal.main_v112) = after kerC W (Proc.devRef .tc Cert.KernelIdeal.main_v112) := by
  conv_lhs => rw [← List.take_append_drop 20 (refC (F := F)), StableHlo.after_append]
  conv_rhs => rw [← List.take_append_drop 20 (kerC (F := F)), StableHlo.after_append]
  have kr := stageC1_keep_ref (F := F) W'
  have kk := stageC1_keep_ker (F := F) W
  exact stageC2 (after (kerC.take 20) W) (after (refC.take 20) W')
    (kr.1.trans (h0.trans kk.1.symm)) (kr.2.1.trans (h80.trans kk.2.1.symm)) (kr.2.2.trans (h83.trans kk.2.2.symm))
    (stageC1_v100 W W' h84 h85) (stageC1_v101 W W' h84 h85)

end Cert.Pooled

end
-- ==== Proof.PooledAgree.lean ====
/-
  The pooled features agree. Before the hidden layer the two programs run the same operations, in the same order,
  over their own tables of buffers. Stage by stage, whatever the two tables hold, equal inputs give equal outputs:
  from the boxes, the bin boundaries (stage A); from those, the clamped row and column tables and the two masks
  (stage B); from those and the feature map, the pooled features (stage C). So, from memories that agree on the
  feature map and on the boxes, the two programs hold the same pooled features.
-/
import proofs.«164577_j44624710206046_1_alg».proof.Proof.StageA
import proofs.«164577_j44624710206046_1_alg».proof.Proof.StageB
import proofs.«164577_j44624710206046_1_alg».proof.Proof.StageC

noncomputable section

namespace Cert.Pooled

open Idealize.ShloMosaic Idealize.ShloMosaic.TcCoe Idealize.ShloMosaic.StableHlo

variable {F : FTy → Type} [FloatOps F]

/-- Over any two tables of contents that agree on the feature map and on the boxes, the two whole lists leave the same
    pooled features: the three stages, chained. -/
theorem pooled_agree_val (V : Valuation Cert.KernelIdeal.τ Cert.KernelIdeal.sig (Elt F))
    (V' : Valuation Cert.ReferenceIdeal.τ Cert.ReferenceIdeal.sig (Elt F))
    (h0 : V' (Proc.devRef .tc Cert.ReferenceIdeal.main_arg0) = V (Proc.devRef .tc Cert.KernelIdeal.main_arg0))
    (h1 : V' (Proc.devRef .tc Cert.ReferenceIdeal.main_arg1) = V (Proc.devRef .tc Cert.KernelIdeal.main_arg1)) :
    after Cert.ReferenceIdeal.HostRun.prefixOps V' (Proc.devRef .tc Cert.ReferenceIdeal.main_v112)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16]) V
          (Proc.devRef .tc Cert.KernelIdeal.main_v112) := by
  rw [ref_split, ker_split, StableHlo.after_append, StableHlo.after_append, StableHlo.after_append,
    StableHlo.after_append]
  obtain ⟨a4, a14, a15, a24, a39, a45⟩ := stageA V V' h1
  obtain ⟨b80, b83, b84, b85⟩ := stageB (after kerA V) (after refA V') a4 a14 a15 a24 a39 a45
  refine stageC (after kerB (after kerA V)) (after refB (after refA V')) ?_ b80 b83 b84 b85
  rw [refB_keeps_arg0, refA_keeps_arg0, kerB_keeps_arg0, kerA_keeps_arg0]
  exact h0

/-- From memories that agree on the feature map and on the boxes, the reference's operations before the hidden layer
    leave in its buffer of pooled features what the kernel's program holds in its own when its grid is entered. -/
theorem pooled_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev 1)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1)) :
    after Cert.ReferenceIdeal.HostRun.prefixOps (launchContents m' c) (Cert.ReferenceIdeal.main_v112 : DevRef _ _)
      = Cert.KernelIdeal.Gen.V m c Cert.KernelIdeal.main_v112 :=
  pooled_agree_val (launchContents m c) (launchContents m' c) h0 h1

end Cert.Pooled

end
-- ==== Proof.lean ====
/-
  The certificate's five claims.

  Both programs first pool the feature map over each region's bins by the same operations, so their pooled features
  agree (`Cert.Pooled.pooled_agree`). From them the reference computes the hidden layer as one inner product over all
  50176 features per unit, while the kernel adds up 28 blocks of 1792 features in a carried accumulator; a finite sum on
  the extended reals may be regrouped into consecutive blocks (`Cert.Head.partialHidden_full`), so both hidden layers
  are `Cert.Head.hidden`, and the two heads and the row softmax are the same functions of it on both sides
  (`Cert.KernelIdeal.HeadValue.run` for the kernel, `Cert.ReferenceIdeal.Tail.spliced_cls` / `spliced_reg` for the
  reference). Only the commutativity and associativity of addition are used: the inputs' finiteness is never opened.
  The kernel's two frames are its frame proofs; the reference's is its run with the results dropped: a line of host
  operations none of which writes an argument. The idealization rewrote nothing, so nothing is owed for it.
-/
import proofs.«164577_j44624710206046_1_alg».proof.Defs
import proofs.«164577_j44624710206046_1_alg».proof.Proof.Gen.Kernel
import proofs.«164577_j44624710206046_1_alg».proof.Proof.Gen.Kernel.Frame
import proofs.«164577_j44624710206046_1_alg».proof.Proof.Gen.KernelIdeal
import proofs.«164577_j44624710206046_1_alg».proof.Proof.Gen.KernelIdeal.Frame
import proofs.«164577_j44624710206046_1_alg».proof.Proof.Gen.KernelIdeal.Value
import proofs.«164577_j44624710206046_1_alg».proof.Proof.Gen.ReferenceIdeal
import proofs.«164577_j44624710206046_1_alg».proof.Proof.Gen.Pre_finite_inputs
import proofs.«164577_j44624710206046_1_alg».proof.Proof.KernelValue
import proofs.«164577_j44624710206046_1_alg».proof.Proof.RefRun
import proofs.«164577_j44624710206046_1_alg».proof.Proof.RefSplice
import proofs.«164577_j44624710206046_1_alg».proof.Proof.PooledAgree
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations none of which writes an argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun r h c =>
    ⟨(h c Cert.ReferenceIdeal.main_arg0).trans (by rw [StableHlo.after_append, Cert.ReferenceIdeal.Tail.tail_keeps_arg0, Cert.ReferenceIdeal.HostRun.prefix_keeps_arg0]),
      (h c Cert.ReferenceIdeal.main_arg1).trans (by rw [StableHlo.after_append, Cert.ReferenceIdeal.Tail.tail_keeps_arg1, Cert.ReferenceIdeal.HostRun.prefix_keeps_arg1]),
      (h c Cert.ReferenceIdeal.main_arg2).trans (by rw [StableHlo.after_append, Cert.ReferenceIdeal.Tail.tail_keeps_arg2, Cert.ReferenceIdeal.HostRun.prefix_keeps_arg2]),
      (h c Cert.ReferenceIdeal.main_arg3).trans (by rw [StableHlo.after_append, Cert.ReferenceIdeal.Tail.tail_keeps_arg3, Cert.ReferenceIdeal.HostRun.prefix_keeps_arg3]),
      (h c Cert.ReferenceIdeal.main_arg4).trans (by rw [StableHlo.after_append, Cert.ReferenceIdeal.Tail.tail_keeps_arg4, Cert.ReferenceIdeal.HostRun.prefix_keeps_arg4]),
      (h c Cert.ReferenceIdeal.main_arg5).trans (by rw [StableHlo.after_append, Cert.ReferenceIdeal.Tail.tail_keeps_arg5, Cert.ReferenceIdeal.HostRun.prefix_keeps_arg5]),
      (h c Cert.ReferenceIdeal.main_arg6).trans (by rw [StableHlo.after_append, Cert.ReferenceIdeal.Tail.tail_keeps_arg6, Cert.ReferenceIdeal.HostRun.prefix_keeps_arg6]),
      (h c Cert.ReferenceIdeal.main_arg7).trans (by rw [StableHlo.after_append, Cert.ReferenceIdeal.Tail.tail_keeps_arg7, Cert.ReferenceIdeal.HostRun.prefix_keeps_arg7])⟩)
    (Cert.ReferenceIdeal.HostRun.run_main (F := Ideal) m ρ)

/-- The idealization rewrote no operation. -/
theorem preserves : Cert.preserves_Kernel_KernelIdeal := trivial

/-- Both idealized programs end with the head's class probabilities and box regression of the same pooled features. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.HeadValue.run m ρ, ?_⟩
  refine (θ_run Cert.ReferenceIdeal.defs _ _).mono (fun r h c => ?_) (Cert.ReferenceIdeal.HostRun.run_main (F := Ideal) m' ρ')
  obtain ⟨a0, a1, a2, a3, a4, a5, a6, a7⟩ := hagree c
  refine ⟨?_, ?_, (h c Cert.ReferenceIdeal.main_arg0).trans (by rw [StableHlo.after_append, Cert.ReferenceIdeal.Tail.tail_keeps_arg0, Cert.ReferenceIdeal.HostRun.prefix_keeps_arg0]),
    (h c Cert.ReferenceIdeal.main_arg1).trans (by rw [StableHlo.after_append, Cert.ReferenceIdeal.Tail.tail_keeps_arg1, Cert.ReferenceIdeal.HostRun.prefix_keeps_arg1]),
    (h c Cert.ReferenceIdeal.main_arg2).trans (by rw [StableHlo.after_append, Cert.ReferenceIdeal.Tail.tail_keeps_arg2, Cert.ReferenceIdeal.HostRun.prefix_keeps_arg2]),
    (h c Cert.ReferenceIdeal.main_arg3).trans (by rw [StableHlo.after_append, Cert.ReferenceIdeal.Tail.tail_keeps_arg3, Cert.ReferenceIdeal.HostRun.prefix_keeps_arg3]),
    (h c Cert.ReferenceIdeal.main_arg4).trans (by rw [StableHlo.after_append, Cert.ReferenceIdeal.Tail.tail_keeps_arg4, Cert.ReferenceIdeal.HostRun.prefix_keeps_arg4]),
    (h c Cert.ReferenceIdeal.main_arg5).trans (by rw [StableHlo.after_append, Cert.ReferenceIdeal.Tail.tail_keeps_arg5, Cert.ReferenceIdeal.HostRun.prefix_keeps_arg5]),
    (h c Cert.ReferenceIdeal.main_arg6).trans (by rw [StableHlo.after_append, Cert.ReferenceIdeal.Tail.tail_keeps_arg6, Cert.ReferenceIdeal.HostRun.prefix_keeps_arg6]),
    (h c Cert.ReferenceIdeal.main_arg7).trans (by rw [StableHlo.after_append, Cert.ReferenceIdeal.Tail.tail_keeps_arg7, Cert.ReferenceIdeal.HostRun.prefix_keeps_arg7])⟩
  · rw [h c Cert.ReferenceIdeal.main_v133,
      Cert.ReferenceIdeal.Tail.spliced_cls _ _ (Cert.ReferenceIdeal.HostRun.prefix_keeps_arg2 _) (Cert.ReferenceIdeal.HostRun.prefix_keeps_arg3 _)
        (Cert.ReferenceIdeal.HostRun.prefix_keeps_arg4 _) (Cert.ReferenceIdeal.HostRun.prefix_keeps_arg5 _),
      Cert.Pooled.pooled_agree m m' c a0 a1]
    exact congr (congr (congr (congrArg (Cert.Head.cls _) a2) a3) a4) a5
  · rw [h c Cert.ReferenceIdeal.main_v138,
      Cert.ReferenceIdeal.Tail.spliced_reg _ _ (Cert.ReferenceIdeal.HostRun.prefix_keeps_arg2 _) (Cert.ReferenceIdeal.HostRun.prefix_keeps_arg3 _)
        (Cert.ReferenceIdeal.HostRun.prefix_keeps_arg6 _) (Cert.ReferenceIdeal.HostRun.prefix_keeps_arg7 _),
      Cert.Pooled.pooled_agree m m' c a0 a1]
    exact congr (congr (congr (congrArg (Cert.Head.reg _) a2) a3) a6) a7

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
